-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x192x48x48 : Shape := ⟨4, ![2, 192, 48, 48]⟩
abbrev S2x2x48x48 : Shape := ⟨4, ![2, 2, 48, 48]⟩
abbrev S2x2x192x4800x1 : Shape := ⟨5, ![2, 2, 192, 4800, 1]⟩
abbrev S2x2x192x1 : Shape := ⟨4, ![2, 2, 192, 1]⟩
abbrev S_ : Shape := ⟨0, ![]⟩

class Facts : Prop where
  bcast_S_S2x192x48x48 : S_.BroadcastsInDim S2x192x48x48 (![] : Fin 0 → Fin S2x192x48x48.rank)
  reducesTo_S2x192x48x48_S_d0_1_2_3 : S2x192x48x48.ReducesTo [0, 1, 2, 3] S_
  h_S_ : 0 < S_.numel
  bcast_S_S2x2x192x4800x1 : S_.BroadcastsInDim S2x2x192x4800x1 (![] : Fin 0 → Fin S2x2x192x4800x1.rank)
  reducesTo_S2x2x192x4800x1_S_d0_1_2_3_4 : S2x2x192x4800x1.ReducesTo [0, 1, 2, 3, 4] S_
  bcast_S_S2x2x192x1 : S_.BroadcastsInDim S2x2x192x1 (![] : Fin 0 → Fin S2x2x192x1.rank)
  reducesTo_S2x2x192x1_S_d0_1_2_3 : S2x2x192x1.ReducesTo [0, 1, 2, 3] S_

variable [Facts]

def fn {F : FTy → Type} [FloatOps F] (main_arg0 : FVec F S2x192x48x48 .f32) (main_arg1 : IVec S2x2x48x48 32) (main_arg2 : FVec F S2x2x192x4800x1 .f32) (main_arg3 : FVec F S2x2x192x1 .f32) : IVec S_ 1 :=
  let main_v0 : FVec F S2x192x48x48 .f32 := Host.absf main_arg0
  let main_cst : FVec F S_ .f32 := constant S_ .f32 0x7F800000#32
  let main_v1 : FVec F S2x192x48x48 .f32 := broadcastInDim S2x192x48x48 ![] bcast_S_S2x192x48x48 main_cst
  let main_v2 : IVec S2x192x48x48 1 := cmpf .olt main_v0 main_v1
  let main_c : IVec S_ 1 := constantI S_ 1 1#1
  let main_v3 : IVec S_ 1 := (fun x v => Host.reduce IntOp.andi x v reducesTo_S2x192x48x48_S_d0_1_2_3 h_S_) main_v2 main_c
  let main_v4 : FVec F S2x2x192x4800x1 .f32 := Host.absf main_arg2
  let main_cst_0 : FVec F S_ .f32 := constant S_ .f32 0x7F800000#32
  let main_v5 : FVec F S2x2x192x4800x1 .f32 := broadcastInDim S2x2x192x4800x1 ![] bcast_S_S2x2x192x4800x1 main_cst_0
  let main_v6 : IVec S2x2x192x4800x1 1 := cmpf .olt main_v4 main_v5
  let main_c_1 : IVec S_ 1 := constantI S_ 1 1#1
  let main_v7 : IVec S_ 1 := (fun x v => Host.reduce IntOp.andi x v reducesTo_S2x2x192x4800x1_S_d0_1_2_3_4 h_S_) main_v6 main_c_1
  let main_v8 : IVec S_ 1 := andi main_v3 main_v7
  let main_v9 : FVec F S2x2x192x1 .f32 := Host.absf main_arg3
  let main_cst_2 : FVec F S_ .f32 := constant S_ .f32 0x7F800000#32
  let main_v10 : FVec F S2x2x192x1 .f32 := broadcastInDim S2x2x192x1 ![] bcast_S_S2x2x192x1 main_cst_2
  let main_v11 : IVec S2x2x192x1 1 := cmpf .olt main_v9 main_v10
  let main_c_3 : IVec S_ 1 := constantI S_ 1 1#1
  let main_v12 : IVec S_ 1 := (fun x v => Host.reduce IntOp.andi x v reducesTo_S2x2x192x1_S_d0_1_2_3 h_S_) main_v11 main_c_3
  let main_v13 : IVec S_ 1 := andi main_v8 main_v12
  main_v13
-- ==== Kernel.lean ====
abbrev S2x192x48x48 : Shape := ⟨4, ![2, 192, 48, 48]⟩
abbrev S2x2x48x48 : Shape := ⟨4, ![2, 2, 48, 48]⟩
abbrev S2x2x192x4800x1 : Shape := ⟨5, ![2, 2, 192, 4800, 1]⟩
abbrev S2x2x192x1 : Shape := ⟨4, ![2, 2, 192, 1]⟩
abbrev S_ : Shape := ⟨0, ![]⟩
abbrev S2x192x52x52 : Shape := ⟨4, ![2, 192, 52, 52]⟩
abbrev S2x1x192x48x48 : Shape := ⟨5, ![2, 1, 192, 48, 48]⟩
abbrev S2x16x192x48x48 : Shape := ⟨5, ![2, 16, 192, 48, 48]⟩
abbrev S2x9x192x48x48 : Shape := ⟨5, ![2, 9, 192, 48, 48]⟩
abbrev S2x25x192x48x48 : Shape := ⟨5, ![2, 25, 192, 48, 48]⟩
abbrev S2x25x192x2304 : Shape := ⟨4, ![2, 25, 192, 2304]⟩
abbrev S2x2x52x52 : Shape := ⟨4, ![2, 2, 52, 52]⟩
abbrev S2x1x2x48x48 : Shape := ⟨5, ![2, 1, 2, 48, 48]⟩
abbrev S2x16x2x48x48 : Shape := ⟨5, ![2, 16, 2, 48, 48]⟩
abbrev S2x9x2x48x48 : Shape := ⟨5, ![2, 9, 2, 48, 48]⟩
abbrev S2x25x2x48x48 : Shape := ⟨5, ![2, 25, 2, 48, 48]⟩
abbrev S2x25x2x2304 : Shape := ⟨4, ![2, 25, 2, 2304]⟩
abbrev S2x2x2304 : Shape := ⟨3, ![2, 2, 2304]⟩
abbrev S2x25x1x2x2304 : Shape := ⟨5, ![2, 25, 1, 2, 2304]⟩
abbrev S2x1x2x1x2304 : Shape := ⟨5, ![2, 1, 2, 1, 2304]⟩
abbrev S2x25x2x2x2304 : Shape := ⟨5, ![2, 25, 2, 2, 2304]⟩
abbrev S2x2x192x192x25 : Shape := ⟨5, ![2, 2, 192, 192, 25]⟩
abbrev S2x25x2x192x192 : Shape := ⟨5, ![2, 25, 2, 192, 192]⟩
abbrev S2x25x384x192 : Shape := ⟨4, ![2, 25, 384, 192]⟩
abbrev S2x384x1 : Shape := ⟨3, ![2, 384, 1]⟩
abbrev S2x384x2304 : Shape := ⟨3, ![2, 384, 2304]⟩
abbrev S1x1x192x2304 : Shape := ⟨4, ![1, 1, 192, 2304]⟩
abbrev S1x1x384x192 : Shape := ⟨4, ![1, 1, 384, 192]⟩
abbrev S1x1x2x2x2304 : Shape := ⟨5, ![1, 1, 2, 2, 2304]⟩
abbrev S1x384x1 : Shape := ⟨3, ![1, 384, 1]⟩
abbrev S1x384x2304 : Shape := ⟨3, ![1, 384, 2304]⟩
abbrev S384x2304 : Shape := ⟨2, ![384, 2304]⟩
abbrev S192x2304 : Shape := ⟨2, ![192, 2304]⟩
abbrev S1x1x1x2x2304 : Shape := ⟨5, ![1, 1, 1, 2, 2304]⟩
abbrev S2x2304 : Shape := ⟨2, ![2, 2304]⟩
abbrev S1x2304 : Shape := ⟨2, ![1, 2304]⟩
abbrev S96x2304 : Shape := ⟨2, ![96, 2304]⟩
abbrev S1x1x192x192 : Shape := ⟨4, ![1, 1, 192, 192]⟩
abbrev S192x192 : Shape := ⟨2, ![192, 192]⟩
abbrev S384x1 : Shape := ⟨2, ![384, 1]⟩
abbrev S2x384x48x48 : Shape := ⟨4, ![2, 384, 48, 48]⟩

abbrev nBuf : Space → Nat
  | .hbm => 142
  | .vmem => 11
  | .smem => 0
  | _ => 0

abbrev hbmTy0_0 (i : Nat) : BufTy := match i % 128 with
  | 0 => ⟨S2x192x48x48, .f32⟩
  | 1 => ⟨S2x2x48x48, .i32⟩
  | 2 => ⟨S2x2x192x4800x1, .f32⟩
  | 3 => ⟨S2x2x192x1, .f32⟩
  | 4 => ⟨S_, .i32⟩
  | 5 => ⟨S_, .f32⟩
  | 6 => ⟨S2x192x52x52, .f32⟩
  | 7 => ⟨S2x192x48x48, .f32⟩
  | 8 => ⟨S2x192x48x48, .f32⟩
  | 9 => ⟨S2x192x48x48, .f32⟩
  | 10 => ⟨S2x192x48x48, .f32⟩
  | 11 => ⟨S2x192x48x48, .f32⟩
  | 12 => ⟨S2x192x48x48, .f32⟩
  | 13 => ⟨S2x192x48x48, .f32⟩
  | 14 => ⟨S2x192x48x48, .f32⟩
  | 15 => ⟨S2x192x48x48, .f32⟩
  | 16 => ⟨S2x192x48x48, .f32⟩
  | 17 => ⟨S2x192x48x48, .f32⟩
  | 18 => ⟨S2x192x48x48, .f32⟩
  | 19 => ⟨S2x192x48x48, .f32⟩
  | 20 => ⟨S2x192x48x48, .f32⟩
  | 21 => ⟨S2x192x48x48, .f32⟩
  | 22 => ⟨S2x192x48x48, .f32⟩
  | 23 => ⟨S2x192x48x48, .f32⟩
  | 24 => ⟨S2x192x48x48, .f32⟩
  | 25 => ⟨S2x192x48x48, .f32⟩
  | 26 => ⟨S2x192x48x48, .f32⟩
  | 27 => ⟨S2x192x48x48, .f32⟩
  | 28 => ⟨S2x192x48x48, .f32⟩
  | 29 => ⟨S2x192x48x48, .f32⟩
  | 30 => ⟨S2x192x48x48, .f32⟩
  | 31 => ⟨S2x192x48x48, .f32⟩
  | 32 => ⟨S2x1x192x48x48, .f32⟩
  | 33 => ⟨S2x1x192x48x48, .f32⟩
  | 34 => ⟨S2x1x192x48x48, .f32⟩
  | 35 => ⟨S2x1x192x48x48, .f32⟩
  | 36 => ⟨S2x1x192x48x48, .f32⟩
  | 37 => ⟨S2x1x192x48x48, .f32⟩
  | 38 => ⟨S2x1x192x48x48, .f32⟩
  | 39 => ⟨S2x1x192x48x48, .f32⟩
  | 40 => ⟨S2x1x192x48x48, .f32⟩
  | 41 => ⟨S2x1x192x48x48, .f32⟩
  | 42 => ⟨S2x1x192x48x48, .f32⟩
  | 43 => ⟨S2x1x192x48x48, .f32⟩
  | 44 => ⟨S2x1x192x48x48, .f32⟩
  | 45 => ⟨S2x1x192x48x48, .f32⟩
  | 46 => ⟨S2x1x192x48x48, .f32⟩
  | 47 => ⟨S2x1x192x48x48, .f32⟩
  | 48 => ⟨S2x1x192x48x48, .f32⟩
  | 49 => ⟨S2x1x192x48x48, .f32⟩
  | 50 => ⟨S2x1x192x48x48, .f32⟩
  | 51 => ⟨S2x1x192x48x48, .f32⟩
  | 52 => ⟨S2x1x192x48x48, .f32⟩
  | 53 => ⟨S2x1x192x48x48, .f32⟩
  | 54 => ⟨S2x1x192x48x48, .f32⟩
  | 55 => ⟨S2x1x192x48x48, .f32⟩
  | 56 => ⟨S2x1x192x48x48, .f32⟩
  | 57 => ⟨S2x16x192x48x48, .f32⟩
  | 58 => ⟨S2x9x192x48x48, .f32⟩
  | 59 => ⟨S2x25x192x48x48, .f32⟩
  | 60 => ⟨S2x25x192x2304, .f32⟩
  | 61 => ⟨S2x25x192x2304, .bf16⟩
  | 62 => ⟨S2x2x48x48, .f32⟩
  | 63 => ⟨S_, .f32⟩
  | 64 => ⟨S_, .f32⟩
  | 65 => ⟨S_, .f32⟩
  | 66 => ⟨S2x2x48x48, .f32⟩
  | 67 => ⟨S2x2x48x48, .f32⟩
  | 68 => ⟨S_, .f32⟩
  | 69 => ⟨S2x2x48x48, .f32⟩
  | 70 => ⟨S2x2x48x48, .f32⟩
  | 71 => ⟨S_, .i32⟩
  | 72 => ⟨S_, .f32⟩
  | 73 => ⟨S2x2x52x52, .f32⟩
  | 74 => ⟨S2x2x48x48, .f32⟩
  | 75 => ⟨S2x2x48x48, .f32⟩
  | 76 => ⟨S2x2x48x48, .f32⟩
  | 77 => ⟨S2x2x48x48, .f32⟩
  | 78 => ⟨S2x2x48x48, .f32⟩
  | 79 => ⟨S2x2x48x48, .f32⟩
  | 80 => ⟨S2x2x48x48, .f32⟩
  | 81 => ⟨S2x2x48x48, .f32⟩
  | 82 => ⟨S2x2x48x48, .f32⟩
  | 83 => ⟨S2x2x48x48, .f32⟩
  | 84 => ⟨S2x2x48x48, .f32⟩
  | 85 => ⟨S2x2x48x48, .f32⟩
  | 86 => ⟨S2x2x48x48, .f32⟩
  | 87 => ⟨S2x2x48x48, .f32⟩
  | 88 => ⟨S2x2x48x48, .f32⟩
  | 89 => ⟨S2x2x48x48, .f32⟩
  | 90 => ⟨S2x2x48x48, .f32⟩
  | 91 => ⟨S2x2x48x48, .f32⟩
  | 92 => ⟨S2x2x48x48, .f32⟩
  | 93 => ⟨S2x2x48x48, .f32⟩
  | 94 => ⟨S2x2x48x48, .f32⟩
  | 95 => ⟨S2x2x48x48, .f32⟩
  | 96 => ⟨S2x2x48x48, .f32⟩
  | 97 => ⟨S2x2x48x48, .f32⟩
  | 98 => ⟨S2x2x48x48, .f32⟩
  | 99 => ⟨S2x1x2x48x48, .f32⟩
  | 100 => ⟨S2x1x2x48x48, .f32⟩
  | 101 => ⟨S2x1x2x48x48, .f32⟩
  | 102 => ⟨S2x1x2x48x48, .f32⟩
  | 103 => ⟨S2x1x2x48x48, .f32⟩
  | 104 => ⟨S2x1x2x48x48, .f32⟩
  | 105 => ⟨S2x1x2x48x48, .f32⟩
  | 106 => ⟨S2x1x2x48x48, .f32⟩
  | 107 => ⟨S2x1x2x48x48, .f32⟩
  | 108 => ⟨S2x1x2x48x48, .f32⟩
  | 109 => ⟨S2x1x2x48x48, .f32⟩
  | 110 => ⟨S2x1x2x48x48, .f32⟩
  | 111 => ⟨S2x1x2x48x48, .f32⟩
  | 112 => ⟨S2x1x2x48x48, .f32⟩
  | 113 => ⟨S2x1x2x48x48, .f32⟩
  | 114 => ⟨S2x1x2x48x48, .f32⟩
  | 115 => ⟨S2x1x2x48x48, .f32⟩
  | 116 => ⟨S2x1x2x48x48, .f32⟩
  | 117 => ⟨S2x1x2x48x48, .f32⟩
  | 118 => ⟨S2x1x2x48x48, .f32⟩
  | 119 => ⟨S2x1x2x48x48, .f32⟩
  | 120 => ⟨S2x1x2x48x48, .f32⟩
  | 121 => ⟨S2x1x2x48x48, .f32⟩
  | 122 => ⟨S2x1x2x48x48, .f32⟩
  | 123 => ⟨S2x1x2x48x48, .f32⟩
  | 124 => ⟨S2x16x2x48x48, .f32⟩
  | 125 => ⟨S2x9x2x48x48, .f32⟩
  | 126 => ⟨S2x25x2x48x48, .f32⟩
  | 127 => ⟨S2x25x2x2304, .f32⟩
  | _ => ⟨S2x192x48x48, .f32⟩

abbrev hbmTy0_1 (i : Nat) : BufTy := match i % 128 with
  | 0 => ⟨S2x2x2304, .f32⟩
  | 1 => ⟨S2x25x1x2x2304, .f32⟩
  | 2 => ⟨S2x1x2x1x2304, .f32⟩
  | 3 => ⟨S2x25x2x2x2304, .f32⟩
  | 4 => ⟨S2x25x2x2x2304, .f32⟩
  | 5 => ⟨S2x25x2x2x2304, .i1⟩
  | 6 => ⟨S2x25x2x2x2304, .bf16⟩
  | 7 => ⟨S2x2x192x192x25, .f32⟩
  | 8 => ⟨S2x25x2x192x192, .f32⟩
  | 9 => ⟨S2x25x384x192, .f32⟩
  | 10 => ⟨S2x25x384x192, .bf16⟩
  | 11 => ⟨S2x384x1, .f32⟩
  | 12 => ⟨S2x384x2304, .f32⟩
  | 13 => ⟨S2x384x48x48, .f32⟩
  | _ => ⟨S2x192x48x48, .f32⟩

abbrev hbmTy (i : Nat) : BufTy := match i / 128 with
  | 0 => hbmTy0_0 i
  | 1 => hbmTy0_1 i
  | _ => ⟨S2x192x48x48, .f32⟩

abbrev bufTy : (tb : Table) → Fin (tcTables nBuf tb) → BufTy
  | .hbm, ⟨i, _⟩ => hbmTy i
  | .local _ .vmem, ⟨0, _⟩ => ⟨S1x1x192x2304, .bf16⟩
  | .local _ .vmem, ⟨1, _⟩ => ⟨S1x1x192x2304, .bf16⟩
  | .local _ .vmem, ⟨2, _⟩ => ⟨S1x1x384x192, .bf16⟩
  | .local _ .vmem, ⟨3, _⟩ => ⟨S1x1x384x192, .bf16⟩
  | .local _ .vmem, ⟨4, _⟩ => ⟨S1x1x2x2x2304, .bf16⟩
  | .local _ .vmem, ⟨5, _⟩ => ⟨S1x1x2x2x2304, .bf16⟩
  | .local _ .vmem, ⟨6, _⟩ => ⟨S1x384x1, .f32⟩
  | .local _ .vmem, ⟨7, _⟩ => ⟨S1x384x1, .f32⟩
  | .local _ .vmem, ⟨8, _⟩ => ⟨S1x384x2304, .f32⟩
  | .local _ .vmem, ⟨9, _⟩ => ⟨S1x384x2304, .f32⟩
  | .local _ .vmem, ⟨10, _⟩ => ⟨S384x2304, .f32⟩
  | _, _ => ⟨S2x192x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_0 : Ref sig .tc := ⟨.hbm, 68, rfl⟩
abbrev main_v61 : Ref sig .tc := ⟨.hbm, 69, rfl⟩
abbrev main_v62 : Ref sig .tc := ⟨.hbm, 70, rfl⟩
abbrev main_c_1 : Ref sig .tc := ⟨.hbm, 71, rfl⟩
abbrev main_call1_v0 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v41 : BitVec 1 := Scalar.cmpi .eq arg1 c24_i32
  let v42 : BitVec 32 := Scalar.extui v41
  let c0_i32_29 : BitVec 32 := 0#32
  let v43 : BitVec 1 := Scalar.cmpi .ne v42 c0_i32_29
  v43

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x192x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x2x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S2x192x48x48_S2x192x52x52_000_000_220_220 : S2x192x48x48.Pads (![0, 0, 2, 2] : Fin 4 → Nat) ![0, 0, 2, 2] ![0, 0, 0, 0] S2x192x52x52
  h_S_ : 0 < S_.numel
  slices_S2x192x52x52_S2x192x48x48_0_0_0_0 : S2x192x52x52.Slices ![0, 0, 0, 0] S2x192x48x48
  slices_S2x192x52x52_S2x192x48x48_0_0_0_1 : S2x192x52x52.Slices ![0, 0, 0, 1] S2x192x48x48
  slices_S2x192x52x52_S2x192x48x48_0_0_0_2 : S2x192x52x52.Slices ![0, 0, 0, 2] S2x192x48x48
  slices_S2x192x52x52_S2x192x48x48_0_0_0_3 : S2x192x52x52.Slices ![0, 0, 0, 3] S2x192x48x48
  slices_S2x192x52x52_S2x192x48x48_0_0_0_4 : S2x192x52x52.Slices ![0, 0, 0, 4] S2x192x48x48
  slices_S2x192x52x52_S2x192x48x48_0_0_1_0 : S2x192x52x52.Slices ![0, 0, 1, 0] S2x192x48x48
  slices_S2x192x52x52_S2x192x48x48_0_0_1_1 : S2x192x52x52.Slices ![0, 0, 1, 1] S2x192x48x48
  slices_S2x192x52x52_S2x192x48x48_0_0_1_2 : S2x192x52x52.Slices ![0, 0, 1, 2] S2x192x48x48
  slices_S2x192x52x52_S2x192x48x48_0_0_1_3 : S2x192x52x52.Slices ![0, 0, 1, 3] S2x192x48x48
  slices_S2x192x52x52_S2x192x48x48_0_0_1_4 : S2x192x52x52.Slices ![0, 0, 1, 4] S2x192x48x48
  slices_S2x192x52x52_S2x192x48x48_0_0_2_0 : S2x192x52x52.Slices ![0, 0, 2, 0] S2x192x48x48
  slices_S2x192x52x52_S2x192x48x48_0_0_2_1 : S2x192x52x52.Slices ![0, 0, 2, 1] S2x192x48x48
  slices_S2x192x52x52_S2x192x48x48_0_0_2_2 : S2x192x52x52.Slices ![0, 0, 2, 2] S2x192x48x48
  slices_S2x192x52x52_S2x192x48x48_0_0_2_3 : S2x192x52x52.Slices ![0, 0, 2, 3] S2x192x48x48
  slices_S2x192x52x52_S2x192x48x48_0_0_2_4 : S2x192x52x52.Slices ![0, 0, 2, 4] S2x192x48x48
  slices_S2x192x52x52_S2x192x48x48_0_0_3_0 : S2x192x52x52.Slices ![0, 0, 3, 0] S2x192x48x48
  slices_S2x192x52x52_S2x192x48x48_0_0_3_1 : S2x192x52x52.Slices ![0, 0, 3, 1] S2x192x48x48
  slices_S2x192x52x52_S2x192x48x48_0_0_3_2 : S2x192x52x52.Slices ![0, 0, 3, 2] S2x192x48x48
  slices_S2x192x52x52_S2x192x48x48_0_0_3_3 : S2x192x52x52.Slices ![0, 0, 3, 3] S2x192x48x48
  slices_S2x192x52x52_S2x192x48x48_0_0_3_4 : S2x192x52x52.Slices ![0, 0, 3, 4] S2x192x48x48
  slices_S2x192x52x52_S2x192x48x48_0_0_4_0 : S2x192x52x52.Slices ![0, 0, 4, 0] S2x192x48x48
  slices_S2x192x52x52_S2x192x48x48_0_0_4_1 : S2x192x52x52.Slices ![0, 0, 4, 1] S2x192x48x48
  slices_S2x192x52x52_S2x192x48x48_0_0_4_2 : S2x192x52x52.Slices ![0, 0, 4, 2] S2x192x48x48
  slices_S2x192x52x52_S2x192x48x48_0_0_4_3 : S2x192x52x52.Slices ![0, 0, 4, 3] S2x192x48x48
  slices_S2x192x52x52_S2x192x48x48_0_0_4_4 : S2x192x52x52.Slices ![0, 0, 4, 4] S2x192x48x48
  bcast_S2x192x48x48_S2x1x192x48x48_0_2_3_4 : S2x192x48x48.BroadcastsInDim S2x1x192x48x48 (![0, 2, 3, 4] : Fin 4 → Fin S2x1x192x48x48.rank)
  concatenates_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x1x192x48x48_S2x16x192x48x48_d1 : Shape.Concatenates [S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48, S2x1x192x48x48] S2x16x192x48x48 1
  concatenates_S2x1x192x48x48_S2x1x192x48x48_S2x1x192x48x48_S2x1x192x48x48_S2x1x192x48x48_S2x1x192x48x48_S2x1x192x48x48_S2x1x192x48x48_S2x1x192x48x48_S2x9x192x48x48_d1 : Shape.Concatenates [S2x1x192x48x48, S2x1x192x48x48, S2x1x192x48x48, S2x1x192x48x48, S2x1x192x48x48, S2x1x192x48x48, S2x1x192x48x48, S2x1x192x48x48, S2x1x192x48x48] S2x9x192x48x48 1
  concatenates_S2x16x192x48x48_S2x9x192x48x48_S2x25x192x48x48_d1 : Shape.Concatenates [S2x16x192x48x48, S2x9x192x48x48] S2x25x192x48x48 1
  shapeCasts_S2x25x192x48x48_S2x25x192x2304 : S2x25x192x48x48.ShapeCasts S2x25x192x2304
  bitsLt_bf16_f32 : FTy.bits .bf16 < FTy.bits .f32
  reducesTo_S2x2x48x48_S_d0_1_2_3 : S2x2x48x48.ReducesTo [0, 1, 2, 3] S_
  bcast_S_S2x2x48x48 : S_.BroadcastsInDim S2x2x48x48 (![] : Fin 0 → Fin S2x2x48x48.rank)
  pads_S2x2x48x48_S2x2x52x52_000_000_220_220 : S2x2x48x48.Pads (![0, 0, 2, 2] : Fin 4 → Nat) ![0, 0, 2, 2] ![0, 0, 0, 0] S2x2x52x52
  slices_S2x2x52x52_S2x2x48x48_0_0_0_0 : S2x2x52x52.Slices ![0, 0, 0, 0] S2x2x48x48
  slices_S2x2x52x52_S2x2x48x48_0_0_0_1 : S2x2x52x52.Slices ![0, 0, 0, 1] S2x2x48x48
  slices_S2x2x52x52_S2x2x48x48_0_0_0_2 : S2x2x52x52.Slices ![0, 0, 0, 2] S2x2x48x48
  slices_S2x2x52x52_S2x2x48x48_0_0_0_3 : S2x2x52x52.Slices ![0, 0, 0, 3] S2x2x48x48
  slices_S2x2x52x52_S2x2x48x48_0_0_0_4 : S2x2x52x52.Slices ![0, 0, 0, 4] S2x2x48x48
  slices_S2x2x52x52_S2x2x48x48_0_0_1_0 : S2x2x52x52.Slices ![0, 0, 1, 0] S2x2x48x48
  slices_S2x2x52x52_S2x2x48x48_0_0_1_1 : S2x2x52x52.Slices ![0, 0, 1, 1] S2x2x48x48
  slices_S2x2x52x52_S2x2x48x48_0_0_1_2 : S2x2x52x52.Slices ![0, 0, 1, 2] S2x2x48x48
  slices_S2x2x52x52_S2x2x48x48_0_0_1_3 : S2x2x52x52.Slices ![0, 0, 1, 3] S2x2x48x48
  slices_S2x2x52x52_S2x2x48x48_0_0_1_4 : S2x2x52x52.Slices ![0, 0, 1, 4] S2x2x48x48
  slices_S2x2x52x52_S2x2x48x48_0_0_2_0 : S2x2x52x52.Slices ![0, 0, 2, 0] S2x2x48x48
  slices_S2x2x52x52_S2x2x48x48_0_0_2_1 : S2x2x52x52.Slices ![0, 0, 2, 1] S2x2x48x48
  slices_S2x2x52x52_S2x2x48x48_0_0_2_2 : S2x2x52x52.Slices ![0, 0, 2, 2] S2x2x48x48
  slices_S2x2x52x52_S2x2x48x48_0_0_2_3 : S2x2x52x52.Slices ![0, 0, 2, 3] S2x2x48x48
  slices_S2x2x52x52_S2x2x48x48_0_0_2_4 : S2x2x52x52.Slices ![0, 0, 2, 4] S2x2x48x48
  slices_S2x2x52x52_S2x2x48x48_0_0_3_0 : S2x2x52x52.Slices ![0, 0, 3, 0] S2x2x48x48
  slices_S2x2x52x52_S2x2x48x48_0_0_3_1 : S2x2x52x52.Slices ![0, 0, 3, 1] S2x2x48x48
  slices_S2x2x52x52_S2x2x48x48_0_0_3_2 : S2x2x52x52.Slices ![0, 0, 3, 2] S2x2x48x48
  slices_S2x2x52x52_S2x2x48x48_0_0_3_3 : S2x2x52x52.Slices ![0, 0, 3, 3] S2x2x48x48
  slices_S2x2x52x52_S2x2x48x48_0_0_3_4 : S2x2x52x52.Slices ![0, 0, 3, 4] S2x2x48x48
  slices_S2x2x52x52_S2x2x48x48_0_0_4_0 : S2x2x52x52.Slices ![0, 0, 4, 0] S2x2x48x48
  slices_S2x2x52x52_S2x2x48x48_0_0_4_1 : S2x2x52x52.Slices ![0, 0, 4, 1] S2x2x48x48
  slices_S2x2x52x52_S2x2x48x48_0_0_4_2 : S2x2x52x52.Slices ![0, 0, 4, 2] S2x2x48x48
  slices_S2x2x52x52_S2x2x48x48_0_0_4_3 : S2x2x52x52.Slices ![0, 0, 4, 3] S2x2x48x48
  slices_S2x2x52x52_S2x2x48x48_0_0_4_4 : S2x2x52x52.Slices ![0, 0, 4, 4] S2x2x48x48
  bcast_S2x2x48x48_S2x1x2x48x48_0_2_3_4 : S2x2x48x48.BroadcastsInDim S2x1x2x48x48 (![0, 2, 3, 4] : Fin 4 → Fin S2x1x2x48x48.rank)
  concatenates_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x1x2x48x48_S2x16x2x48x48_d1 : Shape.Concatenates [S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48, S2x1x2x48x48] S2x16x2x48x48 1
  concatenates_S2x1x2x48x48_S2x1x2x48x48_S2x1x2x48x48_S2x1x2x48x48_S2x1x2x48x48_S2x1x2x48x48_S2x1x2x48x48_S2x1x2x48x48_S2x1x2x48x48_S2x9x2x48x48_d1 : Shape.Concatenates [S2x1x2x48x48, S2x1x2x48x48, S2x1x2x48x48, S2x1x2x48x48, S2x1x2x48x48, S2x1x2x48x48, S2x1x2x48x48, S2x1x2x48x48, S2x1x2x48x48] S2x9x2x48x48 1
  concatenates_S2x16x2x48x48_S2x9x2x48x48_S2x25x2x48x48_d1 : Shape.Concatenates [S2x16x2x48x48, S2x9x2x48x48] S2x25x2x48x48 1
  shapeCasts_S2x25x2x48x48_S2x25x2x2304 : S2x25x2x48x48.ShapeCasts S2x25x2x2304
  shapeCasts_S2x2x48x48_S2x2x2304 : S2x2x48x48.ShapeCasts S2x2x2304
  bcast_S2x25x2x2304_S2x25x1x2x2304_0_1_3_4 : S2x25x2x2304.BroadcastsInDim S2x25x1x2x2304 (![0, 1, 3, 4] : Fin 4 → Fin S2x25x1x2x2304.rank)
  bcast_S2x2x2304_S2x1x2x1x2304_0_2_4 : S2x2x2304.BroadcastsInDim S2x1x2x1x2304 (![0, 2, 4] : Fin 3 → Fin S2x1x2x1x2304.rank)
  bcast_S2x25x1x2x2304_S2x25x2x2x2304_0_1_2_3_4 : S2x25x1x2x2304.BroadcastsInDim S2x25x2x2x2304 (![0, 1, 2, 3, 4] : Fin 5 → Fin S2x25x2x2x2304.rank)
  bcast_S2x1x2x1x2304_S2x25x2x2x2304_0_1_2_3_4 : S2x1x2x1x2304.BroadcastsInDim S2x25x2x2x2304 (![0, 1, 2, 3, 4] : Fin 5 → Fin S2x25x2x2x2304.rank)
  shapeCasts_S2x2x192x4800x1_S2x2x192x192x25 : S2x2x192x4800x1.ShapeCasts S2x2x192x192x25
  transposes_S2x2x192x192x25_S2x25x2x192x192_0_4_1_2_3 : S2x2x192x192x25.Transposes [0, 4, 1, 2, 3] S2x25x2x192x192
  shapeCasts_S2x25x2x192x192_S2x25x384x192 : S2x25x2x192x192.ShapeCasts S2x25x384x192
  shapeCasts_S2x2x192x1_S2x384x1 : S2x2x192x1.ShapeCasts S2x384x1
  inb_S384x2304_S384x2304_0_0 : ∀ a, (![0, 0] : Fin 2 → Nat) a + S384x2304.size a ≤ S384x2304.size a
  h_S384x2304 : 0 < S384x2304.numel
  shapeCasts_S384x2304_S384x2304 : S384x2304.ShapeCasts S384x2304
  inb_S1x1x192x2304_S1x1x192x2304_0_0_0_0 : ∀ a, (![0, 0, 0, 0] : Fin 4 → Nat) a + S1x1x192x2304.size a ≤ S1x1x192x2304.size a
  h_S1x1x192x2304 : 0 < S1x1x192x2304.numel
  shapeCasts_S1x1x192x2304_S192x2304 : S1x1x192x2304.ShapeCasts S192x2304
  inb_S1x1x2x2x2304_S1x1x1x2x2304_0_0_0_0_0 : ∀ a, (![0, 0, 0, 0, 0] : Fin 5 → Nat) a + S1x1x1x2x2304.size a ≤ S1x1x2x2x2304.size a
  h_S1x1x1x2x2304 : 0 < S1x1x1x2x2304.numel
  shapeCasts_S1x1x1x2x2304_S2x2304 : S1x1x1x2x2304.ShapeCasts S2x2304
  slices_S2x2304_o0_0_S1x2304 : S2x2304.Slices ![0, 0] S1x2304
  slices_S2x2304_o1_0_S1x2304 : S2x2304.Slices ![1, 0] S1x2304
  shapeCasts_S1x2304_S1x2304 : S1x2304.ShapeCasts S1x2304
  broadcasts_S1x2304_S96x2304 : S1x2304.Broadcasts S96x2304
  concatenates_S96x2304_S96x2304_S192x2304_d0 : Shape.Concatenates [S96x2304, S96x2304] S192x2304 0
  inb_S1x1x384x192_S1x1x192x192_0_0_0_0 : ∀ a, (![0, 0, 0, 0] : Fin 4 → Nat) a + S1x1x192x192.size a ≤ S1x1x384x192.size a
  h_S1x1x192x192 : 0 < S1x1x192x192.numel
  shapeCasts_S1x1x192x192_S192x192 : S1x1x192x192.ShapeCasts S192x192
  inb_S384x2304_S192x2304_0_0 : ∀ a, (![0, 0] : Fin 2 → Nat) a + S192x2304.size a ≤ S384x2304.size a
  h_S192x2304 : 0 < S192x2304.numel
  shapeCasts_S192x2304_S192x2304 : S192x2304.ShapeCasts S192x2304
  inb_S1x1x2x2x2304_S1x1x1x2x2304_0_0_1_0_0 : ∀ a, (![0, 0, 1, 0, 0] : Fin 5 → Nat) a + S1x1x1x2x2304.size a ≤ S1x1x2x2x2304.size a
  inb_S1x1x384x192_S1x1x192x192_0_0_192_0 : ∀ a, (![0, 0, 192, 0] : Fin 4 → Nat) a + S1x1x192x192.size a ≤ S1x1x384x192.size a
  inb_S384x2304_S192x2304_192_0 : ∀ a, (![192, 0] : Fin 2 → Nat) a + S192x2304.size a ≤ S384x2304.size a
  inb_S1x384x1_S1x384x1_0_0_0 : ∀ a, (![0, 0, 0] : Fin 3 → Nat) a + S1x384x1.size a ≤ S1x384x1.size a
  h_S1x384x1 : 0 < S1x384x1.numel
  shapeCasts_S1x384x1_S384x1 : S1x384x1.ShapeCasts S384x1
  broadcasts_S384x1_S384x2304 : S384x1.Broadcasts S384x2304
  inb_S1x384x2304_S1x384x2304_0_0_0 : ∀ a, (![0, 0, 0] : Fin 3 → Nat) a + S1x384x2304.size a ≤ S1x384x2304.size a
  h_S1x384x2304 : 0 < S1x384x2304.numel
  shapeCasts_S1x384x2304_S384x2304 : S1x384x2304.ShapeCasts S384x2304
  shapeCasts_S384x2304_S1x384x2304 : S384x2304.ShapeCasts S1x384x2304
  shapeCasts_S2x384x2304_S2x384x48x48 : S2x384x2304.ShapeCasts S2x384x48x48
  dot_S192x192_S192x2304_S192x2304_1_0_0_1_n_n_wf : DotDims.WF S192x192 S192x2304 S192x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x192x2304.size a ≤ S2x25x192x2304.size a
  hwx0_0 : ∀ i : grid0.Coords, EltTy.bits .bf16 = 32 ∨ (Rect.block (s := S2x25x192x2304) S1x1x192x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x384x192.size a ≤ S2x25x384x192.size a
  hwx0_1 : ∀ i : grid0.Coords, EltTy.bits .bf16 = 32 ∨ (Rect.block (s := S2x25x384x192) S1x1x384x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2x2x2304.size a ≤ S2x25x2x2x2304.size a
  hwx0_2 : ∀ i : grid0.Coords, EltTy.bits .bf16 = 32 ∨ (Rect.block (s := S2x25x2x2x2304) S1x1x2x2x2304.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384x1.size a ≤ S2x384x1.size a
  hwx0_3 : ∀ i : grid0.Coords, EltTy.bits .f32 = 32 ∨ (Rect.block (s := S2x384x1) S1x384x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x384x2304.size a ≤ S2x384x2304.size a
  hwx0_4 : ∀ i : grid0.Coords, EltTy.bits .f32 = 32 ∨ (Rect.block (s := S2x384x2304) S1x384x2304.size (cc0_transform_4 i) (hinb0_4 i)).WholeWords (EltTy.packing .f32)

variable [Facts₀]

def dot_S192x192_S192x2304_S192x2304_1_0_0_1_n_n : DotDims S192x192 S192x2304 S192x2304 where
  lhsContracting := [1]
  rhsContracting := [0]
  lhsNonContracting := [0]
  rhsNonContracting := [1]
  lhsBatch := []
  rhsBatch := []
  wf := dot_S192x192_S192x2304_S192x2304_1_0_0_1_n_n_wf

abbrev win0_0 : Pipeline.Window sig grid0 :=
  Pipeline.Window.ofSpec (Memref.whole main_v55) S1x1x192x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v128) S1x1x384x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v124) S1x1x2x2x2304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v129) S1x384x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v130) S1x384x2304.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x192x48x48 : Shape := ⟨4, ![2, 192, 48, 48]⟩
abbrev S2x2x48x48 : Shape := ⟨4, ![2, 2, 48, 48]⟩
abbrev S2x2x192x4800x1 : Shape := ⟨5, ![2, 2, 192, 4800, 1]⟩
abbrev S2x2x192x1 : Shape := ⟨4, ![2, 2, 192, 1]⟩
abbrev S_ : Shape := ⟨0, ![]⟩
abbrev S2x192x52x52 : Shape := ⟨4, ![2, 192, 52, 52]⟩
abbrev S2x192x1x48x48 : Shape := ⟨5, ![2, 192, 1, 48, 48]⟩
abbrev S2x192x16x48x48 : Shape := ⟨5, ![2, 192, 16, 48, 48]⟩
abbrev S2x192x9x48x48 : Shape := ⟨5, ![2, 192, 9, 48, 48]⟩
abbrev S2x192x25x48x48 : Shape := ⟨5, ![2, 192, 25, 48, 48]⟩
abbrev S2x4800x2304 : Shape := ⟨3, ![2, 4800, 2304]⟩
abbrev S2x1x4800x2304 : Shape := ⟨4, ![2, 1, 4800, 2304]⟩
abbrev S2x2x1x2304 : Shape := ⟨4, ![2, 2, 1, 2304]⟩
abbrev S2x2x52x52 : Shape := ⟨4, ![2, 2, 52, 52]⟩
abbrev S2x2x1x48x48 : Shape := ⟨5, ![2, 2, 1, 48, 48]⟩
abbrev S2x2x16x48x48 : Shape := ⟨5, ![2, 2, 16, 48, 48]⟩
abbrev S2x2x9x48x48 : Shape := ⟨5, ![2, 2, 9, 48, 48]⟩
abbrev S2x2x25x48x48 : Shape := ⟨5, ![2, 2, 25, 48, 48]⟩
abbrev S2x50x2304 : Shape := ⟨3, ![2, 50, 2304]⟩
abbrev S2x1x50x2304 : Shape := ⟨4, ![2, 1, 50, 2304]⟩
abbrev S2x2x50x2304 : Shape := ⟨4, ![2, 2, 50, 2304]⟩
abbrev S2x2x2x1x25x2304 : Shape := ⟨6, ![2, 2, 2, 1, 25, 2304]⟩
abbrev S2x2x2x96x25x2304 : Shape := ⟨6, ![2, 2, 2, 96, 25, 2304]⟩
abbrev S2x2x4800x2304 : Shape := ⟨4, ![2, 2, 4800, 2304]⟩
abbrev S2x2x192x4800 : Shape := ⟨4, ![2, 2, 192, 4800]⟩
abbrev S2x2x192x2304 : Shape := ⟨4, ![2, 2, 192, 2304]⟩
abbrev S2x384x48x48 : Shape := ⟨4, ![2, 384, 48, 48]⟩

abbrev nBuf : Space → Nat
  | .hbm => 144
  | .vmem => 0
  | .smem => 0
  | _ => 0

abbrev hbmTy0_0 (i : Nat) : BufTy := match i % 128 with
  | 0 => ⟨S2x192x48x48, .f32⟩
  | 1 => ⟨S2x2x48x48, .i32⟩
  | 2 => ⟨S2x2x192x4800x1, .f32⟩
  | 3 => ⟨S2x2x192x1, .f32⟩
  | 4 => ⟨S_, .i32⟩
  | 5 => ⟨S_, .f32⟩
  | 6 => ⟨S2x192x52x52, .f32⟩
  | 7 => ⟨S2x192x48x48, .f32⟩
  | 8 => ⟨S2x192x48x48, .f32⟩
  | 9 => ⟨S2x192x48x48, .f32⟩
  | 10 => ⟨S2x192x48x48, .f32⟩
  | 11 => ⟨S2x192x48x48, .f32⟩
  | 12 => ⟨S2x192x48x48, .f32⟩
  | 13 => ⟨S2x192x48x48, .f32⟩
  | 14 => ⟨S2x192x48x48, .f32⟩
  | 15 => ⟨S2x192x48x48, .f32⟩
  | 16 => ⟨S2x192x48x48, .f32⟩
  | 17 => ⟨S2x192x48x48, .f32⟩
  | 18 => ⟨S2x192x48x48, .f32⟩
  | 19 => ⟨S2x192x48x48, .f32⟩
  | 20 => ⟨S2x192x48x48, .f32⟩
  | 21 => ⟨S2x192x48x48, .f32⟩
  | 22 => ⟨S2x192x48x48, .f32⟩
  | 23 => ⟨S2x192x48x48, .f32⟩
  | 24 => ⟨S2x192x48x48, .f32⟩
  | 25 => ⟨S2x192x48x48, .f32⟩
  | 26 => ⟨S2x192x48x48, .f32⟩
  | 27 => ⟨S2x192x48x48, .f32⟩
  | 28 => ⟨S2x192x48x48, .f32⟩
  | 29 => ⟨S2x192x48x48, .f32⟩
  | 30 => ⟨S2x192x48x48, .f32⟩
  | 31 => ⟨S2x192x48x48, .f32⟩
  | 32 => ⟨S2x192x1x48x48, .f32⟩
  | 33 => ⟨S2x192x1x48x48, .f32⟩
  | 34 => ⟨S2x192x1x48x48, .f32⟩
  | 35 => ⟨S2x192x1x48x48, .f32⟩
  | 36 => ⟨S2x192x1x48x48, .f32⟩
  | 37 => ⟨S2x192x1x48x48, .f32⟩
  | 38 => ⟨S2x192x1x48x48, .f32⟩
  | 39 => ⟨S2x192x1x48x48, .f32⟩
  | 40 => ⟨S2x192x1x48x48, .f32⟩
  | 41 => ⟨S2x192x1x48x48, .f32⟩
  | 42 => ⟨S2x192x1x48x48, .f32⟩
  | 43 => ⟨S2x192x1x48x48, .f32⟩
  | 44 => ⟨S2x192x1x48x48, .f32⟩
  | 45 => ⟨S2x192x1x48x48, .f32⟩
  | 46 => ⟨S2x192x1x48x48, .f32⟩
  | 47 => ⟨S2x192x1x48x48, .f32⟩
  | 48 => ⟨S2x192x1x48x48, .f32⟩
  | 49 => ⟨S2x192x1x48x48, .f32⟩
  | 50 => ⟨S2x192x1x48x48, .f32⟩
  | 51 => ⟨S2x192x1x48x48, .f32⟩
  | 52 => ⟨S2x192x1x48x48, .f32⟩
  | 53 => ⟨S2x192x1x48x48, .f32⟩
  | 54 => ⟨S2x192x1x48x48, .f32⟩
  | 55 => ⟨S2x192x1x48x48, .f32⟩
  | 56 => ⟨S2x192x1x48x48, .f32⟩
  | 57 => ⟨S2x192x16x48x48, .f32⟩
  | 58 => ⟨S2x192x9x48x48, .f32⟩
  | 59 => ⟨S2x192x25x48x48, .f32⟩
  | 60 => ⟨S2x4800x2304, .f32⟩
  | 61 => ⟨S2x1x4800x2304, .f32⟩
  | 62 => ⟨S2x2x48x48, .f32⟩
  | 63 => ⟨S_, .f32⟩
  | 64 => ⟨S_, .f32⟩
  | 65 => ⟨S_, .f32⟩
  | 66 => ⟨S2x2x48x48, .f32⟩
  | 67 => ⟨S2x2x48x48, .f32⟩
  | 68 => ⟨S_, .f32⟩
  | 69 => ⟨S2x2x48x48, .f32⟩
  | 70 => ⟨S2x2x48x48, .f32⟩
  | 71 => ⟨S2x2x1x2304, .f32⟩
  | 72 => ⟨S_, .i32⟩
  | 73 => ⟨S_, .f32⟩
  | 74 => ⟨S2x2x52x52, .f32⟩
  | 75 => ⟨S2x2x48x48, .f32⟩
  | 76 => ⟨S2x2x48x48, .f32⟩
  | 77 => ⟨S2x2x48x48, .f32⟩
  | 78 => ⟨S2x2x48x48, .f32⟩
  | 79 => ⟨S2x2x48x48, .f32⟩
  | 80 => ⟨S2x2x48x48, .f32⟩
  | 81 => ⟨S2x2x48x48, .f32⟩
  | 82 => ⟨S2x2x48x48, .f32⟩
  | 83 => ⟨S2x2x48x48, .f32⟩
  | 84 => ⟨S2x2x48x48, .f32⟩
  | 85 => ⟨S2x2x48x48, .f32⟩
  | 86 => ⟨S2x2x48x48, .f32⟩
  | 87 => ⟨S2x2x48x48, .f32⟩
  | 88 => ⟨S2x2x48x48, .f32⟩
  | 89 => ⟨S2x2x48x48, .f32⟩
  | 90 => ⟨S2x2x48x48, .f32⟩
  | 91 => ⟨S2x2x48x48, .f32⟩
  | 92 => ⟨S2x2x48x48, .f32⟩
  | 93 => ⟨S2x2x48x48, .f32⟩
  | 94 => ⟨S2x2x48x48, .f32⟩
  | 95 => ⟨S2x2x48x48, .f32⟩
  | 96 => ⟨S2x2x48x48, .f32⟩
  | 97 => ⟨S2x2x48x48, .f32⟩
  | 98 => ⟨S2x2x48x48, .f32⟩
  | 99 => ⟨S2x2x48x48, .f32⟩
  | 100 => ⟨S2x2x1x48x48, .f32⟩
  | 101 => ⟨S2x2x1x48x48, .f32⟩
  | 102 => ⟨S2x2x1x48x48, .f32⟩
  | 103 => ⟨S2x2x1x48x48, .f32⟩
  | 104 => ⟨S2x2x1x48x48, .f32⟩
  | 105 => ⟨S2x2x1x48x48, .f32⟩
  | 106 => ⟨S2x2x1x48x48, .f32⟩
  | 107 => ⟨S2x2x1x48x48, .f32⟩
  | 108 => ⟨S2x2x1x48x48, .f32⟩
  | 109 => ⟨S2x2x1x48x48, .f32⟩
  | 110 => ⟨S2x2x1x48x48, .f32⟩
  | 111 => ⟨S2x2x1x48x48, .f32⟩
  | 112 => ⟨S2x2x1x48x48, .f32⟩
  | 113 => ⟨S2x2x1x48x48, .f32⟩
  | 114 => ⟨S2x2x1x48x48, .f32⟩
  | 115 => ⟨S2x2x1x48x48, .f32⟩
  | 116 => ⟨S2x2x1x48x48, .f32⟩
  | 117 => ⟨S2x2x1x48x48, .f32⟩
  | 118 => ⟨S2x2x1x48x48, .f32⟩
  | 119 => ⟨S2x2x1x48x48, .f32⟩
  | 120 => ⟨S2x2x1x48x48, .f32⟩
  | 121 => ⟨S2x2x1x48x48, .f32⟩
  | 122 => ⟨S2x2x1x48x48, .f32⟩
  | 123 => ⟨S2x2x1x48x48, .f32⟩
  | 124 => ⟨S2x2x1x48x48, .f32⟩
  | 125 => ⟨S2x2x16x48x48, .f32⟩
  | 126 => ⟨S2x2x9x48x48, .f32⟩
  | 127 => ⟨S2x2x25x48x48, .f32⟩
  | _ => ⟨S2x192x48x48, .f32⟩

abbrev hbmTy0_1 (i : Nat) : BufTy := match i % 128 with
  | 0 => ⟨S2x50x2304, .f32⟩
  | 1 => ⟨S2x1x50x2304, .f32⟩
  | 2 => ⟨S2x2x50x2304, .f32⟩
  | 3 => ⟨S2x2x50x2304, .f32⟩
  | 4 => ⟨S2x2x50x2304, .i1⟩
  | 5 => ⟨S2x2x2x1x25x2304, .i1⟩
  | 6 => ⟨S2x2x2x96x25x2304, .i1⟩
  | 7 => ⟨S2x2x4800x2304, .i1⟩
  | 8 => ⟨S2x2x4800x2304, .f32⟩
  | 9 => ⟨S2x2x4800x2304, .f32⟩
  | 10 => ⟨S2x2x4800x2304, .f32⟩
  | 11 => ⟨S2x2x192x4800, .f32⟩
  | 12 => ⟨S2x2x192x2304, .f32⟩
  | 13 => ⟨S2x2x192x2304, .f32⟩
  | 14 => ⟨S2x2x192x2304, .f32⟩
  | 15 => ⟨S2x384x48x48, .f32⟩
  | _ => ⟨S2x192x48x48, .f32⟩

abbrev hbmTy (i : Nat) : BufTy := match i / 128 with
  | 0 => hbmTy0_0 i
  | 1 => hbmTy0_1 i
  | _ => ⟨S2x192x48x48, .f32⟩

abbrev bufTy : (tb : Table) → Fin (tcTables nBuf tb) → BufTy
  | .hbm, ⟨i, _⟩ => hbmTy i
  | _, _ => ⟨S2x192x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_0 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_c_1 : Ref sig .tc := ⟨.hbm, 72, rfl⟩
abbrev main_call1_v0 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩

abbrev nD : Nat := 1
abbrev τ : Topo := Topo.v7x

variable {F : FTy → Type} [FloatOps F]

class Facts₀ : Prop where
  pads_S2x192x48x48_S2x192x52x52_000_000_220_220 : S2x192x48x48.Pads (![0, 0, 2, 2] : Fin 4 → Nat) ![0, 0, 2, 2] ![0, 0, 0, 0] S2x192x52x52
  h_S_ : 0 < S_.numel
  slices_S2x192x52x52_S2x192x48x48_0_0_0_0 : S2x192x52x52.Slices ![0, 0, 0, 0] S2x192x48x48
  slices_S2x192x52x52_S2x192x48x48_0_0_0_1 : S2x192x52x52.Slices ![0, 0, 0, 1] S2x192x48x48
  slices_S2x192x52x52_S2x192x48x48_0_0_0_2 : S2x192x52x52.Slices ![0, 0, 0, 2] S2x192x48x48
  slices_S2x192x52x52_S2x192x48x48_0_0_0_3 : S2x192x52x52.Slices ![0, 0, 0, 3] S2x192x48x48
  slices_S2x192x52x52_S2x192x48x48_0_0_0_4 : S2x192x52x52.Slices ![0, 0, 0, 4] S2x192x48x48
  slices_S2x192x52x52_S2x192x48x48_0_0_1_0 : S2x192x52x52.Slices ![0, 0, 1, 0] S2x192x48x48
  slices_S2x192x52x52_S2x192x48x48_0_0_1_1 : S2x192x52x52.Slices ![0, 0, 1, 1] S2x192x48x48
  slices_S2x192x52x52_S2x192x48x48_0_0_1_2 : S2x192x52x52.Slices ![0, 0, 1, 2] S2x192x48x48
  slices_S2x192x52x52_S2x192x48x48_0_0_1_3 : S2x192x52x52.Slices ![0, 0, 1, 3] S2x192x48x48
  slices_S2x192x52x52_S2x192x48x48_0_0_1_4 : S2x192x52x52.Slices ![0, 0, 1, 4] S2x192x48x48
  slices_S2x192x52x52_S2x192x48x48_0_0_2_0 : S2x192x52x52.Slices ![0, 0, 2, 0] S2x192x48x48
  slices_S2x192x52x52_S2x192x48x48_0_0_2_1 : S2x192x52x52.Slices ![0, 0, 2, 1] S2x192x48x48
  slices_S2x192x52x52_S2x192x48x48_0_0_2_2 : S2x192x52x52.Slices ![0, 0, 2, 2] S2x192x48x48
  slices_S2x192x52x52_S2x192x48x48_0_0_2_3 : S2x192x52x52.Slices ![0, 0, 2, 3] S2x192x48x48
  slices_S2x192x52x52_S2x192x48x48_0_0_2_4 : S2x192x52x52.Slices ![0, 0, 2, 4] S2x192x48x48
  slices_S2x192x52x52_S2x192x48x48_0_0_3_0 : S2x192x52x52.Slices ![0, 0, 3, 0] S2x192x48x48
  slices_S2x192x52x52_S2x192x48x48_0_0_3_1 : S2x192x52x52.Slices ![0, 0, 3, 1] S2x192x48x48
  slices_S2x192x52x52_S2x192x48x48_0_0_3_2 : S2x192x52x52.Slices ![0, 0, 3, 2] S2x192x48x48
  slices_S2x192x52x52_S2x192x48x48_0_0_3_3 : S2x192x52x52.Slices ![0, 0, 3, 3] S2x192x48x48
  slices_S2x192x52x52_S2x192x48x48_0_0_3_4 : S2x192x52x52.Slices ![0, 0, 3, 4] S2x192x48x48
  slices_S2x192x52x52_S2x192x48x48_0_0_4_0 : S2x192x52x52.Slices ![0, 0, 4, 0] S2x192x48x48
  slices_S2x192x52x52_S2x192x48x48_0_0_4_1 : S2x192x52x52.Slices ![0, 0, 4, 1] S2x192x48x48
  slices_S2x192x52x52_S2x192x48x48_0_0_4_2 : S2x192x52x52.Slices ![0, 0, 4, 2] S2x192x48x48
  slices_S2x192x52x52_S2x192x48x48_0_0_4_3 : S2x192x52x52.Slices ![0, 0, 4, 3] S2x192x48x48
  slices_S2x192x52x52_S2x192x48x48_0_0_4_4 : S2x192x52x52.Slices ![0, 0, 4, 4] S2x192x48x48
  bcast_S2x192x48x48_S2x192x1x48x48_0_1_3_4 : S2x192x48x48.BroadcastsInDim S2x192x1x48x48 (![0, 1, 3, 4] : Fin 4 → Fin S2x192x1x48x48.rank)
  concatenates_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x16x48x48_d2 : Shape.Concatenates [S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48, S2x192x1x48x48] S2x192x16x48x48 2
  concatenates_S2x192x1x48x48_S2x192x1x48x48_S2x192x1x48x48_S2x192x1x48x48_S2x192x1x48x48_S2x192x1x48x48_S2x192x1x48x48_S2x192x1x48x48_S2x192x1x48x48_S2x192x9x48x48_d2 : Shape.Concatenates [S2x192x1x48x48, S2x192x1x48x48, S2x192x1x48x48, S2x192x1x48x48, S2x192x1x48x48, S2x192x1x48x48, S2x192x1x48x48, S2x192x1x48x48, S2x192x1x48x48] S2x192x9x48x48 2
  concatenates_S2x192x16x48x48_S2x192x9x48x48_S2x192x25x48x48_d2 : Shape.Concatenates [S2x192x16x48x48, S2x192x9x48x48] S2x192x25x48x48 2
  shapeCasts_S2x192x25x48x48_S2x4800x2304 : S2x192x25x48x48.ShapeCasts S2x4800x2304
  bcast_S2x4800x2304_S2x1x4800x2304_0_2_3 : S2x4800x2304.BroadcastsInDim S2x1x4800x2304 (![0, 2, 3] : Fin 3 → Fin S2x1x4800x2304.rank)
  reducesTo_S2x2x48x48_S_d0_1_2_3 : S2x2x48x48.ReducesTo [0, 1, 2, 3] S_
  bcast_S_S2x2x48x48 : S_.BroadcastsInDim S2x2x48x48 (![] : Fin 0 → Fin S2x2x48x48.rank)
  shapeCasts_S2x2x48x48_S2x2x1x2304 : S2x2x48x48.ShapeCasts S2x2x1x2304
  pads_S2x2x48x48_S2x2x52x52_000_000_220_220 : S2x2x48x48.Pads (![0, 0, 2, 2] : Fin 4 → Nat) ![0, 0, 2, 2] ![0, 0, 0, 0] S2x2x52x52
  slices_S2x2x52x52_S2x2x48x48_0_0_0_0 : S2x2x52x52.Slices ![0, 0, 0, 0] S2x2x48x48
  slices_S2x2x52x52_S2x2x48x48_0_0_0_1 : S2x2x52x52.Slices ![0, 0, 0, 1] S2x2x48x48
  slices_S2x2x52x52_S2x2x48x48_0_0_0_2 : S2x2x52x52.Slices ![0, 0, 0, 2] S2x2x48x48
  slices_S2x2x52x52_S2x2x48x48_0_0_0_3 : S2x2x52x52.Slices ![0, 0, 0, 3] S2x2x48x48
  slices_S2x2x52x52_S2x2x48x48_0_0_0_4 : S2x2x52x52.Slices ![0, 0, 0, 4] S2x2x48x48
  slices_S2x2x52x52_S2x2x48x48_0_0_1_0 : S2x2x52x52.Slices ![0, 0, 1, 0] S2x2x48x48
  slices_S2x2x52x52_S2x2x48x48_0_0_1_1 : S2x2x52x52.Slices ![0, 0, 1, 1] S2x2x48x48
  slices_S2x2x52x52_S2x2x48x48_0_0_1_2 : S2x2x52x52.Slices ![0, 0, 1, 2] S2x2x48x48
  slices_S2x2x52x52_S2x2x48x48_0_0_1_3 : S2x2x52x52.Slices ![0, 0, 1, 3] S2x2x48x48
  slices_S2x2x52x52_S2x2x48x48_0_0_1_4 : S2x2x52x52.Slices ![0, 0, 1, 4] S2x2x48x48
  slices_S2x2x52x52_S2x2x48x48_0_0_2_0 : S2x2x52x52.Slices ![0, 0, 2, 0] S2x2x48x48
  slices_S2x2x52x52_S2x2x48x48_0_0_2_1 : S2x2x52x52.Slices ![0, 0, 2, 1] S2x2x48x48
  slices_S2x2x52x52_S2x2x48x48_0_0_2_2 : S2x2x52x52.Slices ![0, 0, 2, 2] S2x2x48x48
  slices_S2x2x52x52_S2x2x48x48_0_0_2_3 : S2x2x52x52.Slices ![0, 0, 2, 3] S2x2x48x48
  slices_S2x2x52x52_S2x2x48x48_0_0_2_4 : S2x2x52x52.Slices ![0, 0, 2, 4] S2x2x48x48
  slices_S2x2x52x52_S2x2x48x48_0_0_3_0 : S2x2x52x52.Slices ![0, 0, 3, 0] S2x2x48x48
  slices_S2x2x52x52_S2x2x48x48_0_0_3_1 : S2x2x52x52.Slices ![0, 0, 3, 1] S2x2x48x48
  slices_S2x2x52x52_S2x2x48x48_0_0_3_2 : S2x2x52x52.Slices ![0, 0, 3, 2] S2x2x48x48
  slices_S2x2x52x52_S2x2x48x48_0_0_3_3 : S2x2x52x52.Slices ![0, 0, 3, 3] S2x2x48x48
  slices_S2x2x52x52_S2x2x48x48_0_0_3_4 : S2x2x52x52.Slices ![0, 0, 3, 4] S2x2x48x48
  slices_S2x2x52x52_S2x2x48x48_0_0_4_0 : S2x2x52x52.Slices ![0, 0, 4, 0] S2x2x48x48
  slices_S2x2x52x52_S2x2x48x48_0_0_4_1 : S2x2x52x52.Slices ![0, 0, 4, 1] S2x2x48x48
  slices_S2x2x52x52_S2x2x48x48_0_0_4_2 : S2x2x52x52.Slices ![0, 0, 4, 2] S2x2x48x48
  slices_S2x2x52x52_S2x2x48x48_0_0_4_3 : S2x2x52x52.Slices ![0, 0, 4, 3] S2x2x48x48
  slices_S2x2x52x52_S2x2x48x48_0_0_4_4 : S2x2x52x52.Slices ![0, 0, 4, 4] S2x2x48x48
  bcast_S2x2x48x48_S2x2x1x48x48_0_1_3_4 : S2x2x48x48.BroadcastsInDim S2x2x1x48x48 (![0, 1, 3, 4] : Fin 4 → Fin S2x2x1x48x48.rank)
  concatenates_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x16x48x48_d2 : Shape.Concatenates [S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48, S2x2x1x48x48] S2x2x16x48x48 2
  concatenates_S2x2x1x48x48_S2x2x1x48x48_S2x2x1x48x48_S2x2x1x48x48_S2x2x1x48x48_S2x2x1x48x48_S2x2x1x48x48_S2x2x1x48x48_S2x2x1x48x48_S2x2x9x48x48_d2 : Shape.Concatenates [S2x2x1x48x48, S2x2x1x48x48, S2x2x1x48x48, S2x2x1x48x48, S2x2x1x48x48, S2x2x1x48x48, S2x2x1x48x48, S2x2x1x48x48, S2x2x1x48x48] S2x2x9x48x48 2
  concatenates_S2x2x16x48x48_S2x2x9x48x48_S2x2x25x48x48_d2 : Shape.Concatenates [S2x2x16x48x48, S2x2x9x48x48] S2x2x25x48x48 2
  shapeCasts_S2x2x25x48x48_S2x50x2304 : S2x2x25x48x48.ShapeCasts S2x50x2304
  bcast_S2x50x2304_S2x1x50x2304_0_2_3 : S2x50x2304.BroadcastsInDim S2x1x50x2304 (![0, 2, 3] : Fin 3 → Fin S2x1x50x2304.rank)
  bcast_S2x1x50x2304_S2x2x50x2304_0_1_2_3 : S2x1x50x2304.BroadcastsInDim S2x2x50x2304 (![0, 1, 2, 3] : Fin 4 → Fin S2x2x50x2304.rank)
  bcast_S2x2x1x2304_S2x2x50x2304_0_1_2_3 : S2x2x1x2304.BroadcastsInDim S2x2x50x2304 (![0, 1, 2, 3] : Fin 4 → Fin S2x2x50x2304.rank)
  shapeCasts_S2x2x50x2304_S2x2x2x1x25x2304 : S2x2x50x2304.ShapeCasts S2x2x2x1x25x2304
  bcast_S2x2x2x1x25x2304_S2x2x2x96x25x2304_0_1_2_3_4_5 : S2x2x2x1x25x2304.BroadcastsInDim S2x2x2x96x25x2304 (![0, 1, 2, 3, 4, 5] : Fin 6 → Fin S2x2x2x96x25x2304.rank)
  shapeCasts_S2x2x2x96x25x2304_S2x2x4800x2304 : S2x2x2x96x25x2304.ShapeCasts S2x2x4800x2304
  bcast_S2x1x4800x2304_S2x2x4800x2304_0_1_2_3 : S2x1x4800x2304.BroadcastsInDim S2x2x4800x2304 (![0, 1, 2, 3] : Fin 4 → Fin S2x2x4800x2304.rank)
  shapeCasts_S2x2x192x4800x1_S2x2x192x4800 : S2x2x192x4800x1.ShapeCasts S2x2x192x4800
  bcast_S2x2x192x1_S2x2x192x2304_0_1_2_3 : S2x2x192x1.BroadcastsInDim S2x2x192x2304 (![0, 1, 2, 3] : Fin 4 → Fin S2x2x192x2304.rank)
  shapeCasts_S2x2x192x2304_S2x384x48x48 : S2x2x192x2304.ShapeCasts S2x384x48x48
  dot_S2x2x192x4800_S2x2x4800x2304_S2x2x192x2304_3_2_2_3_01_01_wf : DotDims.WF S2x2x192x4800 S2x2x4800x2304 S2x2x192x2304 [3] [2] [2] [3] [0, 1] [0, 1]

variable [Facts₀]

def dot_S2x2x192x4800_S2x2x4800x2304_S2x2x192x2304_3_2_2_3_01_01 : DotDims S2x2x192x4800 S2x2x4800x2304 S2x2x192x2304 where
  lhsContracting := [3]
  rhsContracting := [2]
  lhsNonContracting := [2]
  rhsNonContracting := [3]
  lhsBatch := [0, 1]
  rhsBatch := [0, 1]
  wf := dot_S2x2x192x4800_S2x2x4800x2304_S2x2x192x2304_3_2_2_3_01_01_wf

class Facts : Prop extends Facts₀ where

variable [Facts]
-- ==== Proof.K.Entry.lean ====
/-
  What core `c`'s buffers hold when the pallas_call's region is entered: the launch memory after the host
  operations that precede the region (the constant, the two paddings, and the two long stretches that build
  the shifted image, the masks, the per-tap weights and the bias column), as one fold over them.
-/
import proofs.«146505_j13426067767599_2_alg».proof.Proof.Gen.Kernel.Launch

noncomputable section

namespace Cert.Kernel.Fr

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core `c`'s TensorCore buffer contents when the region is entered, as a valuation. -/
abbrev V0 (c : Dev nD) : Valuation τ sig (Elt F) :=
  StableHlo.after (List.flatten [hostOps0, hostOps0_1, hostOps0_2, hostOps0_3, hostOps0_4]) (fun b => m (c, b))

/-- The same read at a TensorCore reference. -/
abbrev V (c : Dev nD) (b : Ref sig .tc) : Buf (Elt F) ((c : Thread nD τ).loc b) := V0 m c (Proc.devRef .tc b)

end Cert.Kernel.Fr

end
-- ==== Proof.K.Kit.lean ====
/-
  The frame of the one pallas_call, part one: what every case of the body's run shares.

  @main is host operations, the region, one reshape. The region runs a 2 × 25 grid (image `b`, tap `s`); the
  body resets its accumulator at tap 0 (`s = 0`), adds both output groups' products at every tap, and stores
  the output block at tap 24 only, which is also where the pipeline writes the block back. So there are three
  kinds of grid point: first tap, middle taps, last tap. Here: the program up to the region and after it, that
  the argument arrays are untouched, the blocks the windows show the body, the two conditions in closed form,
  and where the output window is idle.
-/
import proofs.«146505_j13426067767599_2_alg».proof.Proof.K.Entry
import proofs.«146505_j13426067767599_2_alg».proof.Proof.Gen.Kernel.Skeleton
import proofs.«146505_j13426067767599_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, at the contents after the host operations before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches the pipeline's arrays and bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is none of the pipeline's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does the reshape after the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays are no window's array and nothing writes them: from the run's post they end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's two conditions -/

/-- "This is the first tap": the body's first `if`, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last tap": the body's second `if`. -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last tap nothing is stored into the output window: it is idle there, -/
theorem idleAt0_4 : ∀ t : Fin cfg0.N, ¬cond0_1 (grid0.coords t) → cfg0.idle 4 (grid0.coords t) = true := by decide +kernel
/-- and not written back. -/
theorem noFlush0_4 : ∀ t : Fin cfg0.N, ¬cond0_1 (grid0.coords t) → (cfg0.win 4).flush t = false := by decide +kernel
/-- At the last tap it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x384x2304 .f32 := (Memref.whole cc0_stg4_0 : Memref sig .tc .vmem S1x384x2304 .f32).view
abbrev ms0_0 (t : Fin cfg0.N) : Memref sig .tc .vmem S1x1x192x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x384x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2x2x2304 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x2304 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S384x2304 .f32 := Memref.whole cc0_scratch0
/-- The accumulator as a view: what it holds is stated through it. -/
abbrev VS0_0 : View sig .tc .vmem S384x2304 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The kernel body run symbolically at the FIRST tap (the accumulator is reset, then both groups' products are added; nothing is stored into the output block).
  The run's witness is the list of pieces (rectangle, value) each buffer ends with, last store first; the values
  are the body's payloads of the blocks it loaded. On whole staging buffers holding the four input blocks the body
  runs to its end, leaves the inputs as they were, and leaves the accumulator with its pieces written, the output buffer untouched.
-/
import proofs.«146505_j13426067767599_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : cond0_0 i) (hc1 : ¬cond0_1 i)
    (x0 : Vec F S1x1x192x2304 .bf16) (x1 : Vec F S1x1x384x192 .bf16) (x2 : Vec F S1x1x2x2x2304 .bf16) (x3 : Vec F S1x384x1 .f32) :
    Σ' (L4 : List (View.Piece (Elt F) S1x384x2304 .f32)), { LS0 : List (View.Piece (Elt F) S384x2304 .f32) //
      ∀ (xi4 : Vec F S1x384x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.RunB.lean ====
/-
  The kernel body run symbolically at a MIDDLE tap (both groups' products are added to the accumulator the tap before left; nothing is stored into the output block).
  The run's witness is the list of pieces (rectangle, value) each buffer ends with, last store first; the values
  are the body's payloads of the blocks it loaded. On whole staging buffers holding the four input blocks the body
  runs to its end, leaves the inputs as they were, and leaves the accumulator with its pieces written, the output buffer untouched.
-/
import proofs.«146505_j13426067767599_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : ¬cond0_1 i)
    (x0 : Vec F S1x1x192x2304 .bf16) (x1 : Vec F S1x1x384x192 .bf16) (x2 : Vec F S1x1x2x2x2304 .bf16) (x3 : Vec F S1x384x1 .f32) (xs0 : Vec F S384x2304 .f32) :
    Σ' (L4 : List (View.Piece (Elt F) S1x384x2304 .f32)), { LS0 : List (View.Piece (Elt F) S384x2304 .f32) //
      ∀ (xi4 : Vec F S1x384x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.K.RunC.lean ====
/-
  The kernel body run symbolically at the LAST tap (both groups' products are added, then the accumulator plus the bias column is stored as the output block).
  The run's witness is the list of pieces (rectangle, value) each buffer ends with, last store first; the values
  are the body's payloads of the blocks it loaded. On whole staging buffers holding the four input blocks the body
  runs to its end, leaves the inputs as they were, and leaves the accumulator with its pieces written, the output block with its one piece written.
-/
import proofs.«146505_j13426067767599_2_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : cond0_1 i)
    (x0 : Vec F S1x1x192x2304 .bf16) (x1 : Vec F S1x1x384x192 .bf16) (x2 : Vec F S1x1x2x2x2304 .bf16) (x3 : Vec F S1x384x1 .f32) (xs0 : Vec F S384x2304 .f32) :
    Σ' (L4 : List (View.Piece (Elt F) S1x384x2304 .f32)), { LS0 : List (View.Piece (Elt F) S384x2304 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.K.Frame.lean ====
/-
  The frame of the one pallas_call, part two: what the accumulator and the output block hold after every grid
  point, the proof data of the pipeline, the body's obligation at every point, the run of @main, and the frame.

  The grid is visited image by image, tap by tap (point `t` is image `t / 25`, tap `t % 25`). The accumulator after
  a point is, entry by entry, what the body's stores of that point left: at a first tap they do not depend on what
  was there before; at every other tap they are computed from what the previous point left. The output block is
  stored, and written back, at last taps only.
-/
import proofs.«146505_j13426067767599_2_alg».proof.Proof.K.RunA
import proofs.«146505_j13426067767599_2_alg».proof.Proof.K.RunB
import proofs.«146505_j13426067767599_2_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- Nothing is stored into the output block here: a placeholder nothing consults (the window is idle and not written back). -/
def out0_A_4 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : cond0_0 i) (hc1 : ¬cond0_1 i)
    (x0 : Vec F S1x1x192x2304 .bf16) (x1 : Vec F S1x1x384x192 .bf16) (x2 : Vec F S1x1x2x2x2304 .bf16) (x3 : Vec F S1x384x1 .f32) : Vec F S1x384x2304 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The accumulator is covered by this tap's stores (the reset stores all of it). -/
theorem scover0_A_0 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : cond0_0 i) (hc1 : ¬cond0_1 i)
    (x0 : Vec F S1x1x192x2304 .bf16) (x1 : Vec F S1x1x384x192 .bf16) (x2 : Vec F S1x1x2x2x2304 .bf16) (x3 : Vec F S1x384x1 .f32) (y : S384x2304.Idx) :
    ∃ pc ∈ (kernelRun0_A c i arg2 harg2 arg3 harg3 arg4 harg4 arg5 harg5 arg6 harg6 arg7 harg7 hc0 hc1 x0 x1 x2 x3).2.1, y ∈ pc.1.set :=
  View.cover_of_wholeMem (kernelRun0_A c i arg2 harg2 arg3 harg3 arg4 harg4 arg5 harg5 arg6 harg6 arg7 harg7 hc0 hc1 x0 x1 x2 x3).2.1 (by sl_whole_mem) y

/-- What this tap leaves in the accumulator: its pieces read back. -/
def sout0_A_0 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : cond0_0 i) (hc1 : ¬cond0_1 i)
    (x0 : Vec F S1x1x192x2304 .bf16) (x1 : Vec F S1x1x384x192 .bf16) (x2 : Vec F S1x1x2x2x2304 .bf16) (x3 : Vec F S1x384x1 .f32) : Vec F S384x2304 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Nothing is stored into the output block here: a placeholder nothing consults (the window is idle and not written back). -/
def out0_B_4 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : ¬cond0_1 i)
    (x0 : Vec F S1x1x192x2304 .bf16) (x1 : Vec F S1x1x384x192 .bf16) (x2 : Vec F S1x1x2x2x2304 .bf16) (x3 : Vec F S1x384x1 .f32) (xs0 : Vec F S384x2304 .f32) : Vec F S1x384x2304 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The accumulator is covered by this tap's stores (the two groups' row blocks tile it). -/
theorem scover0_B_0 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : ¬cond0_1 i)
    (x0 : Vec F S1x1x192x2304 .bf16) (x1 : Vec F S1x1x384x192 .bf16) (x2 : Vec F S1x1x2x2x2304 .bf16) (x3 : Vec F S1x384x1 .f32) (xs0 : Vec F S384x2304 .f32) (y : S384x2304.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S192x2304.size (by sl_kernel_rfl) y

/-- What this tap leaves in the accumulator: its pieces read back. -/
def sout0_B_0 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : ¬cond0_1 i)
    (x0 : Vec F S1x1x192x2304 .bf16) (x1 : Vec F S1x1x384x192 .bf16) (x2 : Vec F S1x1x2x2x2304 .bf16) (x3 : Vec F S1x384x1 .f32) (xs0 : Vec F S384x2304 .f32) : Vec F S384x2304 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The last tap's one store covers the output block. -/
theorem cover0_C_4 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : cond0_1 i)
    (x0 : Vec F S1x1x192x2304 .bf16) (x1 : Vec F S1x1x384x192 .bf16) (x2 : Vec F S1x1x2x2x2304 .bf16) (x3 : Vec F S1x384x1 .f32) (xs0 : Vec F S384x2304 .f32) (y : S1x384x2304.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x384x2304.size (by sl_kernel_rfl) y

/-- What the last tap leaves in the output block: its pieces read back. -/
def out0_C_4 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : cond0_1 i)
    (x0 : Vec F S1x1x192x2304 .bf16) (x1 : Vec F S1x1x384x192 .bf16) (x2 : Vec F S1x1x2x2x2304 .bf16) (x3 : Vec F S1x384x1 .f32) (xs0 : Vec F S384x2304 .f32) : Vec F S1x384x2304 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The accumulator is covered by this tap's stores (the two groups' row blocks tile it). -/
theorem scover0_C_0 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : cond0_1 i)
    (x0 : Vec F S1x1x192x2304 .bf16) (x1 : Vec F S1x1x384x192 .bf16) (x2 : Vec F S1x1x2x2x2304 .bf16) (x3 : Vec F S1x384x1 .f32) (xs0 : Vec F S384x2304 .f32) (y : S384x2304.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S192x2304.size (by sl_kernel_rfl) y

/-- What this tap leaves in the accumulator: its pieces read back. -/
def sout0_C_0 (c : Dev nD) (i : grid0.Coords) (arg2 : Memref sig .tc .vmem S1x1x192x2304 .bf16) (harg2 : arg2.IsWhole) (arg3 : Memref sig .tc .vmem S1x1x384x192 .bf16) (harg3 : arg3.IsWhole) (arg4 : Memref sig .tc .vmem S1x1x2x2x2304 .bf16) (harg4 : arg4.IsWhole) (arg5 : Memref sig .tc .vmem S1x384x1 .f32) (harg5 : arg5.IsWhole) (arg6 : Memref sig .tc .vmem S1x384x2304 .f32) (harg6 : arg6.IsWhole) (arg7 : Memref sig .tc .vmem S384x2304 .f32) (harg7 : arg7.IsWhole) (hc0 : ¬cond0_0 i) (hc1 : cond0_1 i)
    (x0 : Vec F S1x1x192x2304 .bf16) (x1 : Vec F S1x1x384x192 .bf16) (x2 : Vec F S1x1x2x2x2304 .bf16) (x3 : Vec F S1x384x1 .f32) (xs0 : Vec F S384x2304 .f32) : Vec F S384x2304 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the buffers hold after each point -/

/-- After the body at position `n`: the output block's staging buffer and the accumulator. A first tap (`n % 25 = 0`)
    starts afresh; every other tap continues from what position `n - 1` left in the accumulator. -/
def outsAt0 (c : Dev nD) : (n : ℕ) → n < cfg0.N → Vec F S1x384x2304 .f32 × Vec F S384x2304 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 25 = 0 then
      if h1 : (n + 1) % 25 = 24 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 25 = 24 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first tap. -/
theorem outsAt0_A (c : Dev nD) (t : Fin cfg0.N) (h0 : t.val % 25 = 0) (h1 : ¬t.val % 25 = 24) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle tap: over what the point before left. -/
theorem outsAt0_B (c : Dev nD) (t : Fin cfg0.N) (h0 : ¬t.val % 25 = 0) (h1 : ¬t.val % 25 = 24) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tap: over what the point before left. -/
theorem outsAt0_C (c : Dev nD) (t : Fin cfg0.N) (h0 : ¬t.val % 25 = 0) (h1 : t.val % 25 = 24) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what
    the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and
    the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's tap says which run applies; the invariant
    hands the body the accumulator at what the point before left (at anything at the very first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · by_cases h1 : t.val % 25 = 24
    · exfalso; omega
    · rw [(show (dats m 0 c).leavesExact 0 t = owns (c : Thread nD τ) (ms0_0 t) fullShare ((dats m 0 c).after 0 t) from (by unfold Dat.leavesExact; rw [liveAt0_0 t])), after0_0]
      rw [(show (dats m 0 c).leavesExact 1 t = owns (c : Thread nD τ) (ms0_1 t) fullShare ((dats m 0 c).after 1 t) from (by unfold Dat.leavesExact; rw [liveAt0_1 t])), after0_1]
      rw [(show (dats m 0 c).leavesExact 2 t = owns (c : Thread nD τ) (ms0_2 t) fullShare ((dats m 0 c).after 2 t) from (by unfold Dat.leavesExact; rw [liveAt0_2 t])), after0_2]
      rw [(show (dats m 0 c).leavesExact 3 t = owns (c : Thread nD τ) (ms0_3 t) fullShare ((dats m 0 c).after 3 t) from (by unfold Dat.leavesExact; rw [liveAt0_3 t])), after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 25 = 24
    · rw [(show (dats m 0 c).leavesExact 0 t = owns (c : Thread nD τ) (ms0_0 t) fullShare ((dats m 0 c).after 0 t) from (by unfold Dat.leavesExact; rw [liveAt0_0 t])), after0_0]
      rw [(show (dats m 0 c).leavesExact 1 t = owns (c : Thread nD τ) (ms0_1 t) fullShare ((dats m 0 c).after 1 t) from (by unfold Dat.leavesExact; rw [liveAt0_1 t])), after0_1]
      rw [(show (dats m 0 c).leavesExact 2 t = owns (c : Thread nD τ) (ms0_2 t) fullShare ((dats m 0 c).after 2 t) from (by unfold Dat.leavesExact; rw [liveAt0_2 t])), after0_2]
      rw [(show (dats m 0 c).leavesExact 3 t = owns (c : Thread nD τ) (ms0_3 t) fullShare ((dats m 0 c).after 3 t) from (by unfold Dat.leavesExact; rw [liveAt0_3 t])), after0_3]
      rw [(show (dats m 0 c).leavesExact 4 t = owns (c : Thread nD τ) (ms0_4 t) fullShare ((dats m 0 c).after 4 t) from (by unfold Dat.leavesExact; rw [liveAt0_4 t ((hcond0_1 t).mpr h1)])), after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ )
    · rw [(show (dats m 0 c).leavesExact 0 t = owns (c : Thread nD τ) (ms0_0 t) fullShare ((dats m 0 c).after 0 t) from (by unfold Dat.leavesExact; rw [liveAt0_0 t])), after0_0]
      rw [(show (dats m 0 c).leavesExact 1 t = owns (c : Thread nD τ) (ms0_1 t) fullShare ((dats m 0 c).after 1 t) from (by unfold Dat.leavesExact; rw [liveAt0_1 t])), after0_1]
      rw [(show (dats m 0 c).leavesExact 2 t = owns (c : Thread nD τ) (ms0_2 t) fullShare ((dats m 0 c).after 2 t) from (by unfold Dat.leavesExact; rw [liveAt0_2 t])), after0_2]
      rw [(show (dats m 0 c).leavesExact 3 t = owns (c : Thread nD τ) (ms0_3 t) fullShare ((dats m 0 c).after 3 t) from (by unfold Dat.leavesExact; rw [liveAt0_3 t])), after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 50 := N_0; omega)

/-! ## The run and the frame -/

set_option backward.isDefEq.respectTransparency.types false in
/-- Every weakly fair execution of @main terminates; every final state has every array of the pipeline at what the proof
    data computes and every other unscoped buffer as the region found it, then as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KI.Result.lean ====
/-
  @main's result: the closing reshape of the output array only renames pixel `l = 48·h + w` as `(h, w)`.
-/import proofs.«146505_j13426067767599_2_alg».proof.Proof.KI.OutArray

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## @main's result -/

/-- @main's result: the output array with pixel `48·h + w` renamed `(h, w)`. -/
def resK (c : Dev nD) : S2x384x48x48.Idx → EReal := fun j =>
  outK m c (ix3 (j 0) (j 1) (⟨(j 2).val * 48 + (j 3).val, by have h2 : (j 2).val < 48 := (j 2).isLt; have h3 : (j 3).val < 48 := (j 3).isLt; omega⟩ : Fin 2304))

/-- A [2, 384, 2304] array reshaped to [2, 384, 48, 48], read at `(b, n, h, w)`, is the array at pixel `48·h + w`. -/
theorem reshape_read (A : S2x384x2304.Idx → EReal) (hc : S2x384x2304.ShapeCasts S2x384x48x48) (j : S2x384x48x48.Idx) :
    shapeCast S2x384x48x48 A hc j
      = A (ix3 (j 0) (j 1) (⟨(j 2).val * 48 + (j 3).val, by have h2 : (j 2).val < 48 := (j 2).isLt; have h3 : (j 3).val < 48 := (j 3).isLt; omega⟩ : Fin 2304)) := by
  refine shapeCast_apply _ _ j _ ?_
  rw [Shape.rowMajor_val_three, Shape.rowMajor_val_four]
  show (((j 0).val * 384 + (j 1).val) * 2304 + ((j 2).val * 48 + (j 3).val)) = ((((j 0).val * 384 + (j 1).val) * 48 + (j 2).val) * 48 + (j 3).val)
  have h2 : (j 2).val < 48 := (j 2).isLt
  have h3 : (j 3).val < 48 := (j 3).isLt
  omega

/-- The closing reshape of the output array is `resK`. -/
theorem tail_eq (c : Dev nD) :
    Pipeline.afterTail₀ cfgs (dats m) 0 (V0 m) [hostOps1] c main_v131 = resK m c := by
  unfold Pipeline.afterTail₀
  show StableHlo.after hostOps1 _ (Proc.devRef .tc main_v131) = _
  after_results
  rw [(Pipeline.withArrays_arr spec0 launch0.win.arr_inj c _ _ 4).trans (final4 m c)]
  funext j
  exact reshape_read (outK m c) _ j

/-- The run, read: @main's result is `resK`, and its four argument arrays end as launched. -/
theorem run_res : θ_run defs (onTc (τ := τ) (main (F := Ideal))) ⟨m, fun _ => 0, ρ⟩ (fun r => ∀ c : Dev nD,
      r.2.mem ((c.tc : Thread nD τ).loc main_v131) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v131 (Pipeline.mem_restRefs_of main_v131 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Fr

end
-- ==== Proof.KI.Entry.lean ====
/-
  What core `c`'s buffers hold when the pallas_call's region is entered: the launch memory after the host
  operations that precede the region (the constant, the two paddings, and the two long stretches that build
  the shifted image, the masks, the per-tap weights and the bias column), as one fold over them.
-/
import proofs.«146505_j13426067767599_2_alg».proof.Proof.Gen.KernelIdeal.Launch

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core `c`'s TensorCore buffer contents when the region is entered, as a valuation. -/
abbrev V0 (c : Dev nD) : Valuation τ sig (Elt F) :=
  StableHlo.after (List.flatten [hostOps0, hostOps0_1, hostOps0_2, hostOps0_3, hostOps0_4]) (fun b => m (c, b))

/-- The same read at a TensorCore reference. -/
abbrev V (c : Dev nD) (b : Ref sig .tc) : Buf (Elt F) ((c : Thread nD τ).loc b) := V0 m c (Proc.devRef .tc b)

end Cert.KernelIdeal.Fr

end
-- ==== Proof.Spec.lean ====
/-
  The function both programs compute, over the extended reals.

  A 5×5 convolution whose kernel is given per image, applied to a zero-padded image, where every tap is
  switched on or off by a causal mask on "topology groups": input channel `c` of channel group
  `c / 96` contributes to output group `g` at pixel `(h, v)` through tap `s = (s / 5, s % 5)` exactly when the
  (shifted, zero-padded) group offset of the tap's source pixel is strictly below the offset of the
  output pixel in group `g`:

    out[b, g·192 + o, h, v] = Σ_{s < 25} Σ_{c < 192}  w[b, g, o, c·25 + s, 0] · ( xp[b, c, h + s/5, v + s%5] · [ tp[b, c/96, h + s/5, v + s%5] < ctr[b, g, h, v] ] )
                               + d[b, g, o, 0]

  `xp` is the padded image, `tp` the padded offsets, `ctr` the offsets themselves; the bracket is 1 or 0.
  The taps are summed tap-major here (`s` outside, `c` inside); any other order of the 4800 products is the
  same number, addition on the extended reals being commutative and associative.
-/
import Idealize.ShloMosaic.PureOps.Ideal
import Idealize.ShloMosaic.Lib.ValueIdx

noncomputable section

namespace Cert.Spec

open Idealize.ShloMosaic Idealize.ShloMosaic.ValueIdx

/-- The padded image `[2, 192, 52, 52]`. -/
abbrev SXP : Shape := ⟨4, ![2, 192, 52, 52]⟩
/-- The padded group offsets `[2, 2, 52, 52]`. -/
abbrev STP : Shape := ⟨4, ![2, 2, 52, 52]⟩
/-- The group offsets `[2, 2, 48, 48]`. -/
abbrev ST : Shape := ⟨4, ![2, 2, 48, 48]⟩
/-- The per-image kernel `[2, 2, 192, 4800, 1]`. -/
abbrev SW : Shape := ⟨5, ![2, 2, 192, 4800, 1]⟩
/-- The per-image bias `[2, 2, 192, 1]`. -/
abbrev SB : Shape := ⟨4, ![2, 2, 192, 1]⟩
/-- The result `[2, 384, 48, 48]`. -/
abbrev SO : Shape := ⟨4, ![2, 384, 48, 48]⟩

/-- `1` when `a < b`, else `0`: the strict comparison as a number. -/
def ind (a b : EReal) : EReal := (((Ideal.cmp .olt a b).toNat : ℝ) : EReal)

/-- One product of the sum: tap `s`, input channel `c`, for output `(b, g, o, h, v)`. -/
def term (xp : SXP.Idx → EReal) (tp : STP.Idx → EReal) (ctr : ST.Idx → EReal) (w : SW.Idx → EReal)
    (b g : Fin 2) (o : Fin 192) (h v : Fin 48) (s : Fin 25) (c : Fin 192) : EReal :=
  w (ix5 b g o (⟨c.val * 25 + s.val, by omega⟩ : Fin 4800) (0 : Fin 1))
    * (xp (ix4 b c (⟨h.val + s.val / 5, by omega⟩ : Fin 52) (⟨v.val + s.val % 5, by omega⟩ : Fin 52))
        * ind (tp (ix4 b (⟨c.val / 96, by omega⟩ : Fin 2) (⟨h.val + s.val / 5, by omega⟩ : Fin 52) (⟨v.val + s.val % 5, by omega⟩ : Fin 52)))
              (ctr (ix4 b g h v)))

/-- The result at output channel `n = g·192 + o` of image `b`, pixel `(h, v)`. -/
def Gat (xp : SXP.Idx → EReal) (tp : STP.Idx → EReal) (ctr : ST.Idx → EReal) (w : SW.Idx → EReal) (d : SB.Idx → EReal)
    (b : Fin 2) (n : Fin 384) (h v : Fin 48) : EReal :=
  (∑ s : Fin 25, ∑ c : Fin 192,
      term xp tp ctr w b (⟨n.val / 192, by omega⟩ : Fin 2) (⟨n.val % 192, by omega⟩ : Fin 192) h v s c)
    + d (ix4 b (⟨n.val / 192, by omega⟩ : Fin 2) (⟨n.val % 192, by omega⟩ : Fin 192) (0 : Fin 1))

/-- The whole result array. -/
def G (xp : SXP.Idx → EReal) (tp : STP.Idx → EReal) (ctr : ST.Idx → EReal) (w : SW.Idx → EReal) (d : SB.Idx → EReal) :
    SO.Idx → EReal :=
  fun j => Gat xp tp ctr w d (j 0) (j 1) (j 2) (j 3)

end Cert.Spec

end
-- ==== Proof.Padded.lean ====
/-
  The three arrays both programs build on the host before anything else, as functions of the arguments:
  the image padded by two zeros on each side of its two pixel axes; the topology-group offsets
  `tg − ⌈max tg⌉ − 1` (all negative, so that the zero padding reads as "later than everything");
  and those offsets padded the same way.
-/
import proofs.«146505_j13426067767599_2_alg».proof.Proof.Spec
import Idealize.ShloMosaic.PureOps.Ideal

noncomputable section

namespace Cert.Spec

open Idealize.ShloMosaic

/-- The image `[2, 192, 48, 48]`. -/
abbrev SX : Shape := ⟨4, ![2, 192, 48, 48]⟩
/-- A scalar. -/
abbrev S0 : Shape := ⟨0, ![]⟩

/-- The image with two rows and two columns of zeros on every side. -/
def padX (x : FVec Ideal SX .f32) : FVec Ideal SXP .f32 :=
  pad SXP ![0, 0, 2, 2] ![0, 0, 2, 2] ![0, 0, 0, 0] x (sitofp (F := Ideal) .f32 (constantI S0 32 0#32))

/-- The group offsets `tg − ⌈max tg⌉ − 1`. -/
def offsets (tg : IVec ST 32) : FVec Ideal ST .f32 :=
  subf
    (subf (sitofp (F := Ideal) .f32 tg)
      (broadcastInDim ST ![] (by decide : S0.BroadcastsInDim ST (![] : Fin 0 → Fin ST.rank))
        (Host.ceil (Host.reduce (axes := [0, 1, 2, 3]) (t := S0) FloatOps.maximumf (sitofp (F := Ideal) .f32 tg)
          (constant (F := Ideal) S0 .f32 0xFF800000#32)))))
    (broadcastInDim ST ![] (by decide : S0.BroadcastsInDim ST (![] : Fin 0 → Fin ST.rank)) (constant (F := Ideal) S0 .f32 0x3F800000#32))

/-- The offsets with two rows and two columns of zeros on every side. -/
def padT (tg : IVec ST 32) : FVec Ideal STP .f32 :=
  pad STP ![0, 0, 2, 2] ![0, 0, 2, 2] ![0, 0, 0, 0] (offsets tg) (sitofp (F := Ideal) .f32 (constantI S0 32 0#32))

end Cert.Spec

end
-- ==== Proof.KI.HostValue.lean ====
/-
  What the pallas_call's four operands hold when the region is entered, entry by entry, as functions of the
  program's arguments (over the extended reals):
  the shifted image (tap-major), the per-tap weight slices, the causal masks and the bias column.
-/
import proofs.«146505_j13426067767599_2_alg».proof.Proof.KI.Entry
import proofs.«146505_j13426067767599_2_alg».proof.Proof.Padded
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Idealize.ShloMosaic Idealize.ShloMosaic.TcCoe Idealize.ShloMosaic.ValueIdx
open Idealize.SL Idealize.SL.Sem
open Cert.KernelIdeal Cert.KernelIdeal.Gen Cert.KernelIdeal.Fr

variable (m : (ℓ : Loc nD τ sig) → Buf (Elt Ideal) ℓ) (c : Dev nD)

/-- The buffers' contents when the region is entered, written out as the fold over the host operations, one by one. -/
local macro "enter_fold" : tactic =>
  `(tactic| (dsimp only [V, V0]
             simp only [hostOps0, hostOps0_1, hostOps0_2, hostOps0_3, hostOps0_4, List.flatten_cons, List.flatten_nil,
               List.append_nil, List.cons_append, List.nil_append]))

/-- One buffer's contents after a run of host operations: an operation's result at its own buffer is its function of
    its operands' contents, and every other buffer keeps what it held (the operand list of a many-operand operation
    read at a literal position). -/
local macro "read_fold" : tactic =>
  `(tactic| simp (disch := decide) only [StableHlo.after_cons, StableHlo.after_nil,
      StableHlo.nullary_result', StableHlo.unary_result', StableHlo.binary_result', StableHlo.reshape_result', StableHlo.nary_result',
      StableHlo.nullary_result_ne', StableHlo.unary_result_ne', StableHlo.binary_result_ne', StableHlo.reshape_result_ne',
      StableHlo.nary_result_ne', Matrix.cons_val])

section Stack
variable {α : Type}

/-- One entry of a stack: a concatenation along axis 1 of `N` pieces of extent 1 along that axis, whose piece `k` is `w`,
    read at `(b, k, ch, y, z)` is `w` at `(b, 0, ch, y, z)`: the `k` pieces before it take up `k` places. -/
private theorem piece_apply {C N : Nat} (xs : List ((s : Shape) × (s.Idx → α)))
    (h : Shape.Concatenates (xs.map (·.1)) (⟨5, ![2, N, C, 48, 48]⟩ : Shape) 1)
    (b : Fin 2) (s : Fin N) (ch : Fin C) (y z : Fin 48)
    (hmap : xs.map (·.1) = List.replicate N (⟨5, ![2, 1, C, 48, 48]⟩ : Shape)) (k : Nat) (hs : s.val = k)
    (w : (⟨5, ![2, 1, C, 48, 48]⟩ : Shape).Idx → α)
    (hxk : xs[k]'(by have hl := congrArg List.length hmap; rw [List.length_map, List.length_replicate] at hl; have := s.isLt; omega) = ⟨(⟨5, ![2, 1, C, 48, 48]⟩ : Shape), w⟩) :
    concatenate (⟨5, ![2, N, C, 48, 48]⟩ : Shape) 1 xs h (ix5 b s ch y z) = w (ix5 b (0 : Fin 1) ch y z) := by
  have hN : xs.length = N := by have hl := congrArg List.length hmap; rwa [List.length_map, List.length_replicate] at hl
  have hkN : k ≤ N := by have := s.isLt; omega
  have hk : k < xs.length := by have := s.isLt; omega
  have hpre : (((xs.take k).map (·.1)).map fun s => if h : s.rank = (⟨5, ![2, N, C, 48, 48]⟩ : Shape).rank then s.size ((1 : Fin (⟨5, ![2, N, C, 48, 48]⟩ : Shape).rank).cast h.symm) else 0).sum = k := by
    rw [List.map_take, hmap, List.take_replicate, List.map_replicate, List.sum_replicate, smul_eq_mul, Nat.min_eq_left hkN]
    show k * 1 = k
    omega
  refine concatenate_apply_piece (1 : Fin (⟨5, ![2, N, C, 48, 48]⟩ : Shape).rank) xs h (ix5 b s ch y z) k hk _ _ hxk rfl k hpre
    (ix5 b (0 : Fin 1) ch y z) ?_ ?_
  · intro a ha
    match a with
    | ⟨0, _⟩ => rfl
    | ⟨1, _⟩ => exact absurd rfl ha
    | ⟨2, _⟩ => rfl
    | ⟨3, _⟩ => rfl
    | ⟨4, _⟩ => rfl
  · show k + 0 = s.val
    omega

/-- One tap: the window of a padded array `x` that starts at row `I`, column `J`, given a unit axis 1, read at
    `(b, 0, ch, y, z)` is `x` at `(b, ch, y + I, z + J)`. -/
private theorem tap_apply {C : Nat} (x : (⟨4, ![2, C, 52, 52]⟩ : Shape).Idx → α) (I J : Nat)
    (hsl : (⟨4, ![2, C, 52, 52]⟩ : Shape).Slices ![0, 0, I, J] (⟨4, ![2, C, 48, 48]⟩ : Shape))
    (hb : (⟨4, ![2, C, 48, 48]⟩ : Shape).BroadcastsInDim (⟨5, ![2, 1, C, 48, 48]⟩ : Shape) ![0, 2, 3, 4])
    (b : Fin 2) (ch : Fin C) (y z : Fin 48) (y' z' : Fin 52) (hy : y'.val = y.val + I) (hz : z'.val = z.val + J) :
    broadcastInDim (⟨5, ![2, 1, C, 48, 48]⟩ : Shape) ![0, 2, 3, 4] hb (extractStridedSlice (⟨4, ![2, C, 48, 48]⟩ : Shape) ![0, 0, I, J] x hsl) (ix5 b (0 : Fin 1) ch y z)
      = x (ix4 b ch y' z') := by
  -- the unit axis is dropped; a channel axis of extent 1 reads its only entry
  refine (broadcastInDim_apply _ hb _ _ (ix4 b ch y z) ?_).trans ?_
  · intro a
    match a with
    | ⟨0, _⟩ => rfl
    | ⟨1, _⟩ =>
      show ch.val = if C = 1 then 0 else ch.val
      split
      · have := ch.isLt; omega
      · rfl
    | ⟨2, _⟩ => rfl
    | ⟨3, _⟩ => rfl
  -- the window reads its operand at offset + index
  refine extractStridedSlice_apply _ x hsl _ _ ?_
  intro a
  match a with
  | ⟨0, _⟩ => exact (Nat.zero_add _).symm
  | ⟨1, _⟩ => exact (Nat.zero_add _).symm
  | ⟨2, _⟩ => show y'.val = I + y.val; omega
  | ⟨3, _⟩ => show z'.val = J + z.val; omega

end Stack

set_option maxHeartbeats 8000000 in
/-- Operand 0: tap `s` of the shifted image is the padded image moved by `(s / 5, s % 5)`; a flat pixel `l` is `(l / 48, l % 48)`. -/
theorem V55_apply (b : Fin 2) (s : Fin 25) (ch : Fin 192) (l : Fin 2304) :
    (V m c main_v55 : S2x25x192x2304.Idx → EReal) (ix4 b s ch l)
      = Cert.Spec.padX (m ((c : Thread nD τ).loc main_arg0))
          (ix4 b ch (⟨l.val / 48 + s.val / 5, by omega⟩ : Fin 52) (⟨l.val % 48 + s.val % 5, by omega⟩ : Fin 52)) := by
  enter_fold
  read_fold
  -- the format change is the identity on extended reals
  refine (truncf_apply (φ := .f32) (ψ := .bf16) _ bitsLt_bf16_f32 _).trans ?_
  -- l = 48·(l / 48) + l % 48: (b, s, ch, l) and (b, s, ch, l / 48, l % 48) have the same row-major position
  refine (shapeCast_apply (s := S2x25x192x48x48) (t := S2x25x192x2304) _ _ _
    (ix5 b s ch (⟨l.val / 48, by omega⟩ : Fin 48) (⟨l.val % 48, by omega⟩ : Fin 48)) ?_).trans ?_
  · rw [Shape.rowMajor_val_five, Shape.rowMajor_val_four]
    show ((((b.val * 25 + s.val) * 192 + ch.val) * 48 + l.val / 48) * 48 + l.val % 48) = ((b.val * 25 + s.val) * 192 + ch.val) * 2304 + l.val
    omega
  obtain ⟨k, hk⟩ := s
  by_cases hs : k < 16
  · -- taps 0 … 15 sit in the first block of the stack, at the same position
    refine (concatenate_pair_apply_left (s₁ := S2x16x192x48x48) (s₂ := S2x9x192x48x48) (1 : Fin S2x25x192x48x48.rank) _ _ _ _ rfl
      (ix5 b (⟨k, hs⟩ : Fin 16) ch (⟨l.val / 48, by omega⟩ : Fin 48) (⟨l.val % 48, by omega⟩ : Fin 48)) ?_).trans ?_
    · intro a
      match a with
      | ⟨0, _⟩ => rfl
      | ⟨1, _⟩ => rfl
      | ⟨2, _⟩ => rfl
      | ⟨3, _⟩ => rfl
      | ⟨4, _⟩ => rfl
    rw [StableHlo.nary_result_ne]; rotate_left; decide
    rw [StableHlo.nary_result]
    interval_cases k
    all_goals
      refine (piece_apply _ _ b _ ch _ _ rfl _ rfl _ rfl).trans ?_
      read_fold
      exact tap_apply _ _ _ _ _ b ch _ _ _ _ rfl rfl
  · -- taps 16 … 24 sit in the second block, sixteen places earlier
    refine (concatenate_pair_apply_right (s₁ := S2x16x192x48x48) (s₂ := S2x9x192x48x48) (1 : Fin S2x25x192x48x48.rank) _ _ _ _ rfl rfl
      (ix5 b (⟨k - 16, by omega⟩ : Fin 9) ch (⟨l.val / 48, by omega⟩ : Fin 48) (⟨l.val % 48, by omega⟩ : Fin 48)) ?_ ?_).trans ?_
    · intro a ha
      match a with
      | ⟨0, _⟩ => rfl
      | ⟨1, _⟩ => exact absurd rfl ha
      | ⟨2, _⟩ => rfl
      | ⟨3, _⟩ => rfl
      | ⟨4, _⟩ => rfl
    · show k - 16 + 16 = k
      omega
    rw [StableHlo.nary_result]
    interval_cases k
    all_goals
      refine (piece_apply _ _ b _ ch _ _ rfl _ rfl _ rfl).trans ?_
      read_fold
      exact tap_apply _ _ _ _ _ b ch _ _ _ _ rfl rfl

set_option maxHeartbeats 4000000 in
/-- The per-tap weights are the kernel argument reshaped to [2, 2, 192, 192, 25], its tap axis moved to position 1,
    and the group and output-channel axes merged. -/
private theorem e128 : (V m c main_v128 : S2x25x384x192.Idx → EReal)
    = truncf (F := Ideal) .bf16 (shapeCast S2x25x384x192 (transpose S2x25x2x192x192 [0, 4, 1, 2, 3]
        (shapeCast S2x2x192x192x25 (m ((c : Thread nD τ).loc main_arg2) : S2x2x192x4800x1.Idx → EReal) shapeCasts_S2x2x192x4800x1_S2x2x192x192x25)
        transposes_S2x2x192x192x25_S2x25x2x192x192_0_4_1_2_3) shapeCasts_S2x25x2x192x192_S2x25x384x192) bitsLt_bf16_f32 := by
  enter_fold
  after_results_simp
  rfl

/-- Operand 1: row `n = g·192 + o`, column `ch` of tap `s`'s weights is the per-image kernel at `(g, o, ch·25 + s)`. -/
theorem V128_apply (b : Fin 2) (s : Fin 25) (n : Fin 384) (ch : Fin 192) :
    (V m c main_v128 : S2x25x384x192.Idx → EReal) (ix4 b s n ch)
      = (m ((c : Thread nD τ).loc main_arg2) : S2x2x192x4800x1.Idx → EReal)
          (ix5 b (⟨n.val / 192, by omega⟩ : Fin 2) (⟨n.val % 192, by omega⟩ : Fin 192) (⟨ch.val * 25 + s.val, by omega⟩ : Fin 4800) (0 : Fin 1)) := by
  refine (congrFun (e128 m c) _).trans ?_
  -- the format change is the identity on extended reals
  refine (truncf_apply (φ := .f32) (ψ := .bf16) _ bitsLt_bf16_f32 _).trans ?_
  -- n = g·192 + o: (b, s, n, ch) and (b, s, n/192, n%192, ch) have the same row-major position
  refine (shapeCast_apply (s := S2x25x2x192x192) (t := S2x25x384x192) _ _ _
    (ix5 b s (⟨n.val / 192, by omega⟩ : Fin 2) (⟨n.val % 192, by omega⟩ : Fin 192) ch) ?_).trans ?_
  · rw [Shape.rowMajor_val_five, Shape.rowMajor_val_four]
    show ((((b.val * 25 + s.val) * 2 + n.val / 192) * 192 + n.val % 192) * 192 + ch.val) = ((b.val * 25 + s.val) * 384 + n.val) * 192 + ch.val
    omega
  -- the transpose moves the tap axis back to the last place
  refine (transpose_apply (s := S2x2x192x192x25) (t := S2x25x2x192x192) _ _ _ _
    (ix5 b (⟨n.val / 192, by omega⟩ : Fin 2) (⟨n.val % 192, by omega⟩ : Fin 192) ch s) ?_).trans ?_
  · intro a
    match a with
    | ⟨0, _⟩ => rfl
    | ⟨1, _⟩ => rfl
    | ⟨2, _⟩ => rfl
    | ⟨3, _⟩ => rfl
    | ⟨4, _⟩ => rfl
  -- the flat kernel column is ch·25 + s
  refine shapeCast_apply (s := S2x2x192x4800x1) (t := S2x2x192x192x25) _ _ _ _ ?_
  rw [Shape.rowMajor_val_five, Shape.rowMajor_val_five]
  show ((((b.val * 2 + n.val / 192) * 192 + n.val % 192) * 4800 + (ch.val * 25 + s.val)) * 1 + 0) = ((((b.val * 2 + n.val / 192) * 192 + n.val % 192) * 192 + ch.val) * 25 + s.val)
  omega

/-- The conversion of the strict comparison's bit to a number is the indicator of `A i < B i`. -/
private theorem ind_apply {s : Shape} (A B : FVec Ideal s .f32) (i : s.Idx) :
    (uitofp (F := Ideal) .bf16 (cmpf .olt A B) : FVec Ideal s .bf16) i = Cert.Spec.ind (A i) (B i) := rfl

/-- The offsets as the program spells them are the specification's `tg − ⌈max tg⌉ − 1`. -/
private theorem offs_eq (tg : IVec S2x2x48x48 32) : ((subf
      (subf (sitofp (F := Ideal) .f32 tg)
        (broadcastInDim S2x2x48x48 ![] bcast_S_S2x2x48x48
          (Host.ceil (Host.reduce FloatOps.maximumf (sitofp (F := Ideal) .f32 tg) (constant (F := Ideal) S_ .f32 0xFF800000#32) reducesTo_S2x2x48x48_S_d0_1_2_3 h_S_))))
      (broadcastInDim S2x2x48x48 ![] bcast_S_S2x2x48x48 (constant (F := Ideal) S_ .f32 0x3F800000#32))) : FVec Ideal S2x2x48x48 .f32) = Cert.Spec.offsets tg := rfl

/-- The padded offsets as the program spells them (the padding routine reads and writes its buffers at their own
    types, which are the values' types) are the specification's. -/
private theorem padT_cast (o : FVec Ideal S2x2x48x48 .f32) :
    ((StableHlo.TRef.of main_v63 : StableHlo.TRef sig ⟨S2x2x52x52, .f32⟩).toBuf (Val := Elt Ideal)
      (pad S2x2x52x52 ![0, 0, 2, 2] ![0, 0, 2, 2] ![0, 0, 0, 0]
        ((StableHlo.TRef.of main_v62 : StableHlo.TRef sig ⟨S2x2x48x48, .f32⟩).ofBuf (Val := Elt Ideal) o)
        ((StableHlo.TRef.of main_call1_v0 : StableHlo.TRef sig ⟨S_, .f32⟩).ofBuf (Val := Elt Ideal)
          ((StableHlo.TRef.of main_call1_v0 : StableHlo.TRef sig ⟨S_, .f32⟩).toBuf (Val := Elt Ideal)
            (sitofp (F := Ideal) .f32 ((StableHlo.TRef.of main_c_1 : StableHlo.TRef sig ⟨S_, .i32⟩).ofBuf (Val := Elt Ideal) (constantI S_ 32 0#32)))))
        pads_S2x2x48x48_S2x2x52x52_000_000_220_220 h_S_) : S2x2x52x52.Idx → EReal)
      = pad S2x2x52x52 ![0, 0, 2, 2] ![0, 0, 2, 2] ![0, 0, 0, 0] o (sitofp (F := Ideal) .f32 (constantI S_ 32 0#32))
          pads_S2x2x48x48_S2x2x52x52_000_000_220_220 h_S_ := rfl

/-- The specification's padded offsets are its offsets with two rows and two columns of zeros on every side. -/
private theorem padT_eq (tg : IVec S2x2x48x48 32) :
    (pad S2x2x52x52 ![0, 0, 2, 2] ![0, 0, 2, 2] ![0, 0, 0, 0] (Cert.Spec.offsets tg) (sitofp (F := Ideal) .f32 (constantI S_ 32 0#32))
      pads_S2x2x48x48_S2x2x52x52_000_000_220_220 h_S_ : FVec Ideal S2x2x52x52 .f32) = Cert.Spec.padT tg := rfl

set_option maxHeartbeats 8000000 in
/-- Operand 2: the mask of tap `s`, output group `go`, input group `gi` at pixel `l`: is the tap's (padded, shifted) offset
    strictly below the output pixel's offset in group `go`? -/
theorem V124_apply (b : Fin 2) (s : Fin 25) (go gi : Fin 2) (l : Fin 2304) :
    (V m c main_v124 : S2x25x2x2x2304.Idx → EReal) (ix5 b s go gi l)
      = Cert.Spec.ind
          (Cert.Spec.padT (m ((c : Thread nD τ).loc main_arg1))
            (ix4 b gi (⟨l.val / 48 + s.val / 5, by omega⟩ : Fin 52) (⟨l.val % 48 + s.val % 5, by omega⟩ : Fin 52)))
          (Cert.Spec.offsets (m ((c : Thread nD τ).loc main_arg1))
            (ix4 b go (⟨l.val / 48, by omega⟩ : Fin 48) (⟨l.val % 48, by omega⟩ : Fin 48))) := by
  -- spell the specification's padded offsets and offsets as the program does
  rw [← padT_eq, ← offs_eq, ← padT_cast]
  enter_fold
  read_fold
  refine (ind_apply _ _ _).trans ?_
  refine congrArg₂ Cert.Spec.ind ?_ ?_
  · -- the tap's offset: constant along the output group, then (b, s, gi, l) is (b, s, gi, l / 48, l % 48) of the stack
    refine (broadcastInDim_apply (s := S2x25x1x2x2304) (t := S2x25x2x2x2304) _ _ _ _ (ix5 b s (0 : Fin 1) gi l) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply (s := S2x25x2x2304) (t := S2x25x1x2x2304) _ _ _ _ (ix4 b s gi l) ?_).trans ?_
    · intro a
      match a with
      | ⟨0, _⟩ => rfl
      | ⟨1, _⟩ => rfl
      | ⟨2, _⟩ => rfl
      | ⟨3, _⟩ => rfl
    refine (shapeCast_apply (s := S2x25x2x48x48) (t := S2x25x2x2304) _ _ _
      (ix5 b s gi (⟨l.val / 48, by omega⟩ : Fin 48) (⟨l.val % 48, by omega⟩ : Fin 48)) ?_).trans ?_
    · rw [Shape.rowMajor_val_five, Shape.rowMajor_val_four]
      show ((((b.val * 25 + s.val) * 2 + gi.val) * 48 + l.val / 48) * 48 + l.val % 48) = ((b.val * 25 + s.val) * 2 + gi.val) * 2304 + l.val
      omega
    obtain ⟨k, hk⟩ := s
    by_cases hs : k < 16
    · -- taps 0 … 15 sit in the first block of the stack, at the same position
      refine (concatenate_pair_apply_left (s₁ := S2x16x2x48x48) (s₂ := S2x9x2x48x48) (1 : Fin S2x25x2x48x48.rank) _ _ _ _ rfl
        (ix5 b (⟨k, hs⟩ : Fin 16) gi (⟨l.val / 48, by omega⟩ : Fin 48) (⟨l.val % 48, by omega⟩ : Fin 48)) ?_).trans ?_
      · intro a
        match a with
        | ⟨0, _⟩ => rfl
        | ⟨1, _⟩ => rfl
        | ⟨2, _⟩ => rfl
        | ⟨3, _⟩ => rfl
        | ⟨4, _⟩ => rfl
      rw [StableHlo.nary_result_ne]; rotate_left; decide
      rw [StableHlo.nary_result]
      interval_cases k
      all_goals
        refine (piece_apply _ _ b _ gi _ _ rfl _ rfl _ rfl).trans ?_
        read_fold
        exact tap_apply _ _ _ _ _ b gi _ _ _ _ rfl rfl
    · -- taps 16 … 24 sit in the second block, sixteen places earlier
      refine (concatenate_pair_apply_right (s₁ := S2x16x2x48x48) (s₂ := S2x9x2x48x48) (1 : Fin S2x25x2x48x48.rank) _ _ _ _ rfl rfl
        (ix5 b (⟨k - 16, by omega⟩ : Fin 9) gi (⟨l.val / 48, by omega⟩ : Fin 48) (⟨l.val % 48, by omega⟩ : Fin 48)) ?_ ?_).trans ?_
      · intro a ha
        match a with
        | ⟨0, _⟩ => rfl
        | ⟨1, _⟩ => exact absurd rfl ha
        | ⟨2, _⟩ => rfl
        | ⟨3, _⟩ => rfl
        | ⟨4, _⟩ => rfl
      · show k - 16 + 16 = k
        omega
      rw [StableHlo.nary_result]
      interval_cases k
      all_goals
        refine (piece_apply _ _ b _ gi _ _ rfl _ rfl _ rfl).trans ?_
        read_fold
        exact tap_apply _ _ _ _ _ b gi _ _ _ _ rfl rfl

  · -- the output pixel's offset: constant along the taps and the input group, then (b, go, l) is (b, go, l / 48, l % 48)
    refine (broadcastInDim_apply (s := S2x1x2x1x2304) (t := S2x25x2x2x2304) _ _ _ _ (ix5 b (0 : Fin 1) go (0 : Fin 1) l) ?_).trans ?_
    · intro a
      match a with
      | ⟨0, _⟩ => rfl
      | ⟨1, _⟩ => rfl
      | ⟨2, _⟩ => rfl
      | ⟨3, _⟩ => rfl
      | ⟨4, _⟩ => rfl
    refine (broadcastInDim_apply (s := S2x2x2304) (t := S2x1x2x1x2304) _ _ _ _ (ix3 b go l) ?_).trans ?_
    · intro a
      match a with
      | ⟨0, _⟩ => rfl
      | ⟨1, _⟩ => rfl
      | ⟨2, _⟩ => rfl
    refine (shapeCast_apply (s := S2x2x48x48) (t := S2x2x2304) _ _ _
      (ix4 b go (⟨l.val / 48, by omega⟩ : Fin 48) (⟨l.val % 48, by omega⟩ : Fin 48)) ?_).trans ?_
    · rw [Shape.rowMajor_val_four, Shape.rowMajor_val_three]
      show (((b.val * 2 + go.val) * 48 + l.val / 48) * 48 + l.val % 48) = (b.val * 2 + go.val) * 2304 + l.val
      omega
    rfl

set_option maxHeartbeats 4000000 in
/-- The bias column is the bias argument reshaped from [2, 2, 192, 1] to [2, 384, 1]. -/
private theorem e129 : (V m c main_v129 : S2x384x1.Idx → EReal) = shapeCast S2x384x1 (m ((c : Thread nD τ).loc main_arg3) : S2x2x192x1.Idx → EReal) shapeCasts_S2x2x192x1_S2x384x1 := by
  enter_fold
  after_results_simp
  rfl

/-- Operand 3: the bias of output channel `n = g·192 + o`. -/
theorem V129_apply (b : Fin 2) (n : Fin 384) :
    (V m c main_v129 : S2x384x1.Idx → EReal) (ix3 b n (0 : Fin 1))
      = (m ((c : Thread nD τ).loc main_arg3) : S2x2x192x1.Idx → EReal)
          (ix4 b (⟨n.val / 192, by omega⟩ : Fin 2) (⟨n.val % 192, by omega⟩ : Fin 192) (0 : Fin 1)) := by
  refine (congrFun (e129 m c) _).trans ?_
  -- row-major position: ((b·2 + n/192)·192 + n%192)·1 + 0 = (b·384 + n)·1 + 0
  refine shapeCast_apply (s := S2x2x192x1) (t := S2x384x1) _ _ _ _ ?_
  rw [Shape.rowMajor_val_four, Shape.rowMajor_val_three]
  show ((b.val * 2 + n.val / 192) * 192 + n.val % 192) * 1 + 0 = (b.val * 384 + n.val) * 1 + 0
  omega

end Cert.KernelIdeal.HostValue

end
-- ==== Proof.KI.Bridge.lean ====
/-
  @main's result is the specification of the arguments.

  Entry `(b, n, h, w)` of the result is the output array at pixel `l = 48·h + w`; the operands at `(b, s, …, l)` are the
  padded image and offsets at `(l / 48 + s / 5, l % 48 + s % 5) = (h + s / 5, w + s % 5)`, the weights at `k·25 + s`, the
  centre at `(l / 48, l % 48) = (h, w)`: term by term the specification's double sum, and `0 + x = x`.
-/
import proofs.«146505_j13426067767599_2_alg».proof.Proof.KI.Result
import proofs.«146505_j13426067767599_2_alg».proof.Proof.KI.HostValue

set_option maxRecDepth 16384

noncomputable section

namespace Cert.KernelIdeal.Fr

open Idealize.ShloMosaic Idealize.ShloMosaic.TcCoe Idealize.ShloMosaic.ValueIdx
open Idealize.SL Idealize.SL.Sem
open Cert.KernelIdeal Cert.KernelIdeal.Gen Cert.KernelIdeal.HostValue

variable (m : (ℓ : Loc nD τ sig) → Buf (Elt Ideal) ℓ) (ρ : Dev nD → PrngReg)

/-- Pixel `l = 48·h + w` moved by tap `s`, in the padded arrays' coordinates. -/
theorem shift_idx {N : Nat} (b : Fin 2) (k : Fin N) (l : Fin 2304) (h v : Fin 48) (s : Fin 25)
    (hl1 : l.val / 48 = h.val) (hl2 : l.val % 48 = v.val) :
    (ix4 b k (⟨l.val / 48 + s.val / 5, by omega⟩ : Fin 52) (⟨l.val % 48 + s.val % 5, by omega⟩ : Fin 52))
      = ix4 b k (⟨h.val + s.val / 5, by omega⟩ : Fin 52) (⟨v.val + s.val % 5, by omega⟩ : Fin 52) := by
  have e1 : (⟨l.val / 48 + s.val / 5, by omega⟩ : Fin 52) = ⟨h.val + s.val / 5, by omega⟩ := Fin.ext (by show l.val / 48 + s.val / 5 = h.val + s.val / 5; omega)
  have e2 : (⟨l.val % 48 + s.val % 5, by omega⟩ : Fin 52) = ⟨v.val + s.val % 5, by omega⟩ := Fin.ext (by show l.val % 48 + s.val % 5 = v.val + s.val % 5; omega)
  rw [e1, e2]

/-- The pixel itself. -/
theorem centre_idx (b g : Fin 2) (l : Fin 2304) (h v : Fin 48) (hl1 : l.val / 48 = h.val) (hl2 : l.val % 48 = v.val) :
    (ix4 b g (⟨l.val / 48, by omega⟩ : Fin 48) (⟨l.val % 48, by omega⟩ : Fin 48)) = ix4 b g h v := by
  have e1 : (⟨l.val / 48, by omega⟩ : Fin 48) = h := Fin.ext hl1
  have e2 : (⟨l.val % 48, by omega⟩ : Fin 48) = v := Fin.ext hl2
  rw [e1, e2]

/-- One tap's contribution is the specification's inner sum. -/
theorem dotV_eq (c : Dev nD) (b : Fin 2) (s : Fin 25) (n : Fin 384) (l : Fin 2304) (h v : Fin 48)
    (hl1 : l.val / 48 = h.val) (hl2 : l.val % 48 = v.val) :
    dotV m c b s n l
      = ∑ k : Fin 192, Cert.Spec.term (Cert.Spec.padX (m ((c : Thread nD τ).loc main_arg0))) (Cert.Spec.padT (m ((c : Thread nD τ).loc main_arg1)))
          (Cert.Spec.offsets (m ((c : Thread nD τ).loc main_arg1))) (m ((c : Thread nD τ).loc main_arg2))
          b (⟨n.val / 192, by omega⟩ : Fin 2) (⟨n.val % 192, by omega⟩ : Fin 192) h v s k := by
  unfold dotV opW opX opM
  refine Finset.sum_congr rfl fun k _ => ?_
  rw [V128_apply, V55_apply, V124_apply]
  unfold Cert.Spec.term
  rw [shift_idx b k l h v s hl1 hl2, shift_idx b (⟨k.val / 96, by omega⟩ : Fin 2) l h v s hl1 hl2,
    centre_idx b (⟨n.val / 192, by omega⟩ : Fin 2) l h v hl1 hl2]

/-- @main's result is the specification of its arguments. -/
theorem resK_eq (c : Dev nD) :
    resK m c = Cert.Spec.G (Cert.Spec.padX (m ((c : Thread nD τ).loc main_arg0))) (Cert.Spec.padT (m ((c : Thread nD τ).loc main_arg1)))
      (Cert.Spec.offsets (m ((c : Thread nD τ).loc main_arg1))) (m ((c : Thread nD τ).loc main_arg2)) (m ((c : Thread nD τ).loc main_arg3)) := by
  funext j
  obtain ⟨b, n, h, v, rfl⟩ : ∃ (b : Fin 2) (n : Fin 384) (h v : Fin 48), j = ix4 b n h v := ⟨j 0, j 1, j 2, j 3, eq_ix4 j⟩
  have hh : h.val < 48 := h.isLt
  have hv : v.val < 48 := v.isLt
  show outK m c (ix3 b n (⟨h.val * 48 + v.val, by omega⟩ : Fin 2304)) = Cert.Spec.Gat _ _ _ _ _ b n h v
  unfold outK opD Cert.Spec.Gat
  rw [zero_add]
  refine congr (congrArg _ ?_) ?_
  · refine Finset.sum_congr rfl fun s _ => ?_
    exact dotV_eq m c b s n (⟨h.val * 48 + v.val, by omega⟩ : Fin 2304) h v (by show (h.val * 48 + v.val) / 48 = h.val; omega) (by show (h.val * 48 + v.val) % 48 = v.val; omega)
  · exact V129_apply m c b n

/-- The kernel program's run, read: its result is the specification of its arguments, which end as launched. -/
theorem run_G : θ_run defs (onTc (τ := τ) (main (F := Ideal))) ⟨m, fun _ => 0, ρ⟩ (fun r => ∀ c : Dev nD,
      r.2.mem ((c.tc : Thread nD τ).loc main_v131)
        = Cert.Spec.G (Cert.Spec.padX (m ((c.tc : Thread nD τ).loc main_arg0))) (Cert.Spec.padT (m ((c.tc : Thread nD τ).loc main_arg1)))
            (Cert.Spec.offsets (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (resK_eq m c), (h c).2⟩) (run_res m ρ)

end Cert.KernelIdeal.Fr

end
-- ==== Proof.RefValue.lean ====
/-
  The reference's result, index by index, is the specification `Cert.Spec.G` of the arguments.

  The reference unfolds the padded image into 4800 = 192 · 25 rows (row `i = c·25 + s` is channel `c` moved by tap `s`),
  builds the mask with the same row numbering, multiplies, and contracts the 4800 rows against the per-image kernel
  in one product. Splitting `i` into `(c, s)` and summing tap-major gives the specification's double sum.
-/
import proofs.«146505_j13426067767599_2_alg».proof.Proof.Padded
import proofs.«146505_j13426067767599_2_alg».proof.Proof.RefRead
import Idealize.ShloMosaic.Lib.ValueLayout

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen Cert.ReferenceIdeal.Read
open scoped BigOperators

/-! ## The 4800 rows, tap-major -/

/-- Summing over the 4800 rows `i = c·25 + s` is summing over the taps `s` and, within a tap, over the channels `c`:
    `i ↦ (i / 25, i % 25)` is a bijection onto the pairs, and a double sum may be taken in either order. -/
private theorem sum_rows {M : Type*} [AddCommMonoid M] (f : Fin 192 → Fin 25 → M) :
    ∑ i : Fin 4800, f ⟨i.val / 25, by omega⟩ ⟨i.val % 25, by omega⟩ = ∑ s : Fin 25, ∑ c : Fin 192, f c s := by
  rw [Finset.sum_comm, ← Fintype.sum_prod_type' (f := f)]
  exact Equiv.sum_comp (finProdFinEquiv (m := 192) (n := 25)).symm (fun p => f p.1 p.2)

/-! ## One tap of a padded array -/

section Taps
variable {α : Type} {n0 n1 : Nat}

/-- Tap `(p, q)` of a padded array, given a unit axis in position 2, reads at `(i₀, i₁, u, y, z)` the padded array at
    `(i₀, i₁, p + y, q + z)`: the slice shifts the two pixel coordinates, the broadcast forgets the unit coordinate. -/
private theorem tap_apply (xp : (⟨4, ![n0, n1, 52, 52]⟩ : Shape).Idx → α) (p q : Nat)
    (hs : (⟨4, ![n0, n1, 52, 52]⟩ : Shape).Slices ![0, 0, p, q] ⟨4, ![n0, n1, 48, 48]⟩)
    (hb : (⟨4, ![n0, n1, 48, 48]⟩ : Shape).BroadcastsInDim ⟨5, ![n0, n1, 1, 48, 48]⟩ ![0, 1, 3, 4])
    (i0 : Fin n0) (i1 : Fin n1) (u : Fin 1) (y z : Fin 48) :
    broadcastInDim ⟨5, ![n0, n1, 1, 48, 48]⟩ ![0, 1, 3, 4] hb
        (extractStridedSlice ⟨4, ![n0, n1, 48, 48]⟩ ![0, 0, p, q] xp hs) (ix5 i0 i1 u y z)
      = xp (ix4 i0 i1 ⟨p + y.val, Nat.lt_of_lt_of_le (Nat.add_lt_add_left y.isLt p) (hs.2 2)⟩
          ⟨q + z.val, Nat.lt_of_lt_of_le (Nat.add_lt_add_left z.isLt q) (hs.2 3)⟩) := by
  refine (broadcastInDim_apply _ hb _ (ix5 i0 i1 u y z) (ix4 i0 i1 y z) fun a => ?_).trans
    (extractStridedSlice_apply _ xp hs (ix4 i0 i1 y z) _ fun a => ?_)
  · match a with
    | ⟨0, _⟩ => show i0.val = if n0 = 1 then 0 else i0.val; split <;> omega
    | ⟨1, _⟩ => show i1.val = if n1 = 1 then 0 else i1.val; split <;> omega
    | ⟨2, _⟩ => show y.val = if (48 : Nat) = 1 then 0 else y.val; rw [if_neg (by decide)]
    | ⟨3, _⟩ => show z.val = if (48 : Nat) = 1 then 0 else z.val; rw [if_neg (by decide)]
  · match a with
    | ⟨0, _⟩ => show i0.val = 0 + i0.val; omega
    | ⟨1, _⟩ => show i1.val = 0 + i1.val; omega
    | ⟨2, _⟩ => rfl
    | ⟨3, _⟩ => rfl

/-- Every tap `s = 5·p + q` below 25 fits in the padded array: `p, q ≤ 4` and `4 + 48 = 52`. -/
private theorem slices_tap (n0 n1 s : Nat) (h : s < 25) :
    (⟨4, ![n0, n1, 52, 52]⟩ : Shape).Slices ![0, 0, s / 5, s % 5] ⟨4, ![n0, n1, 48, 48]⟩ :=
  ⟨rfl, fun a => match a with
    | ⟨0, _⟩ => by show 0 + n0 ≤ n0; omega
    | ⟨1, _⟩ => by show 0 + n1 ≤ n1; omega
    | ⟨2, _⟩ => by show s / 5 + 48 ≤ 52; omega
    | ⟨3, _⟩ => by show s % 5 + 48 ≤ 52; omega⟩

/-- Tap `s` of a padded array with its unit axis, as the program builds it: the slice at offsets `(s / 5, s % 5)`, then
    the broadcast that inserts the unit axis. -/
private def tapOf (xp : (⟨4, ![n0, n1, 52, 52]⟩ : Shape).Idx → α)
    (hb : (⟨4, ![n0, n1, 48, 48]⟩ : Shape).BroadcastsInDim ⟨5, ![n0, n1, 1, 48, 48]⟩ ![0, 1, 3, 4]) (s : Nat) (h : s < 25) :
    (⟨5, ![n0, n1, 1, 48, 48]⟩ : Shape).Idx → α :=
  broadcastInDim ⟨5, ![n0, n1, 1, 48, 48]⟩ ![0, 1, 3, 4] hb
    (extractStridedSlice ⟨4, ![n0, n1, 48, 48]⟩ ![0, 0, s / 5, s % 5] xp (slices_tap n0 n1 s h))

/-- THE STACK OF THE 25 TAPS. The program stacks taps 0 to 15 and taps 16 to 24 along the unit axis and joins the two
    stacks; entry `s` of the joined stack is tap `s`: at `(b, c, s, y, z)` it reads the padded array at
    `(b, c, y + s / 5, z + s % 5)`. -/
private theorem stack_apply (xp : (⟨4, ![n0, n1, 52, 52]⟩ : Shape).Idx → α)
    (hb : (⟨4, ![n0, n1, 48, 48]⟩ : Shape).BroadcastsInDim ⟨5, ![n0, n1, 1, 48, 48]⟩ ![0, 1, 3, 4])
    (h16 : Shape.Concatenates ((List.ofFn fun n : Fin 16 =>
        (⟨⟨5, ![n0, n1, 1, 48, 48]⟩, tapOf xp hb n.val (by omega)⟩ : (s : Shape) × (s.Idx → α))).map (·.1)) ⟨5, ![n0, n1, 16, 48, 48]⟩ 2)
    (h9 : Shape.Concatenates ((List.ofFn fun n : Fin 9 =>
        (⟨⟨5, ![n0, n1, 1, 48, 48]⟩, tapOf xp hb (n.val + 16) (by omega)⟩ : (s : Shape) × (s.Idx → α))).map (·.1)) ⟨5, ![n0, n1, 9, 48, 48]⟩ 2)
    (h25 : Shape.Concatenates [⟨5, ![n0, n1, 16, 48, 48]⟩, ⟨5, ![n0, n1, 9, 48, 48]⟩] ⟨5, ![n0, n1, 25, 48, 48]⟩ 2)
    (b : Fin n0) (c : Fin n1) (s : Fin 25) (y z : Fin 48) :
    concatenate ⟨5, ![n0, n1, 25, 48, 48]⟩ 2
        [⟨⟨5, ![n0, n1, 16, 48, 48]⟩, concatenate ⟨5, ![n0, n1, 16, 48, 48]⟩ 2 (List.ofFn fun n : Fin 16 =>
            (⟨⟨5, ![n0, n1, 1, 48, 48]⟩, tapOf xp hb n.val (by omega)⟩ : (s : Shape) × (s.Idx → α))) h16⟩,
         ⟨⟨5, ![n0, n1, 9, 48, 48]⟩, concatenate ⟨5, ![n0, n1, 9, 48, 48]⟩ 2 (List.ofFn fun n : Fin 9 =>
            (⟨⟨5, ![n0, n1, 1, 48, 48]⟩, tapOf xp hb (n.val + 16) (by omega)⟩ : (s : Shape) × (s.Idx → α))) h9⟩] h25 (ix5 b c s y z)
      = xp (ix4 b c (⟨y.val + s.val / 5, by omega⟩ : Fin 52) (⟨z.val + s.val % 5, by omega⟩ : Fin 52)) := by
  by_cases hs : s.val < 16
  · -- taps 0 to 15 are in the first stack, at their own position
    refine (concatenate_pair_apply_left _ _ _ h25 (ix5 b c s y z) rfl (ix5 b c (⟨s.val, hs⟩ : Fin 16) y z)
      fun a => match a with | ⟨0, _⟩ => rfl | ⟨1, _⟩ => rfl | ⟨2, _⟩ => rfl | ⟨3, _⟩ => rfl | ⟨4, _⟩ => rfl).trans ?_
    refine (concatenate_ofFn_unit_apply _ _ h16 rfl rfl (ix5 b c (⟨s.val, hs⟩ : Fin 16) y z) ⟨s.val, hs⟩ rfl
      (ix5 b c (0 : Fin 1) y z) fun a ha => match a, ha with
        | ⟨0, _⟩, _ => rfl | ⟨1, _⟩, _ => rfl | ⟨2, _⟩, ha => absurd rfl ha | ⟨3, _⟩, _ => rfl | ⟨4, _⟩, _ => rfl).trans ?_
    refine (tap_apply xp _ _ _ hb b c 0 y z).trans (congrArg xp ?_)
    funext a
    match a with
    | ⟨0, _⟩ => rfl
    | ⟨1, _⟩ => rfl
    | ⟨2, _⟩ => exact Fin.ext (by show s.val / 5 + y.val = y.val + s.val / 5; omega)
    | ⟨3, _⟩ => exact Fin.ext (by show s.val % 5 + z.val = z.val + s.val % 5; omega)
  · -- taps 16 to 24 are in the second stack, sixteen places down
    have hs' : s.val - 16 < 9 := by omega
    refine (concatenate_pair_apply_right _ _ _ h25 (ix5 b c s y z) rfl rfl (ix5 b c (⟨s.val - 16, hs'⟩ : Fin 9) y z)
      (fun a ha => match a, ha with
        | ⟨0, _⟩, _ => rfl | ⟨1, _⟩, _ => rfl | ⟨2, _⟩, ha => absurd rfl ha | ⟨3, _⟩, _ => rfl | ⟨4, _⟩, _ => rfl)
      (by show s.val - 16 + 16 = s.val; omega)).trans ?_
    refine (concatenate_ofFn_unit_apply _ _ h9 rfl rfl (ix5 b c (⟨s.val - 16, hs'⟩ : Fin 9) y z) ⟨s.val - 16, hs'⟩ rfl
      (ix5 b c (0 : Fin 1) y z) fun a ha => match a, ha with
        | ⟨0, _⟩, _ => rfl | ⟨1, _⟩, _ => rfl | ⟨2, _⟩, ha => absurd rfl ha | ⟨3, _⟩, _ => rfl | ⟨4, _⟩, _ => rfl).trans ?_
    refine (tap_apply xp _ _ _ hb b c 0 y z).trans (congrArg xp ?_)
    funext a
    match a with
    | ⟨0, _⟩ => rfl
    | ⟨1, _⟩ => rfl
    | ⟨2, _⟩ => exact Fin.ext (by show (s.val - 16 + 16) / 5 + y.val = y.val + s.val / 5; omega)
    | ⟨3, _⟩ => exact Fin.ext (by show (s.val - 16 + 16) % 5 + z.val = z.val + s.val % 5; omega)

end Taps

/-! ## The two reshapes through rank 6 -/

section Reshapes
variable {α : Type}

/-- `[2, 2, 2, 96, 25, 2304]` viewed as `[2, 2, 4800, 2304]`: row `k` of the 4800 is `(k / 2400, k / 25 % 96, k % 25)`, since
    `k = (γ · 96 + ρ) · 25 + s`. -/
private theorem reshape_rows_apply (y : (⟨6, ![2, 2, 2, 96, 25, 2304]⟩ : Shape).Idx → α)
    (h : (⟨6, ![2, 2, 2, 96, 25, 2304]⟩ : Shape).ShapeCasts ⟨4, ![2, 2, 4800, 2304]⟩)
    (b g : Fin 2) (k : Fin 4800) (l : Fin 2304) :
    shapeCast ⟨4, ![2, 2, 4800, 2304]⟩ y h (ix4 b g k l)
      = y (ix6 b g (⟨k.val / 2400, by omega⟩ : Fin 2) (⟨k.val / 25 % 96, by omega⟩ : Fin 96) (⟨k.val % 25, by omega⟩ : Fin 25) l) :=
  shapeCast_apply y h _ _ (by
    rw [Shape.rowMajor_val_six, Shape.rowMajor_val_four]
    show ((((b.val * 2 + g.val) * 2 + k.val / 2400) * 96 + k.val / 25 % 96) * 25 + k.val % 25) * 2304 + l.val
      = ((b.val * 2 + g.val) * 4800 + k.val) * 2304 + l.val
    omega)

/-- `[2, 2, 50, 2304]` viewed as `[2, 2, 2, 1, 25, 2304]`: entry `(γ, 0, s)` is row `γ · 25 + s` of the 50. -/
private theorem reshape_groups_apply (y : (⟨4, ![2, 2, 50, 2304]⟩ : Shape).Idx → α)
    (h : (⟨4, ![2, 2, 50, 2304]⟩ : Shape).ShapeCasts ⟨6, ![2, 2, 2, 1, 25, 2304]⟩)
    (b g γ : Fin 2) (u : Fin 1) (s : Fin 25) (l : Fin 2304) :
    shapeCast ⟨6, ![2, 2, 2, 1, 25, 2304]⟩ y h (ix6 b g γ u s l)
      = y (ix4 b g (⟨γ.val * 25 + s.val, by omega⟩ : Fin 50) l) :=
  shapeCast_apply y h _ _ (by
    rw [Shape.rowMajor_val_six, Shape.rowMajor_val_four]
    show ((b.val * 2 + g.val) * 50 + (γ.val * 25 + s.val)) * 2304 + l.val
      = ((((b.val * 2 + g.val) * 2 + γ.val) * 1 + u.val) * 25 + s.val) * 2304 + l.val
    omega)

end Reshapes

/-! ## The reference's stages at an index -/

/-- The stacked image: entry `(b, c, s, y, z)` is the padded image at `(b, c, y + s / 5, z + s % 5)`. -/
private theorem v53_apply (x0 : (⟨S2x192x48x48, .f32⟩ : BufTy).Contents (Elt Ideal)) (b : Fin 2) (c : Fin 192) (s : Fin 25) (y z : Fin 48) :
    val_main_v53 (F := Ideal) x0 (ix5 b c s y z)
      = val_main_v0 (F := Ideal) x0 (ix4 b c (⟨y.val + s.val / 5, by omega⟩ : Fin 52) (⟨z.val + s.val % 5, by omega⟩ : Fin 52)) := by
  unfold val_main_v53 val_main_v51 val_main_v52
  exact stack_apply (val_main_v0 (F := Ideal) x0) bcast_S2x192x48x48_S2x192x1x48x48_0_1_3_4 _ _ _ b c s y z

/-- The stacked offsets: entry `(b, γ, s, y, z)` is the padded offsets at `(b, γ, y + s / 5, z + s % 5)`. -/
private theorem v117_apply (x1 : (⟨S2x2x48x48, .i32⟩ : BufTy).Contents (Elt Ideal)) (b γ : Fin 2) (s : Fin 25) (y z : Fin 48) :
    val_main_v117 (F := Ideal) x1 (ix5 b γ s y z)
      = val_main_v64 (F := Ideal) x1 (ix4 b γ (⟨y.val + s.val / 5, by omega⟩ : Fin 52) (⟨z.val + s.val % 5, by omega⟩ : Fin 52)) := by
  unfold val_main_v117 val_main_v115 val_main_v116
  exact stack_apply (val_main_v64 (F := Ideal) x1) bcast_S2x2x48x48_S2x2x1x48x48_0_1_3_4 _ _ _ b γ s y z

/-- The unfolded image at row `k` and pixel `48·h + w`: channel `k / 25` of the padded image, moved by tap `k % 25`. -/
private theorem img_apply (x0 : (⟨S2x192x48x48, .f32⟩ : BufTy).Contents (Elt Ideal)) (b g : Fin 2) (k : Fin 4800) (h w : Fin 48) :
    val_main_v127 (F := Ideal) x0 (ix4 b g k (⟨h.val * 48 + w.val, by omega⟩ : Fin 2304))
      = val_main_v0 (F := Ideal) x0 (ix4 b (⟨k.val / 25, by omega⟩ : Fin 192)
          (⟨h.val + k.val % 25 / 5, by omega⟩ : Fin 52) (⟨w.val + k.val % 25 % 5, by omega⟩ : Fin 52)) := by
  rw [val_main_v127_apply, val_main_v55_apply, val_main_v54_apply]
  refine (congrArg (val_main_v53 (F := Ideal) x0)
    (?_ : _ = ix5 b (⟨k.val / 25, by omega⟩ : Fin 192) (⟨k.val % 25, by omega⟩ : Fin 25) h w)).trans (v53_apply x0 _ _ _ _ _)
  funext a
  match a with
  | ⟨0, _⟩ => exact Fin.ext (by show ((b.val * 4800 + k.val) * 2304 + (h.val * 48 + w.val)) / 11059200 = b.val; omega)
  | ⟨1, _⟩ => exact Fin.ext (by show ((b.val * 4800 + k.val) * 2304 + (h.val * 48 + w.val)) / 57600 % 192 = k.val / 25; omega)
  | ⟨2, _⟩ => exact Fin.ext (by show ((b.val * 4800 + k.val) * 2304 + (h.val * 48 + w.val)) / 2304 % 25 = k.val % 25; omega)
  | ⟨3, _⟩ => exact Fin.ext (by show ((b.val * 4800 + k.val) * 2304 + (h.val * 48 + w.val)) / 48 % 48 = h.val; omega)
  | ⟨4, _⟩ => exact Fin.ext (by show ((b.val * 4800 + k.val) * 2304 + (h.val * 48 + w.val)) % 48 = w.val; omega)

/-- The unfolded offsets at row `q` of the 50 and pixel `48·h + w`: input group `q / 25` of the padded offsets, moved by
    tap `q % 25`. -/
private theorem off_apply (x1 : (⟨S2x2x48x48, .i32⟩ : BufTy).Contents (Elt Ideal)) (b g : Fin 2) (q : Fin 50) (h w : Fin 48) :
    val_main_v120 (F := Ideal) x1 (ix4 b g q (⟨h.val * 48 + w.val, by omega⟩ : Fin 2304))
      = val_main_v64 (F := Ideal) x1 (ix4 b (⟨q.val / 25, by omega⟩ : Fin 2)
          (⟨h.val + q.val % 25 / 5, by omega⟩ : Fin 52) (⟨w.val + q.val % 25 % 5, by omega⟩ : Fin 52)) := by
  rw [val_main_v120_apply, val_main_v119_apply, val_main_v118_apply]
  refine (congrArg (val_main_v117 (F := Ideal) x1)
    (?_ : _ = ix5 b (⟨q.val / 25, by omega⟩ : Fin 2) (⟨q.val % 25, by omega⟩ : Fin 25) h w)).trans (v117_apply x1 _ _ _ _ _)
  funext a
  match a with
  | ⟨0, _⟩ => exact Fin.ext (by show ((b.val * 50 + q.val) * 2304 + (h.val * 48 + w.val)) / 115200 = b.val; omega)
  | ⟨1, _⟩ => exact Fin.ext (by show ((b.val * 50 + q.val) * 2304 + (h.val * 48 + w.val)) / 57600 % 2 = q.val / 25; omega)
  | ⟨2, _⟩ => exact Fin.ext (by show ((b.val * 50 + q.val) * 2304 + (h.val * 48 + w.val)) / 2304 % 25 = q.val % 25; omega)
  | ⟨3, _⟩ => exact Fin.ext (by show ((b.val * 50 + q.val) * 2304 + (h.val * 48 + w.val)) / 48 % 48 = h.val; omega)
  | ⟨4, _⟩ => exact Fin.ext (by show ((b.val * 50 + q.val) * 2304 + (h.val * 48 + w.val)) % 48 = w.val; omega)

/-- The centre the mask compares against, at any row and pixel `48·h + w`: output group `g`'s offset at `(h, w)`. -/
private theorem ctr_apply (x1 : (⟨S2x2x48x48, .i32⟩ : BufTy).Contents (Elt Ideal)) (b g : Fin 2) (q : Fin 50) (h w : Fin 48) :
    val_main_v121 (F := Ideal) x1 (ix4 b g q (⟨h.val * 48 + w.val, by omega⟩ : Fin 2304)) = val_main_v62 (F := Ideal) x1 (ix4 b g h w) := by
  rw [val_main_v121_apply, val_main_v63_apply]
  refine congrArg (val_main_v62 (F := Ideal) x1) ?_
  funext a
  match a with
  | ⟨0, _⟩ => exact Fin.ext (by show (((b.val * 2 + g.val) * 1 + 0) * 2304 + (h.val * 48 + w.val)) / 4608 = b.val; omega)
  | ⟨1, _⟩ => exact Fin.ext (by show (((b.val * 2 + g.val) * 1 + 0) * 2304 + (h.val * 48 + w.val)) / 2304 % 2 = g.val; omega)
  | ⟨2, _⟩ => exact Fin.ext (by show (((b.val * 2 + g.val) * 1 + 0) * 2304 + (h.val * 48 + w.val)) / 48 % 48 = h.val; omega)
  | ⟨3, _⟩ => exact Fin.ext (by show (((b.val * 2 + g.val) * 1 + 0) * 2304 + (h.val * 48 + w.val)) % 48 = w.val; omega)

/-- The mask's bit at row `k` and pixel `l`: row `k = (γ·96 + ρ)·25 + s` repeats, over the 96 channels `ρ` of input group `γ`,
    the comparison at row `γ·25 + s` of the 50. -/
private theorem bit_apply (x1 : (⟨S2x2x48x48, .i32⟩ : BufTy).Contents (Elt Ideal)) (b g : Fin 2) (k : Fin 4800) (l : Fin 2304) :
    val_main_v125 (F := Ideal) x1 (ix4 b g k l)
      = val_main_v122 (F := Ideal) x1 (ix4 b g (⟨k.val / 2400 * 25 + k.val % 25, by omega⟩ : Fin 50) l) := by
  unfold val_main_v125
  rw [reshape_rows_apply, val_main_v124_apply]
  refine (congrArg (val_main_v123 (F := Ideal) x1)
    (?_ : _ = ix6 b g (⟨k.val / 2400, by omega⟩ : Fin 2) (0 : Fin 1) (⟨k.val % 25, by omega⟩ : Fin 25) l)).trans ?_
  · funext a
    match a with
    | ⟨0, _⟩ => rfl
    | ⟨1, _⟩ => rfl
    | ⟨2, _⟩ => rfl
    | ⟨3, _⟩ => rfl
    | ⟨4, _⟩ => rfl
    | ⟨5, _⟩ => rfl
  · unfold val_main_v123
    exact reshape_groups_apply _ _ b g _ _ _ l

/-- The mask as a number, at row `k` and pixel `48·h + w`: 1 when the padded offset of input group `k / 25 / 96` at the
    tap's source pixel is strictly below output group `g`'s offset at `(h, w)`, else 0. -/
private theorem mask_apply (x1 : (⟨S2x2x48x48, .i32⟩ : BufTy).Contents (Elt Ideal)) (b g : Fin 2) (k : Fin 4800) (h w : Fin 48) :
    val_main_v126 (F := Ideal) x1 (ix4 b g k (⟨h.val * 48 + w.val, by omega⟩ : Fin 2304))
      = Cert.Spec.ind (val_main_v64 (F := Ideal) x1 (ix4 b (⟨k.val / 25 / 96, by omega⟩ : Fin 2)
            (⟨h.val + k.val % 25 / 5, by omega⟩ : Fin 52) (⟨w.val + k.val % 25 % 5, by omega⟩ : Fin 52)))
          (val_main_v62 (F := Ideal) x1 (ix4 b g h w)) := by
  rw [val_main_v126_apply, bit_apply, val_main_v122_apply, off_apply, ctr_apply]
  refine congrArg (fun i => Cert.Spec.ind (val_main_v64 (F := Ideal) x1 i) (val_main_v62 (F := Ideal) x1 (ix4 b g h w))) ?_
  funext a
  match a with
  | ⟨0, _⟩ => rfl
  | ⟨1, _⟩ => exact Fin.ext (by show (k.val / 2400 * 25 + k.val % 25) / 25 = k.val / 25 / 96; omega)
  | ⟨2, _⟩ => exact Fin.ext (by show h.val + (k.val / 2400 * 25 + k.val % 25) % 25 / 5 = h.val + k.val % 25 / 5; omega)
  | ⟨3, _⟩ => exact Fin.ext (by show w.val + (k.val / 2400 * 25 + k.val % 25) % 25 % 5 = w.val + k.val % 25 % 5; omega)

/-! ## The three host arrays are the reference's own first stages -/

/-- The padded image is the reference's first stage. -/
private theorem padX_eq (x0 : (⟨S2x192x48x48, .f32⟩ : BufTy).Contents (Elt Ideal)) : Cert.Spec.padX x0 = val_main_v0 (F := Ideal) x0 := rfl

/-- The offsets are the reference's stage 62. -/
private theorem offsets_eq (x1 : (⟨S2x2x48x48, .i32⟩ : BufTy).Contents (Elt Ideal)) : Cert.Spec.offsets x1 = val_main_v62 (F := Ideal) x1 := rfl

/-- The padded offsets are the reference's stage 64. -/
private theorem padT_eq (x1 : (⟨S2x2x48x48, .i32⟩ : BufTy).Contents (Elt Ideal)) : Cert.Spec.padT x1 = val_main_v64 (F := Ideal) x1 := rfl

/-- The per-image kernel as a matrix: entry `(b, g, o, k)` is the argument's `(b, g, o, k, 0)`. -/
private theorem wgt_apply (x2 : (⟨S2x2x192x4800x1, .f32⟩ : BufTy).Contents (Elt Ideal)) (b g : Fin 2) (o : Fin 192) (k : Fin 4800) :
    val_main_v129 (F := Ideal) x2 (ix4 b g o k) = x2 (ix5 b g o k (0 : Fin 1)) := by
  rw [val_main_v129_apply]
  refine congrArg x2 ?_
  funext a
  match a with
  | ⟨0, _⟩ => exact Fin.ext (by show (((b.val * 2 + g.val) * 192 + o.val) * 4800 + k.val) / 1843200 = b.val; omega)
  | ⟨1, _⟩ => exact Fin.ext (by show (((b.val * 2 + g.val) * 192 + o.val) * 4800 + k.val) / 921600 % 2 = g.val; omega)
  | ⟨2, _⟩ => exact Fin.ext (by show (((b.val * 2 + g.val) * 192 + o.val) * 4800 + k.val) / 4800 % 192 = o.val; omega)
  | ⟨3, _⟩ => exact Fin.ext (by show (((b.val * 2 + g.val) * 192 + o.val) * 4800 + k.val) / 1 % 4800 = k.val; omega)
  | ⟨4, _⟩ => rfl

/-- The product of the kernel with the masked unfolded image, at `(b, g, o)` and pixel `l`: the sum over the 4800 rows. -/
private theorem dot_apply (x0 : (⟨S2x192x48x48, .f32⟩ : BufTy).Contents (Elt Ideal)) (x1 : (⟨S2x2x48x48, .i32⟩ : BufTy).Contents (Elt Ideal)) (x2 : (⟨S2x2x192x4800x1, .f32⟩ : BufTy).Contents (Elt Ideal)) (b g : Fin 2) (o : Fin 192) (l : Fin 2304) :
    val_main_v130 (F := Ideal) x0 x1 x2 (ix4 b g o l)
      = ∑ k : Fin 4800, x2 (ix5 b g o k (0 : Fin 1))
          * (val_main_v127 (F := Ideal) x0 (ix4 b g k l) * val_main_v126 (F := Ideal) x1 (ix4 b g k l)) := by
  rw [val_main_v130_apply]
  refine Finset.sum_congr rfl fun k _ => ?_
  have el : lidx_main_v130 (ix4 b g o l) k = ix4 b g o k := by
    funext a
    match a with
    | ⟨0, _⟩ => rfl
    | ⟨1, _⟩ => rfl
    | ⟨2, _⟩ => rfl
    | ⟨3, _⟩ => rfl
  have er : ridx_main_v130 (ix4 b g o l) k = ix4 b g k l := by
    funext a
    match a with
    | ⟨0, _⟩ => rfl
    | ⟨1, _⟩ => rfl
    | ⟨2, _⟩ => rfl
    | ⟨3, _⟩ => rfl
  rw [el, er, wgt_apply]
  exact congrArg (x2 (ix5 b g o k (0 : Fin 1)) * ·)
    (mulf_apply (val_main_v127 (F := Ideal) x0) (val_main_v126 (F := Ideal) x1) (ix4 b g k l))

/-- The bias, the same at every pixel. -/
private theorem bias_apply (x3 : (⟨S2x2x192x1, .f32⟩ : BufTy).Contents (Elt Ideal)) (b g : Fin 2) (o : Fin 192) (l : Fin 2304) :
    val_main_v131 (F := Ideal) x3 (ix4 b g o l) = x3 (ix4 b g o (0 : Fin 1)) := by
  rw [val_main_v131_apply]
  refine congrArg x3 ?_
  funext a
  match a with
  | ⟨0, _⟩ => rfl
  | ⟨1, _⟩ => rfl
  | ⟨2, _⟩ => rfl
  | ⟨3, _⟩ => rfl

/-- One row of the product is one term of the specification: row `k` is channel `k / 25` under tap `k % 25`, and
    `k = (k / 25)·25 + k % 25`. -/
private theorem row_eq (x0 : (⟨S2x192x48x48, .f32⟩ : BufTy).Contents (Elt Ideal)) (x1 : (⟨S2x2x48x48, .i32⟩ : BufTy).Contents (Elt Ideal)) (x2 : (⟨S2x2x192x4800x1, .f32⟩ : BufTy).Contents (Elt Ideal)) (b g : Fin 2) (o : Fin 192) (h w : Fin 48) (k : Fin 4800) :
    x2 (ix5 b g o k (0 : Fin 1))
        * (val_main_v127 (F := Ideal) x0 (ix4 b g k (⟨h.val * 48 + w.val, by omega⟩ : Fin 2304)) * val_main_v126 (F := Ideal) x1 (ix4 b g k (⟨h.val * 48 + w.val, by omega⟩ : Fin 2304)))
      = Cert.Spec.term (val_main_v0 (F := Ideal) x0) (val_main_v64 (F := Ideal) x1) (val_main_v62 (F := Ideal) x1) x2 b g o h w
          (⟨k.val % 25, by omega⟩ : Fin 25) (⟨k.val / 25, by omega⟩ : Fin 192) := by
  rw [img_apply, mask_apply]
  generalize val_main_v0 (F := Ideal) x0 = xp
  generalize val_main_v64 (F := Ideal) x1 = tp
  generalize val_main_v62 (F := Ideal) x1 = ctr
  unfold Cert.Spec.term
  refine congrArg₂ (· * ·) (congrArg x2 ?_) rfl
  funext a
  match a with
  | ⟨0, _⟩ => rfl
  | ⟨1, _⟩ => rfl
  | ⟨2, _⟩ => rfl
  | ⟨3, _⟩ => exact Fin.ext (by show k.val = k.val / 25 * 25 + k.val % 25; omega)
  | ⟨4, _⟩ => rfl

/-- The specification at an index written by its coordinates. -/
private theorem G_apply (xp : Cert.Spec.SXP.Idx → EReal) (tp : Cert.Spec.STP.Idx → EReal) (ctr : Cert.Spec.ST.Idx → EReal)
    (wt : Cert.Spec.SW.Idx → EReal) (d : Cert.Spec.SB.Idx → EReal) (b : Fin 2) (n : Fin 384) (h v : Fin 48) :
    Cert.Spec.G xp tp ctr wt d (ix4 b n h v) = Cert.Spec.Gat xp tp ctr wt d b n h v := rfl

/-- THE REFERENCE IS THE SPECIFICATION. At output `(b, n, h, w)`, with `g = n / 192` and `o = n % 192`, the reference's last
    stage is the sum over the 4800 rows `k` of  kernel[k] · ( padded image[k / 25, tap k % 25] · mask[k / 25 / 96, tap k % 25] )
    plus the bias; read tap-major (`sum_rows`) that is the specification's double sum. The three host arrays are the
    reference's own first stages. -/
theorem result_eq (x0 : (⟨S2x192x48x48, .f32⟩ : BufTy).Contents (Elt Ideal)) (x1 : (⟨S2x2x48x48, .i32⟩ : BufTy).Contents (Elt Ideal)) (x2 : (⟨S2x2x192x4800x1, .f32⟩ : BufTy).Contents (Elt Ideal)) (x3 : (⟨S2x2x192x1, .f32⟩ : BufTy).Contents (Elt Ideal)) :
    Cert.ReferenceIdeal.Read.val_main_v133 (F := Ideal) x0 x1 x2 x3
      = Cert.Spec.G (Cert.Spec.padX x0) (Cert.Spec.padT x1) (Cert.Spec.offsets x1) x2 x3 := by
  rw [padX_eq, padT_eq, offsets_eq]
  funext j
  obtain ⟨b, n, h, w, rfl⟩ : ∃ (b : Fin 2) (n : Fin 384) (h w : Fin 48), j = ix4 b n h w := ⟨_, _, _, _, eq_ix4 j⟩
  have hg : n.val / 192 < 2 := by omega
  have ho : n.val % 192 < 192 := by omega
  -- output channel `n` is channel `n % 192` of group `n / 192`; pixel `(h, w)` is position `48·h + w`
  have ej : idx_main_v133 (ix4 b n h w) = ix4 b (⟨n.val / 192, hg⟩ : Fin 2) (⟨n.val % 192, ho⟩ : Fin 192) (⟨h.val * 48 + w.val, by omega⟩ : Fin 2304) := by
    funext a
    match a with
    | ⟨0, _⟩ => exact Fin.ext (by show (((b.val * 384 + n.val) * 48 + h.val) * 48 + w.val) / 884736 = b.val; omega)
    | ⟨1, _⟩ => exact Fin.ext (by show (((b.val * 384 + n.val) * 48 + h.val) * 48 + w.val) / 442368 % 2 = n.val / 192; omega)
    | ⟨2, _⟩ => exact Fin.ext (by show (((b.val * 384 + n.val) * 48 + h.val) * 48 + w.val) / 2304 % 192 = n.val % 192; omega)
    | ⟨3, _⟩ => exact Fin.ext (by show (((b.val * 384 + n.val) * 48 + h.val) * 48 + w.val) % 2304 = h.val * 48 + w.val; omega)
  -- the 4800 products, row by row, then tap-major
  have hS : (∑ k : Fin 4800, x2 (ix5 b (⟨n.val / 192, hg⟩ : Fin 2) (⟨n.val % 192, ho⟩ : Fin 192) k (0 : Fin 1))
        * (val_main_v127 (F := Ideal) x0 (ix4 b (⟨n.val / 192, hg⟩ : Fin 2) k (⟨h.val * 48 + w.val, by omega⟩ : Fin 2304)) * val_main_v126 (F := Ideal) x1 (ix4 b (⟨n.val / 192, hg⟩ : Fin 2) k (⟨h.val * 48 + w.val, by omega⟩ : Fin 2304))))
      = ∑ s : Fin 25, ∑ c : Fin 192, Cert.Spec.term (val_main_v0 (F := Ideal) x0) (val_main_v64 (F := Ideal) x1) (val_main_v62 (F := Ideal) x1) x2 b (⟨n.val / 192, hg⟩ : Fin 2) (⟨n.val % 192, ho⟩ : Fin 192) h w s c :=
    (Finset.sum_congr rfl fun k _ => row_eq x0 x1 x2 b (⟨n.val / 192, hg⟩ : Fin 2) (⟨n.val % 192, ho⟩ : Fin 192) h w k).trans
      (sum_rows fun c s => Cert.Spec.term (val_main_v0 (F := Ideal) x0) (val_main_v64 (F := Ideal) x1) (val_main_v62 (F := Ideal) x1) x2 b (⟨n.val / 192, hg⟩ : Fin 2) (⟨n.val % 192, ho⟩ : Fin 192) h w s c)
  rw [val_main_v133_apply, ej, G_apply]
  refine (addf_apply (val_main_v130 (F := Ideal) x0 x1 x2) (val_main_v131 (F := Ideal) x3) _).trans ?_
  rw [dot_apply, bias_apply, hS]
  generalize val_main_v0 (F := Ideal) x0 = xp
  generalize val_main_v64 (F := Ideal) x1 = tp
  generalize val_main_v62 (F := Ideal) x1 = ctr
  unfold Cert.Spec.Gat
  rfl

end Cert.ReferenceIdeal.RefValue

end
-- ==== Proof.LibNary.lean ====
/-
  The result of a StableHLO `nary` operation over a LITERAL family of 9 or of 16 references — the shape a
  `stablehlo.concatenate` of 9 or 16 operands prints to — with each operand's contents at its own reference:
  `Fin.cons (F ↑x0) (Fin.cons (F ↑x1) …)` in place of `fun k => F ↑(![x0, x1, …] k)`. Under that binder the reference
  `![x0, …] k` is no literal, and a fold over a list of operations cannot be read any further through it; with the
  operands spelt out it can. These are the 9- and 16-operand analogues of the library's `nary4_result`, generic in
  the signature and the element values; `after_results_nary` is the library's one-pass reading of a fold with them in place of the general `nary` lemma.
-/
import Idealize.ShloMosaic.Lib.StableHlo.Run

noncomputable section

namespace Cert.LibNary

open Idealize.ShloMosaic Idealize.ShloMosaic.StableHlo

variable {nD : Nat} {τ : Topo} {sig : RefSig} {Val : EltTy → Type}

/-- `nary` over a LITERAL family of 9 references (a `stablehlo.concatenate` of 9 operands): its result with each
    operand's contents at its own reference, so that a fold over the operations goes on being read through it. -/
theorem nary9_result {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, keyed for `simp` like the library's primed result lemmas. -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- `nary` over a LITERAL family of 16 references (a `stablehlo.concatenate` of 16 operands): its result with each
    operand's contents at its own reference, so that a fold over the operations goes on being read through it. -/
theorem nary16_result {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl
/-- The same, keyed for `simp` like the library's primed result lemmas. -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

/-- The library's one-pass reading of `after ops V (Proc.devRef .tc r)` for a literal list `ops`, with the two lemmas above
    in place of the general `nary` lemma (which would leave the operands under a binder). -/
macro "after_results_nary" : tactic =>
  `(tactic| (simp (disch := decide) only [after_cons, after_nil,
      nullary_result', unary_result', binary_result', ternary_result', quaternary_result', reshape_result', nary4_result',
      Cert.LibNary.nary9_result', Cert.LibNary.nary16_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary

end
-- ==== Proof.RefOps.lean ====
/-
  The reference's 140 host operations, as five consecutive list literals cut where few values are alive — the unfolded
  image (operations 1–58), the group offsets and their padding (59–71), the 25 shifted copies of the padded offsets in
  two stacks (72–123), their join and the comparison with the centre (124–129), the mask's re-layout, the product, the
  contraction and the bias (130–140) —; that @main is their join run in order; and which buffers each window leaves alone.
-/
import proofs.«146505_j13426067767599_2_alg».proof.Proof.RefRead
import proofs.«146505_j13426067767599_2_alg».proof.Proof.LibNary

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo
open Cert.LibNary

variable {F : FTy → Type} [FloatOps F]

set_option maxHeartbeats 200000000 in
/-- @main's operations 1 … 58 of 140, in order. -/
abbrev ops0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S2x192x48x48, .f32⟩) main_arg0) (TRef.of (T := ⟨S_, .f32⟩) main_call0_v0) (TRef.of (T := ⟨S2x192x52x52, .f32⟩) main_v0) (fun x v => pad S2x192x52x52 ![0, 0, 2, 2] ![0, 0, 2, 2] ![0, 0, 0, 0] x v pads_S2x192x48x48_S2x192x52x52_000_000_220_220 h_S_),
    unary main_v0 main_v1 ((extractStridedSlice S2x192x48x48 ![0, 0, 0, 0] · slices_S2x192x52x52_S2x192x48x48_0_0_0_0) : (⟨S2x192x52x52, .f32⟩ : BufTy).Contents (Elt F) → (⟨S2x192x48x48, .f32⟩ : BufTy).Contents (Elt F)),
    unary main_v0 main_v2 ((extractStridedSlice S2x192x48x48 ![0, 0, 0, 1] · slices_S2x192x52x52_S2x192x48x48_0_0_0_1) : (⟨S2x192x52x52, .f32⟩ : BufTy).Contents (Elt F) → (⟨S2x192x48x48, .f32⟩ : BufTy).Contents (Elt F)),
    unary main_v0 main_v3 ((extractStridedSlice S2x192x48x48 ![0, 0, 0, 2] · slices_S2x192x52x52_S2x192x48x48_0_0_0_2) : (⟨S2x192x52x52, .f32⟩ : BufTy).Contents (Elt F) → (⟨S2x192x48x48, .f32⟩ : BufTy).Contents (Elt F)),
    unary main_v0 main_v4 ((extractStridedSlice S2x192x48x48 ![0, 0, 0, 3] · slices_S2x192x52x52_S2x192x48x48_0_0_0_3) : (⟨S2x192x52x52, .f32⟩ : BufTy).Contents (Elt F) → (⟨S2x192x48x48, .f32⟩ : BufTy).Contents (Elt F)),
    unary main_v0 main_v5 ((extractStridedSlice S2x192x48x48 ![0, 0, 0, 4] · slices_S2x192x52x52_S2x192x48x48_0_0_0_4) : (⟨S2x192x52x52, .f32⟩ : BufTy).Contents (Elt F) → (⟨S2x192x48x48, .f32⟩ : BufTy).Contents (Elt F)),
    unary main_v0 main_v6 ((extractStridedSlice S2x192x48x48 ![0, 0, 1, 0] · slices_S2x192x52x52_S2x192x48x48_0_0_1_0) : (⟨S2x192x52x52, .f32⟩ : BufTy).Contents (Elt F) → (⟨S2x192x48x48, .f32⟩ : BufTy).Contents (Elt F)),
    unary main_v0 main_v7 ((extractStridedSlice S2x192x48x48 ![0, 0, 1, 1] · slices_S2x192x52x52_S2x192x48x48_0_0_1_1) : (⟨S2x192x52x52, .f32⟩ : BufTy).Contents (Elt F) → (⟨S2x192x48x48, .f32⟩ : BufTy).Contents (Elt F)),
    unary main_v0 main_v8 ((extractStridedSlice S2x192x48x48 ![0, 0, 1, 2] · slices_S2x192x52x52_S2x192x48x48_0_0_1_2) : (⟨S2x192x52x52, .f32⟩ : BufTy).Contents (Elt F) → (⟨S2x192x48x48, .f32⟩ : BufTy).Contents (Elt F)),
    unary main_v0 main_v9 ((extractStridedSlice S2x192x48x48 ![0, 0, 1, 3] · slices_S2x192x52x52_S2x192x48x48_0_0_1_3) : (⟨S2x192x52x52, .f32⟩ : BufTy).Contents (Elt F) → (⟨S2x192x48x48, .f32⟩ : BufTy).Contents (Elt F)),
    unary main_v0 main_v10 ((extractStridedSlice S2x192x48x48 ![0, 0, 1, 4] · slices_S2x192x52x52_S2x192x48x48_0_0_1_4) : (⟨S2x192x52x52, .f32⟩ : BufTy).Contents (Elt F) → (⟨S2x192x48x48, .f32⟩ : BufTy).Contents (Elt F)),
    unary main_v0 main_v11 ((extractStridedSlice S2x192x48x48 ![0, 0, 2, 0] · slices_S2x192x52x52_S2x192x48x48_0_0_2_0) : (⟨S2x192x52x52, .f32⟩ : BufTy).Contents (Elt F) → (⟨S2x192x48x48, .f32⟩ : BufTy).Contents (Elt F)),
    unary main_v0 main_v12 ((extractStridedSlice S2x192x48x48 ![0, 0, 2, 1] · slices_S2x192x52x52_S2x192x48x48_0_0_2_1) : (⟨S2x192x52x52, .f32⟩ : BufTy).Contents (Elt F) → (⟨S2x192x48x48, .f32⟩ : BufTy).Contents (Elt F)),
    unary main_v0 main_v13 ((extractStridedSlice S2x192x48x48 ![0, 0, 2, 2] · slices_S2x192x52x52_S2x192x48x48_0_0_2_2) : (⟨S2x192x52x52, .f32⟩ : BufTy).Contents (Elt F) → (⟨S2x192x48x48, .f32⟩ : BufTy).Contents (Elt F)),
    unary main_v0 main_v14 ((extractStridedSlice S2x192x48x48 ![0, 0, 2, 3] · slices_S2x192x52x52_S2x192x48x48_0_0_2_3) : (⟨S2x192x52x52, .f32⟩ : BufTy).Contents (Elt F) → (⟨S2x192x48x48, .f32⟩ : BufTy).Contents (Elt F)),
    unary main_v0 main_v15 ((extractStridedSlice S2x192x48x48 ![0, 0, 2, 4] · slices_S2x192x52x52_S2x192x48x48_0_0_2_4) : (⟨S2x192x52x52, .f32⟩ : BufTy).Contents (Elt F) → (⟨S2x192x48x48, .f32⟩ : BufTy).Contents (Elt F)),
    unary main_v0 main_v16 ((extractStridedSlice S2x192x48x48 ![0, 0, 3, 0] · slices_S2x192x52x52_S2x192x48x48_0_0_3_0) : (⟨S2x192x52x52, .f32⟩ : BufTy).Contents (Elt F) → (⟨S2x192x48x48, .f32⟩ : BufTy).Contents (Elt F)),
    unary main_v0 main_v17 ((extractStridedSlice S2x192x48x48 ![0, 0, 3, 1] · slices_S2x192x52x52_S2x192x48x48_0_0_3_1) : (⟨S2x192x52x52, .f32⟩ : BufTy).Contents (Elt F) → (⟨S2x192x48x48, .f32⟩ : BufTy).Contents (Elt F)),
    unary main_v0 main_v18 ((extractStridedSlice S2x192x48x48 ![0, 0, 3, 2] · slices_S2x192x52x52_S2x192x48x48_0_0_3_2) : (⟨S2x192x52x52, .f32⟩ : BufTy).Contents (Elt F) → (⟨S2x192x48x48, .f32⟩ : BufTy).Contents (Elt F)),
    unary main_v0 main_v19 ((extractStridedSlice S2x192x48x48 ![0, 0, 3, 3] · slices_S2x192x52x52_S2x192x48x48_0_0_3_3) : (⟨S2x192x52x52, .f32⟩ : BufTy).Contents (Elt F) → (⟨S2x192x48x48, .f32⟩ : BufTy).Contents (Elt F)),
    unary main_v0 main_v20 ((extractStridedSlice S2x192x48x48 ![0, 0, 3, 4] · slices_S2x192x52x52_S2x192x48x48_0_0_3_4) : (⟨S2x192x52x52, .f32⟩ : BufTy).Contents (Elt F) → (⟨S2x192x48x48, .f32⟩ : BufTy).Contents (Elt F)),
    unary main_v0 main_v21 ((extractStridedSlice S2x192x48x48 ![0, 0, 4, 0] · slices_S2x192x52x52_S2x192x48x48_0_0_4_0) : (⟨S2x192x52x52, .f32⟩ : BufTy).Contents (Elt F) → (⟨S2x192x48x48, .f32⟩ : BufTy).Contents (Elt F)),
    unary main_v0 main_v22 ((extractStridedSlice S2x192x48x48 ![0, 0, 4, 1] · slices_S2x192x52x52_S2x192x48x48_0_0_4_1) : (⟨S2x192x52x52, .f32⟩ : BufTy).Contents (Elt F) → (⟨S2x192x48x48, .f32⟩ : BufTy).Contents (Elt F)),
    unary main_v0 main_v23 ((extractStridedSlice S2x192x48x48 ![0, 0, 4, 2] · slices_S2x192x52x52_S2x192x48x48_0_0_4_2) : (⟨S2x192x52x52, .f32⟩ : BufTy).Contents (Elt F) → (⟨S2x192x48x48, .f32⟩ : BufTy).Contents (Elt F)),
    unary main_v0 main_v24 ((extractStridedSlice S2x192x48x48 ![0, 0, 4, 3] · slices_S2x192x52x52_S2x192x48x48_0_0_4_3) : (⟨S2x192x52x52, .f32⟩ : BufTy).Contents (Elt F) → (⟨S2x192x48x48, .f32⟩ : BufTy).Contents (Elt F)),
    unary main_v0 main_v25 ((extractStridedSlice S2x192x48x48 ![0, 0, 4, 4] · slices_S2x192x52x52_S2x192x48x48_0_0_4_4) : (⟨S2x192x52x52, .f32⟩ : BufTy).Contents (Elt F) → (⟨S2x192x48x48, .f32⟩ : BufTy).Contents (Elt F)),
    unary main_v1 main_v26 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v2 main_v27 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v3 main_v28 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v4 main_v29 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v5 main_v30 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v6 main_v31 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v7 main_v32 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v8 main_v33 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v9 main_v34 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v10 main_v35 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v11 main_v36 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v12 main_v37 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v13 main_v38 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v14 main_v39 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v15 main_v40 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v16 main_v41 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v17 main_v42 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v18 main_v43 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v19 main_v44 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v20 main_v45 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v21 main_v46 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v22 main_v47 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v23 main_v48 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v24 main_v49 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    unary main_v25 main_v50 (broadcastInDim S2x192x1x48x48 ![0, 1, 3, 4] bcast_S2x192x48x48_S2x192x1x48x48_0_1_3_4 : (⟨S2x192x48x48, .f32⟩ : BufTy).Contents (Elt F) → (⟨S2x192x1x48x48, .f32⟩ : BufTy).Contents (Elt F)),
    nary ![main_v26, main_v27, main_v28, main_v29, main_v30, main_v31, main_v32, main_v33, main_v34, main_v35, main_v36, main_v37, main_v38, main_v39, main_v40, main_v41] main_v51 (fun u => concatenate S2x192x16x48x48 2 [⟨S2x192x1x48x48, u 0⟩, ⟨S2x192x1x48x48, u 1⟩, ⟨S2x192x1x48x48, u 2⟩, ⟨S2x192x1x48x48, u 3⟩, ⟨S2x192x1x48x48, u 4⟩, ⟨S2x192x1x48x48, u 5⟩, ⟨S2x192x1x48x48, u 6⟩, ⟨S2x192x1x48x48, u 7⟩, ⟨S2x192x1x48x48, u 8⟩, ⟨S2x192x1x48x48, u 9⟩, ⟨S2x192x1x48x48, u 10⟩, ⟨S2x192x1x48x48, u 11⟩, ⟨S2x192x1x48x48, u 12⟩, ⟨S2x192x1x48x48, u 13⟩, ⟨S2x192x1x48x48, u 14⟩, ⟨S2x192x1x48x48, u 15⟩] concatenates_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x1x48x48_S2x192x16x48x48_d2),
    nary ![main_v42, main_v43, main_v44, main_v45, main_v46, main_v47, main_v48, main_v49, main_v50] main_v52 (fun u => concatenate S2x192x9x48x48 2 [⟨S2x192x1x48x48, u 0⟩, ⟨S2x192x1x48x48, u 1⟩, ⟨S2x192x1x48x48, u 2⟩, ⟨S2x192x1x48x48, u 3⟩, ⟨S2x192x1x48x48, u 4⟩, ⟨S2x192x1x48x48, u 5⟩, ⟨S2x192x1x48x48, u 6⟩, ⟨S2x192x1x48x48, u 7⟩, ⟨S2x192x1x48x48, u 8⟩] concatenates_S2x192x1x48x48_S2x192x1x48x48_S2x192x1x48x48_S2x192x1x48x48_S2x192x1x48x48_S2x192x1x48x48_S2x192x1x48x48_S2x192x1x48x48_S2x192x1x48x48_S2x192x9x48x48_d2),
    binary main_v51 main_v52 main_v53 ((fun a b => concatenate S2x192x25x48x48 2 [⟨S2x192x16x48x48, a⟩, ⟨S2x192x9x48x48, b⟩] concatenates_S2x192x16x48x48_S2x192x9x48x48_S2x192x25x48x48_d2) : (⟨S2x192x16x48x48, .f32⟩ : BufTy).Contents (Elt F) → (⟨S2x192x9x48x48, .f32⟩ : BufTy).Contents (Elt F) → (⟨S2x192x25x48x48, .f32⟩ : BufTy).Contents (Elt F)),
    reshape main_v53 main_v54 rfl shapeCasts_S2x192x25x48x48_S2x4800x2304,
    unary main_v54 main_v55 (broadcastInDim S2x1x4800x2304 ![0, 2, 3] bcast_S2x4800x2304_S2x1x4800x2304_0_2_3 : (⟨S2x4800x2304, .f32⟩ : BufTy).Contents (Elt F) → (⟨S2x1x4800x2304, .f32⟩ : BufTy).Contents (Elt F)) ]

set_option maxRecDepth 8192 in
theorem ops0_sub : (ops0 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., reshape_bufs_sub .., unary_bufs_sub ..⟩
theorem ops0_fresh : ∀ op ∈ (ops0 : List (HloOp τ sig (Elt F))), op.fresh = ∅ := by
  intro _ h; (repeat (cases h with | head => rfl | tail _ h => ?_)); exact nomatch h

set_option maxHeartbeats 200000000 in
/-- @main's operations 59 … 71 of 140, in order. -/
abbrev ops1 : List (HloOp τ sig (Elt F)) :=
  [ unary main_arg1 main_v56 (sitofp .f32 : (⟨S2x2x48x48, .i32⟩ : BufTy).Contents (Elt F) → (⟨S2x2x48x48, .f32⟩ : BufTy).Contents (Elt F)),
    nullary main_cst (constant S_ .f32 0xFF800000#32),
    binary main_v56 main_cst main_v57 ((fun x v => Host.reduce FloatOps.maximumf x v reducesTo_S2x2x48x48_S_d0_1_2_3 h_S_) : (⟨S2x2x48x48, .f32⟩ : BufTy).Contents (Elt F) → (⟨S_, .f32⟩ : BufTy).Contents (Elt F) → (⟨S_, .f32⟩ : BufTy).Contents (Elt F)),
    unary main_v57 main_v58 (Host.ceil : (⟨S_, .f32⟩ : BufTy).Contents (Elt F) → (⟨S_, .f32⟩ : BufTy).Contents (Elt F)),
    unary main_v58 main_v59 (broadcastInDim S2x2x48x48 ![] bcast_S_S2x2x48x48 : (⟨S_, .f32⟩ : BufTy).Contents (Elt F) → (⟨S2x2x48x48, .f32⟩ : BufTy).Contents (Elt F)),
    binary main_v56 main_v59 main_v60 (subf : (⟨S2x2x48x48, .f32⟩ : BufTy).Contents (Elt F) → (⟨S2x2x48x48, .f32⟩ : BufTy).Contents (Elt F) → (⟨S2x2x48x48, .f32⟩ : BufTy).Contents (Elt F)),
    nullary main_cst_0 (constant S_ .f32 0x3F800000#32),
    unary main_cst_0 main_v61 (broadcastInDim S2x2x48x48 ![] bcast_S_S2x2x48x48 : (⟨S_, .f32⟩ : BufTy).Contents (Elt F) → (⟨S2x2x48x48, .f32⟩ : BufTy).Contents (Elt F)),
    binary main_v60 main_v61 main_v62 (subf : (⟨S2x2x48x48, .f32⟩ : BufTy).Contents (Elt F) → (⟨S2x2x48x48, .f32⟩ : BufTy).Contents (Elt F) → (⟨S2x2x48x48, .f32⟩ : BufTy).Contents (Elt F)),
    reshape main_v62 main_v63 rfl shapeCasts_S2x2x48x48_S2x2x1x2304,
    nullary main_c_1 (constantI S_ 32 0#32),
    TRef.unary (TRef.of (T := ⟨S_, .i32⟩) main_c_1) (TRef.of (T := ⟨S_, .f32⟩) main_call1_v0) (sitofp .f32),
    TRef.binary (TRef.of (T := ⟨S2x2x48x48, .f32⟩) main_v62) (TRef.of (T := ⟨S_, .f32⟩) main_call1_v0) (TRef.of (T := ⟨S2x2x52x52, .f32⟩) main_v64) (fun x v => pad S2x2x52x52 ![0, 0, 2, 2] ![0, 0, 2, 2] ![0, 0, 0, 0] x v pads_S2x2x48x48_S2x2x52x52_000_000_220_220 h_S_) ]

set_option maxRecDepth 8192 in
theorem ops1_sub : (ops1 : List (HloOp τ sig (Elt F))).Forall fun op => op.bufs ⊆ tcRefs τ sig :=
  ⟨unary_bufs_sub .., nullary_bufs_sub .., binary_bufs_sub .., unary_bufs_sub .., unary_bufs_sub .., binary_bufs_sub .., nullary_bufs_sub .., unary_bufs_sub .., binary_bufs_sub .., reshape_bufs_sub .., nullary_bufs_sub .., unary_bufs_sub .., binary_bufs_sub ..⟩
theorem ops1_fresh : ∀ op ∈ (ops1 : List (HloOp τ sig (Elt F))), op.fresh = ∅ := by
  intro _ h; (repeat (cases h with | head => rfl | tail _ h => ?_)); exact nomatch h

set_option maxHeartbeats 200000000 in
/-- @main's operations 72 … 123 of 140, in order. -/
abbrev ops2 : List (HloOp τ sig (Elt F)) :=
  [ unary main_v64 main_v65 ((extractStridedSlice S2x2x48x48 ![0, 0, 0, 0] · slices_S2x2x52x52_S2x2x48x48_0_0_0_0) : (⟨S2x2x52x52, .f32⟩ : BufTy).Contents (Elt F) → (⟨S2x2x48x48, .f32⟩ : BufTy).Contents (Elt F)),
    unary main_v64 main_v66 ((extractStridedSlice S2x2x48x48 ![0, 0, 0, 1] · slices_S2x2x52x52_S2x2x48x48_0_0_0_1) : (⟨S2x2x52x52, .f32⟩ : BufTy).Contents (Elt F) → (⟨S2x2x48x48, .f32⟩ : BufTy).Contents (Elt F)),
    unary main_v64 main_v67 ((extractStridedSlice S2x2x48x48 ![0, 0, 0, 2] · slices_S2x2x52x52_S2x2x48x48_0_0_0_2) : (⟨S2x2x52x52, .f32⟩ : BufTy).Contents (Elt F) → (⟨S2x2x48x48, .f32⟩ : BufTy).Contents (Elt F)),
    unary main_v64 main_v68 ((extractStridedSlice S2x2x48x48 ![0, 0, 0, 3] · slices_S2x2x52x52_S2x2x48x48_0_0_0_3) : (⟨S2x2x52x52, .f32⟩ : BufTy).Contents (Elt F) → (⟨S2x2x48x48, .f32⟩ : BufTy).Contents (Elt F)),
    unary main_v64 main_v69 ((extractStridedSlice S2x2x48x48 ![0, 0, 0, 4] · slices_S2x2x52x52_S2x2x48x48_0_0_0_4) : (⟨S2x2x52x52, .f32⟩ : BufTy).Contents (Elt F) → (⟨S2x2x48x48, .f32⟩ : BufTy).Contents (Elt F)),
    unary main_v64 main_v70 ((extractStridedSlice S2x2x48x48 ![0, 0, 1, 0] · slices_S2x2x52x52_S2x2x48x48_0_0_1_0) : (⟨S2x2x52x52, .f32⟩ : BufTy).Contents (Elt F) → (⟨S2x2x48x48, .f32⟩ : BufTy).Contents (Elt F)),
    unary main_v64 main_v71 ((extractStridedSlice S2x2x48x48 ![0, 0, 1, 1] · slices_S2x2x52x52_S2x2x48x48_0_0_1_1) : (⟨S2x2x52x52, .f32⟩ : BufTy).Contents (Elt F) → (⟨S2x2x48x48, .f32⟩ : BufTy).Contents (Elt F)),
    unary main_v64 main_v72 ((extractStridedSlice S2x2x48x48 ![0, 0, 1, 2] · slices_S2x2x52x52_S2x2x48x48_0_0_1_2) : (⟨S2x2x52x52, .f32⟩ : BufTy).Contents (Elt F) → (⟨S2x2x48x48, .f32⟩ : BufTy).Contents (Elt F)),
    unary main_v64 main_v73 ((extractStridedSlice S2x2x48x48 ![0, 0, 1, 3] · slices_S2x2x52x52_S2x2x48x48_0_0_1_3) : (⟨S2x2x52x52, .f32⟩ : BufTy).Contents (Elt F) → (⟨S2x2x48x48, .f32⟩ : BufTy).Contents (Elt F)),
    unary main_v64 main_v74 ((extractStridedSlice S2x2x48x48 ![0, 0, 1, 4] · slices_S2x2x52x52_S2x2x48x48_0_0_1_4) : (⟨S2x2x52x52, .f32⟩ : BufTy).Contents (Elt F) → (⟨S2x2x48x48, .f32⟩ : BufTy).Contents (Elt F)),
    unary main_v64 main_v75 ((extractStridedSlice S2x2x48x48 ![0, 0, 2, 0] · slices_S2x2x52x52_S2x2x48x48_0_0_2_0) : (⟨S2x2x52x52, .f32⟩ : BufTy).Contents (Elt F) → (⟨S2x2x48x48, .f32⟩ : BufTy).Contents (Elt F)),
    unary main_v64 main_v76 ((extractStridedSlice S2x2x48x48 ![0, 0, 2, 1] · slices_S2x2x52x52_S2x2x48x48_0_0_2_1) : (⟨S2x2x52x52, .f32⟩ : BufTy).Contents (Elt F) → (⟨S2x2x48x48, .f32⟩ : BufTy).Contents (Elt F)),
    unary main_v64 main_v77 ((extractStridedSlice S2x2x48x48 ![0, 0, 2, 2] · slices_S2x2x52x52_S2x2x48x48_0_0_2_2) : (⟨S2x2x52x52, .f32⟩ : BufTy).Contents (Elt F) → (⟨S2x2x48x48, .f32⟩ : BufTy).Contents (Elt F)),
    unary main_v64 main_v78 ((extractStridedSlice S2x2x48x48 ![0, 0, 2, 3] · slices_S2x2x52x52_S2x2x48x48_0_0_2_3) : (⟨S2x2x52x52, .f32⟩ : BufTy).Contents (Elt F) → (⟨S2x2x48x48, .f32⟩ : BufTy).Contents (Elt F)),
    unary main_v64 main_v79 ((extractStridedSlice S2x2x48x48 ![0, 0, 2, 4] · slices_S2x2x52x52_S2x2x48x48_0_0_2_4) : (⟨S2x2x52x52, .f32⟩ : BufTy).Contents (Elt F) → (⟨S2x2x48x48, .f32⟩ : BufTy).Contents (Elt F)),
    unary main_v64 main_v80 ((extractStridedSlice S2x2x48x48 ![0, 0, 3, 0] · slices_S2x2x52x52_S2x2x48x48_0_0_3_0) : (⟨S2x2x52x52, .f32⟩ : BufTy).Contents (Elt F) → (⟨S2x2x48x48, .f32⟩ : BufTy).Contents (Elt F)),
    unary main_v64 main_v81 ((extractStridedSlice S2x2x48x48 ![0, 0, 3, 1] · slices_S2x2x52x52_S2x2x48x48_0_0_3_1) : (⟨S2x2x52x52, .f32⟩ : BufTy).Contents (Elt F) → (⟨S2x2x48x48, .f32⟩ : BufTy).Contents (Elt F)),
    unary main_v64 main_v82 ((extractStridedSlice S2x2x48x48 ![0, 0, 3, 2] · slices_S2x2x52x52_S2x2x48x48_0_0_3_2) : (⟨S2x2x52x52, .f32⟩ : BufTy).Contents (Elt F) → (⟨S2x2x48x48, .f32⟩ : BufTy).Contents (Elt F)),
    unary main_v64 main_v83 ((extractStridedSlice S2x2x48x48 ![0, 0, 3, 3] · slices_S2x2x52x52_S2x2x48x48_0_0_3_3) : (⟨S2x2x52x52, .f32⟩ : BufTy).Contents (Elt F) → (⟨S2x2x48x48, .f32⟩ : BufTy).Contents (Elt F)),
    unary main_v64 main_v84 ((extractStridedSlice S2x2x48x48 ![0, 0, 3, 4] · slices_S2x2x52x52_S2x2x48x48_0_0_3_4) : (⟨S2x2x52x52, .f32⟩ : BufTy).Contents (Elt F) → (⟨S2x2x48x48, .f32⟩ : BufTy).Contents (Elt F)),
    unary main_v64 main_v85 ((extractStridedSlice S2x2x48x48 ![0, 0, 4, 0] · slices_S2x2x52x52_S2x2x48x48_0_0_4_0) : (⟨S2x2x52x52, .f32⟩ : BufTy).Contents (Elt F) → (⟨S2x2x48x48, .f32⟩ : BufTy).Contents (Elt F)),
    unary main_v64 main_v86 ((extractStridedSlice S2x2x48x48 ![0, 0, 4, 1] · slices_S2x2x52x52_S2x2x48x48_0_0_4_1) : (⟨S2x2x52x52, .f32⟩ : BufTy).Contents (Elt F) → (⟨S2x2x48x48, .f32⟩ : BufTy).Contents (Elt F)),
    unary main_v64 main_v87 ((extractStridedSlice S2x2x48x48 ![0, 0, 4, 2] · slices_S2x2x52x52_S2x2x48x48_0_0_4_2) : (⟨S2x2x52x52, .f32⟩ : BufTy).Contents (Elt F) → (⟨S2x2x48x48, .f32⟩ : BufTy).Contents (Elt F)),
    unary main_v64 main_v88 ((extractStridedSlice S2x2x48x48 ![0, 0, 4, 3] · slices_S2x2x52x52_S2x2x48x48_0_0_4_3) : (⟨S2x2x52x52, .f32⟩ : BufTy).Contents (Elt F) → (⟨S2x2x48x48, .f32⟩ : BufTy).Contents (Elt F)),
    unary main_v64 main_v89 ((extractStridedSlice S2x2x48x48 ![0, 0, 4, 4] · slices_S2x2x52x52_S2x2x48x48_0_0_4_4) : (⟨S2x2x52x52, .f32⟩ : BufTy).Contents (Elt F) → (⟨S2x2x48x48, .f32⟩ : BufTy).Contents (Elt F)),
    unary main_v65 main_v90 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v66 main_v91 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v67 main_v92 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v68 main_v93 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v69 main_v94 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v70 main_v95 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v71 main_v96 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v72 main_v97 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v73 main_v98 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v74 main_v99 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v75 main_v100 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v76 main_v101 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v77 main_v102 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v78 main_v103 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v79 main_v104 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v80 main_v105 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v81 main_v106 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v82 main_v107 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v83 main_v108 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v84 main_v109 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v85 main_v110 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v86 main_v111 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v87 main_v112 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v88 main_v113 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v89 main_v114 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    nary ![main_v90, main_v91, main_v92, main_v93, main_v94, main_v95, main_v96, main_v97, main_v98, main_v99, main_v100, main_v101, main_v102, main_v103, main_v104, main_v105] main_v115 (fun u => concatenate S2x2x16x48x48 2 [⟨S2x2x1x48x48, u 0⟩, ⟨S2x2x1x48x48, u 1⟩, ⟨S2x2x1x48x48, u 2⟩, ⟨S2x2x1x48x48, u 3⟩, ⟨S2x2x1x48x48, u 4⟩, ⟨S2x2x1x48x48, u 5⟩, ⟨S2x2x1x48x48, u 6⟩, ⟨S2x2x1x48x48, u 7⟩, ⟨S2x2x1x48x48, u 8⟩, ⟨S2x2x1x48x48, u 9⟩, ⟨S2x2x1x48x48, u 10⟩, ⟨S2x2x1x48x48, u 11⟩, ⟨S2x2x1x48x48, u 12⟩, ⟨S2x2x1x48x48, u 13⟩, ⟨S2x2x1x48x48, u 14⟩, ⟨S2x2x1x48x48, u 15⟩] concatenates_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x16x48x48_d2),
    nary ![main_v106, main_v107, main_v108, main_v109, main_v110, main_v111, main_v112, main_v113, main_v114] main_v116 (fun u => concatenate S2x2x9x48x48 2 [⟨S2x2x1x48x48, u 0⟩, ⟨S2x2x1x48x48, u 1⟩, ⟨S2x2x1x48x48, u 2⟩, ⟨S2x2x1x48x48, u 3⟩, ⟨S2x2x1x48x48, u 4⟩, ⟨S2x2x1x48x48, u 5⟩, ⟨S2x2x1x48x48, u 6⟩, ⟨S2x2x1x48x48, u 7⟩, ⟨S2x2x1x48x48, u 8⟩] concatenates_S2x2x1x48x48_S2x2x1x48x48_S2x2x1x48x48_S2x2x1x48x48_S2x2x1x48x48_S2x2x1x48x48_S2x2x1x48x48_S2x2x1x48x48_S2x2x1x48x48_S2x2x9x48x48_d2) ]

set_option maxRecDepth 8192 in
theorem ops2_sub : (ops2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub ..⟩
theorem ops2_fresh : ∀ op ∈ (ops2 : List (HloOp τ sig (Elt F))), op.fresh = ∅ := by
  intro _ h; (repeat (cases h with | head => rfl | tail _ h => ?_)); exact nomatch h

set_option maxHeartbeats 200000000 in
/-- @main's operations 124 … 129 of 140, in order. -/
abbrev ops3 : List (HloOp τ sig (Elt F)) :=
  [ binary main_v115 main_v116 main_v117 ((fun a b => concatenate S2x2x25x48x48 2 [⟨S2x2x16x48x48, a⟩, ⟨S2x2x9x48x48, b⟩] concatenates_S2x2x16x48x48_S2x2x9x48x48_S2x2x25x48x48_d2) : (⟨S2x2x16x48x48, .f32⟩ : BufTy).Contents (Elt F) → (⟨S2x2x9x48x48, .f32⟩ : BufTy).Contents (Elt F) → (⟨S2x2x25x48x48, .f32⟩ : BufTy).Contents (Elt F)),
    reshape main_v117 main_v118 rfl shapeCasts_S2x2x25x48x48_S2x50x2304,
    unary main_v118 main_v119 (broadcastInDim S2x1x50x2304 ![0, 2, 3] bcast_S2x50x2304_S2x1x50x2304_0_2_3 : (⟨S2x50x2304, .f32⟩ : BufTy).Contents (Elt F) → (⟨S2x1x50x2304, .f32⟩ : BufTy).Contents (Elt F)),
    unary main_v119 main_v120 (broadcastInDim S2x2x50x2304 ![0, 1, 2, 3] bcast_S2x1x50x2304_S2x2x50x2304_0_1_2_3 : (⟨S2x1x50x2304, .f32⟩ : BufTy).Contents (Elt F) → (⟨S2x2x50x2304, .f32⟩ : BufTy).Contents (Elt F)),
    unary main_v63 main_v121 (broadcastInDim S2x2x50x2304 ![0, 1, 2, 3] bcast_S2x2x1x2304_S2x2x50x2304_0_1_2_3 : (⟨S2x2x1x2304, .f32⟩ : BufTy).Contents (Elt F) → (⟨S2x2x50x2304, .f32⟩ : BufTy).Contents (Elt F)),
    binary main_v120 main_v121 main_v122 (cmpf .olt : (⟨S2x2x50x2304, .f32⟩ : BufTy).Contents (Elt F) → (⟨S2x2x50x2304, .f32⟩ : BufTy).Contents (Elt F) → (⟨S2x2x50x2304, .i1⟩ : BufTy).Contents (Elt F)) ]

set_option maxRecDepth 8192 in
theorem ops3_sub : (ops3 : List (HloOp τ sig (Elt F))).Forall fun op => op.bufs ⊆ tcRefs τ sig :=
  ⟨binary_bufs_sub .., reshape_bufs_sub .., unary_bufs_sub .., unary_bufs_sub .., unary_bufs_sub .., binary_bufs_sub ..⟩
theorem ops3_fresh : ∀ op ∈ (ops3 : List (HloOp τ sig (Elt F))), op.fresh = ∅ := by
  intro _ h; (repeat (cases h with | head => rfl | tail _ h => ?_)); exact nomatch h

set_option maxHeartbeats 200000000 in
/-- @main's operations 130 … 140 of 140, in order. -/
abbrev ops4 : List (HloOp τ sig (Elt F)) :=
  [ reshape main_v122 main_v123 rfl shapeCasts_S2x2x50x2304_S2x2x2x1x25x2304,
    unary main_v123 main_v124 (broadcastInDim S2x2x2x96x25x2304 ![0, 1, 2, 3, 4, 5] bcast_S2x2x2x1x25x2304_S2x2x2x96x25x2304_0_1_2_3_4_5 : (⟨S2x2x2x1x25x2304, .i1⟩ : BufTy).Contents (Elt F) → (⟨S2x2x2x96x25x2304, .i1⟩ : BufTy).Contents (Elt F)),
    reshape main_v124 main_v125 rfl shapeCasts_S2x2x2x96x25x2304_S2x2x4800x2304,
    unary main_v125 main_v126 (uitofp .f32 : (⟨S2x2x4800x2304, .i1⟩ : BufTy).Contents (Elt F) → (⟨S2x2x4800x2304, .f32⟩ : BufTy).Contents (Elt F)),
    unary main_v55 main_v127 (broadcastInDim S2x2x4800x2304 ![0, 1, 2, 3] bcast_S2x1x4800x2304_S2x2x4800x2304_0_1_2_3 : (⟨S2x1x4800x2304, .f32⟩ : BufTy).Contents (Elt F) → (⟨S2x2x4800x2304, .f32⟩ : BufTy).Contents (Elt F)),
    binary main_v127 main_v126 main_v128 (mulf : (⟨S2x2x4800x2304, .f32⟩ : BufTy).Contents (Elt F) → (⟨S2x2x4800x2304, .f32⟩ : BufTy).Contents (Elt F) → (⟨S2x2x4800x2304, .f32⟩ : BufTy).Contents (Elt F)),
    reshape main_arg2 main_v129 rfl shapeCasts_S2x2x192x4800x1_S2x2x192x4800,
    binary main_v129 main_v128 main_v130 ((fun l r => Host.dotGeneral dot_S2x2x192x4800_S2x2x4800x2304_S2x2x192x2304_3_2_2_3_01_01 none l r) : (⟨S2x2x192x4800, .f32⟩ : BufTy).Contents (Elt F) → (⟨S2x2x4800x2304, .f32⟩ : BufTy).Contents (Elt F) → (⟨S2x2x192x2304, .f32⟩ : BufTy).Contents (Elt F)),
    unary main_arg3 main_v131 (broadcastInDim S2x2x192x2304 ![0, 1, 2, 3] bcast_S2x2x192x1_S2x2x192x2304_0_1_2_3 : (⟨S2x2x192x1, .f32⟩ : BufTy).Contents (Elt F) → (⟨S2x2x192x2304, .f32⟩ : BufTy).Contents (Elt F)),
    binary main_v130 main_v131 main_v132 (addf : (⟨S2x2x192x2304, .f32⟩ : BufTy).Contents (Elt F) → (⟨S2x2x192x2304, .f32⟩ : BufTy).Contents (Elt F) → (⟨S2x2x192x2304, .f32⟩ : BufTy).Contents (Elt F)),
    reshape main_v132 main_v133 rfl shapeCasts_S2x2x192x2304_S2x384x48x48 ]

set_option maxRecDepth 8192 in
theorem ops4_sub : (ops4 : List (HloOp τ sig (Elt F))).Forall fun op => op.bufs ⊆ tcRefs τ sig :=
  ⟨reshape_bufs_sub .., unary_bufs_sub .., reshape_bufs_sub .., unary_bufs_sub .., unary_bufs_sub .., binary_bufs_sub .., reshape_bufs_sub .., binary_bufs_sub .., unary_bufs_sub .., binary_bufs_sub .., reshape_bufs_sub ..⟩
theorem ops4_fresh : ∀ op ∈ (ops4 : List (HloOp τ sig (Elt F))), op.fresh = ∅ := by
  intro _ h; (repeat (cases h with | head => rfl | tail _ h => ?_)); exact nomatch h

/-- @main's 140 operations, in order (a called function's operations stand in its call's place). -/
abbrev ops : List (HloOp τ sig (Elt F)) := ops0 ++ (ops1 ++ (ops2 ++ (ops3 ++ ops4)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, ops4_sub⟩⟩⟩⟩
theorem ops_fresh : ∀ op ∈ (ops : List (HloOp τ sig (Elt F))), op.fresh = ∅ := by
  intro op h
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  · exact ops4_fresh op h

/-- The fold over a joined list is the fold over its second part after the fold over its first. -/
theorem after_app (l₁ l₂ : List (HloOp τ sig (Elt F))) (V : Valuation τ sig (Elt F)) : after (l₁ ++ l₂) V = after l₂ (after l₁ V) := by
  induction l₁ generalizing V with
  | nil => rfl
  | cons a l ih => exact ih _
/-- The whole fold, window by window. -/
theorem after_ops (V : Valuation τ sig (Elt F)) : after ops V = after ops4 (after ops3 (after ops2 (after ops1 (after ops0 V)))) := by
  show after (ops0 ++ (ops1 ++ (ops2 ++ (ops3 ++ ops4)))) V = _
  rw [after_app, after_app, after_app, after_app]

/-! ## What each window keeps -/

theorem keep0_arg0 (X : Valuation τ sig (Elt F)) : after ops0 X (Proc.devRef .tc main_arg0) = X (Proc.devRef .tc main_arg0) :=
  after_of_forall_not_mem (b := Proc.devRef .tc main_arg0) _ _ (List.forall_iff_forall_mem.mp (by
    simp only [ops0, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep0_arg1 (X : Valuation τ sig (Elt F)) : after ops0 X (Proc.devRef .tc main_arg1) = X (Proc.devRef .tc main_arg1) :=
  after_of_forall_not_mem (b := Proc.devRef .tc main_arg1) _ _ (List.forall_iff_forall_mem.mp (by
    simp only [ops0, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep0_arg2 (X : Valuation τ sig (Elt F)) : after ops0 X (Proc.devRef .tc main_arg2) = X (Proc.devRef .tc main_arg2) :=
  after_of_forall_not_mem (b := Proc.devRef .tc main_arg2) _ _ (List.forall_iff_forall_mem.mp (by
    simp only [ops0, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep0_arg3 (X : Valuation τ sig (Elt F)) : after ops0 X (Proc.devRef .tc main_arg3) = X (Proc.devRef .tc main_arg3) :=
  after_of_forall_not_mem (b := Proc.devRef .tc main_arg3) _ _ (List.forall_iff_forall_mem.mp (by
    simp only [ops0, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep1_arg0 (X : Valuation τ sig (Elt F)) : after ops1 X (Proc.devRef .tc main_arg0) = X (Proc.devRef .tc main_arg0) :=
  after_of_forall_not_mem (b := Proc.devRef .tc main_arg0) _ _ (List.forall_iff_forall_mem.mp (by
    simp only [ops1, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep1_arg1 (X : Valuation τ sig (Elt F)) : after ops1 X (Proc.devRef .tc main_arg1) = X (Proc.devRef .tc main_arg1) :=
  after_of_forall_not_mem (b := Proc.devRef .tc main_arg1) _ _ (List.forall_iff_forall_mem.mp (by
    simp only [ops1, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep1_arg2 (X : Valuation τ sig (Elt F)) : after ops1 X (Proc.devRef .tc main_arg2) = X (Proc.devRef .tc main_arg2) :=
  after_of_forall_not_mem (b := Proc.devRef .tc main_arg2) _ _ (List.forall_iff_forall_mem.mp (by
    simp only [ops1, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep1_arg3 (X : Valuation τ sig (Elt F)) : after ops1 X (Proc.devRef .tc main_arg3) = X (Proc.devRef .tc main_arg3) :=
  after_of_forall_not_mem (b := Proc.devRef .tc main_arg3) _ _ (List.forall_iff_forall_mem.mp (by
    simp only [ops1, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep2_arg0 (X : Valuation τ sig (Elt F)) : after ops2 X (Proc.devRef .tc main_arg0) = X (Proc.devRef .tc main_arg0) :=
  after_of_forall_not_mem (b := Proc.devRef .tc main_arg0) _ _ (List.forall_iff_forall_mem.mp (by
    simp only [ops2, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep2_arg1 (X : Valuation τ sig (Elt F)) : after ops2 X (Proc.devRef .tc main_arg1) = X (Proc.devRef .tc main_arg1) :=
  after_of_forall_not_mem (b := Proc.devRef .tc main_arg1) _ _ (List.forall_iff_forall_mem.mp (by
    simp only [ops2, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep2_arg2 (X : Valuation τ sig (Elt F)) : after ops2 X (Proc.devRef .tc main_arg2) = X (Proc.devRef .tc main_arg2) :=
  after_of_forall_not_mem (b := Proc.devRef .tc main_arg2) _ _ (List.forall_iff_forall_mem.mp (by
    simp only [ops2, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep2_arg3 (X : Valuation τ sig (Elt F)) : after ops2 X (Proc.devRef .tc main_arg3) = X (Proc.devRef .tc main_arg3) :=
  after_of_forall_not_mem (b := Proc.devRef .tc main_arg3) _ _ (List.forall_iff_forall_mem.mp (by
    simp only [ops2, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep3_arg0 (X : Valuation τ sig (Elt F)) : after ops3 X (Proc.devRef .tc main_arg0) = X (Proc.devRef .tc main_arg0) :=
  after_of_forall_not_mem (b := Proc.devRef .tc main_arg0) _ _ (List.forall_iff_forall_mem.mp (by
    simp only [ops3, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep3_arg1 (X : Valuation τ sig (Elt F)) : after ops3 X (Proc.devRef .tc main_arg1) = X (Proc.devRef .tc main_arg1) :=
  after_of_forall_not_mem (b := Proc.devRef .tc main_arg1) _ _ (List.forall_iff_forall_mem.mp (by
    simp only [ops3, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep3_arg2 (X : Valuation τ sig (Elt F)) : after ops3 X (Proc.devRef .tc main_arg2) = X (Proc.devRef .tc main_arg2) :=
  after_of_forall_not_mem (b := Proc.devRef .tc main_arg2) _ _ (List.forall_iff_forall_mem.mp (by
    simp only [ops3, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep3_arg3 (X : Valuation τ sig (Elt F)) : after ops3 X (Proc.devRef .tc main_arg3) = X (Proc.devRef .tc main_arg3) :=
  after_of_forall_not_mem (b := Proc.devRef .tc main_arg3) _ _ (List.forall_iff_forall_mem.mp (by
    simp only [ops3, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep4_arg0 (X : Valuation τ sig (Elt F)) : after ops4 X (Proc.devRef .tc main_arg0) = X (Proc.devRef .tc main_arg0) :=
  after_of_forall_not_mem (b := Proc.devRef .tc main_arg0) _ _ (List.forall_iff_forall_mem.mp (by
    simp only [ops4, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep4_arg1 (X : Valuation τ sig (Elt F)) : after ops4 X (Proc.devRef .tc main_arg1) = X (Proc.devRef .tc main_arg1) :=
  after_of_forall_not_mem (b := Proc.devRef .tc main_arg1) _ _ (List.forall_iff_forall_mem.mp (by
    simp only [ops4, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep4_arg2 (X : Valuation τ sig (Elt F)) : after ops4 X (Proc.devRef .tc main_arg2) = X (Proc.devRef .tc main_arg2) :=
  after_of_forall_not_mem (b := Proc.devRef .tc main_arg2) _ _ (List.forall_iff_forall_mem.mp (by
    simp only [ops4, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep4_arg3 (X : Valuation τ sig (Elt F)) : after ops4 X (Proc.devRef .tc main_arg3) = X (Proc.devRef .tc main_arg3) :=
  after_of_forall_not_mem (b := Proc.devRef .tc main_arg3) _ _ (List.forall_iff_forall_mem.mp (by
    simp only [ops4, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep1_v55 (X : Valuation τ sig (Elt F)) : after ops1 X (Proc.devRef .tc main_v55) = X (Proc.devRef .tc main_v55) :=
  after_of_forall_not_mem (b := Proc.devRef .tc main_v55) _ _ (List.forall_iff_forall_mem.mp (by
    simp only [ops1, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep2_v55 (X : Valuation τ sig (Elt F)) : after ops2 X (Proc.devRef .tc main_v55) = X (Proc.devRef .tc main_v55) :=
  after_of_forall_not_mem (b := Proc.devRef .tc main_v55) _ _ (List.forall_iff_forall_mem.mp (by
    simp only [ops2, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep3_v55 (X : Valuation τ sig (Elt F)) : after ops3 X (Proc.devRef .tc main_v55) = X (Proc.devRef .tc main_v55) :=
  after_of_forall_not_mem (b := Proc.devRef .tc main_v55) _ _ (List.forall_iff_forall_mem.mp (by
    simp only [ops3, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

theorem keep2_v63 (X : Valuation τ sig (Elt F)) : after ops2 X (Proc.devRef .tc main_v63) = X (Proc.devRef .tc main_v63) :=
  after_of_forall_not_mem (b := Proc.devRef .tc main_v63) _ _ (List.forall_iff_forall_mem.mp (by
    simp only [ops2, TRef.unary, TRef.binary, List.Forall, nullary_writes, unary_writes, binary_writes, ternary_writes, quaternary_writes, nary_writes, reshape_writes, binaryIndexed_writes, Finset.mem_singleton]
    repeat' apply And.intro
    all_goals exact devRef_ne_of_ne (by decide)))

end Cert.ReferenceIdeal.Value

end
-- ==== Proof.RefWin.lean ====
/-
  What the first and the last window of the reference's operations compute: their live results are the stage functions
  `Cert.ReferenceIdeal.Read.val_main_v…` of the arguments (both sides are the same composition of the same operations,
  so each equation closes by computation once the fold is read).
-/
import proofs.«146505_j13426067767599_2_alg».proof.Proof.RefOps

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo
open Cert.LibNary

variable {F : FTy → Type} [FloatOps F]

set_option maxHeartbeats 40000000 in
/-- Window 0: the unfolded image. -/
theorem win0_v55 (X : Valuation τ sig (Elt F)) :
    after ops0 X (Proc.devRef .tc main_v55) = val_main_v55 (F := F) (X (Proc.devRef .tc main_arg0)) := by
  after_results_nary
  rfl

set_option maxHeartbeats 40000000 in
/-- Window 4: the mask's re-layout, the product, the contraction and the bias. -/
theorem win4_v133 (X : Valuation τ sig (Elt F)) (x0 : (⟨S2x192x48x48, .f32⟩ : BufTy).Contents (Elt F)) (x1 : (⟨S2x2x48x48, .i32⟩ : BufTy).Contents (Elt F))
    (h55 : X (Proc.devRef .tc main_v55) = val_main_v55 (F := F) x0) (h122 : X (Proc.devRef .tc main_v122) = val_main_v122 (F := F) x1) :
    after ops4 X (Proc.devRef .tc main_v133)
      = val_main_v133 (F := F) x0 x1 (X (Proc.devRef .tc main_arg2)) (X (Proc.devRef .tc main_arg3)) := by
  after_results_nary
  rw [h55, h122]
  rfl

end Cert.ReferenceIdeal.Value

end
-- ==== Proof.RefWinB.lean ====
/-
  The middle windows of the reference's operations: the group offsets as a row per group; the 25 shifted copies of the
  padded offsets, each with a unit axis; their two stacks (sixteen and nine); and, from the two stacks and the row, the
  comparison with the centre. Each is the corresponding stage function `Cert.ReferenceIdeal.Read.val_main_v…` of the
  topology-group argument. The window of the copies and the stacks is read in two steps, the copies first, so that each
  stack is read as a function of the copies it joins.
-/
import proofs.«146505_j13426067767599_2_alg».proof.Proof.RefOps

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo
open Cert.LibNary

variable {F : FTy → Type} [FloatOps F]

set_option maxHeartbeats 40000000 in
/-- Window 1: the group offsets as a row per group. -/
theorem win1_v63 (X : Valuation τ sig (Elt F)) :
    after ops1 X (Proc.devRef .tc main_v63) = val_main_v63 (F := F) (X (Proc.devRef .tc main_arg1)) := by
  after_results_nary
  rfl

/-! ## Window 2 in two steps -/

set_option maxHeartbeats 200000000 in
/-- Operations 72 … 121: the 25 slices of the padded offsets and their 25 unit-axis copies. -/
abbrev ops2a : List (HloOp τ sig (Elt F)) :=
  [ unary main_v64 main_v65 ((extractStridedSlice S2x2x48x48 ![0, 0, 0, 0] · slices_S2x2x52x52_S2x2x48x48_0_0_0_0) : (⟨S2x2x52x52, .f32⟩ : BufTy).Contents (Elt F) → (⟨S2x2x48x48, .f32⟩ : BufTy).Contents (Elt F)),
    unary main_v64 main_v66 ((extractStridedSlice S2x2x48x48 ![0, 0, 0, 1] · slices_S2x2x52x52_S2x2x48x48_0_0_0_1) : (⟨S2x2x52x52, .f32⟩ : BufTy).Contents (Elt F) → (⟨S2x2x48x48, .f32⟩ : BufTy).Contents (Elt F)),
    unary main_v64 main_v67 ((extractStridedSlice S2x2x48x48 ![0, 0, 0, 2] · slices_S2x2x52x52_S2x2x48x48_0_0_0_2) : (⟨S2x2x52x52, .f32⟩ : BufTy).Contents (Elt F) → (⟨S2x2x48x48, .f32⟩ : BufTy).Contents (Elt F)),
    unary main_v64 main_v68 ((extractStridedSlice S2x2x48x48 ![0, 0, 0, 3] · slices_S2x2x52x52_S2x2x48x48_0_0_0_3) : (⟨S2x2x52x52, .f32⟩ : BufTy).Contents (Elt F) → (⟨S2x2x48x48, .f32⟩ : BufTy).Contents (Elt F)),
    unary main_v64 main_v69 ((extractStridedSlice S2x2x48x48 ![0, 0, 0, 4] · slices_S2x2x52x52_S2x2x48x48_0_0_0_4) : (⟨S2x2x52x52, .f32⟩ : BufTy).Contents (Elt F) → (⟨S2x2x48x48, .f32⟩ : BufTy).Contents (Elt F)),
    unary main_v64 main_v70 ((extractStridedSlice S2x2x48x48 ![0, 0, 1, 0] · slices_S2x2x52x52_S2x2x48x48_0_0_1_0) : (⟨S2x2x52x52, .f32⟩ : BufTy).Contents (Elt F) → (⟨S2x2x48x48, .f32⟩ : BufTy).Contents (Elt F)),
    unary main_v64 main_v71 ((extractStridedSlice S2x2x48x48 ![0, 0, 1, 1] · slices_S2x2x52x52_S2x2x48x48_0_0_1_1) : (⟨S2x2x52x52, .f32⟩ : BufTy).Contents (Elt F) → (⟨S2x2x48x48, .f32⟩ : BufTy).Contents (Elt F)),
    unary main_v64 main_v72 ((extractStridedSlice S2x2x48x48 ![0, 0, 1, 2] · slices_S2x2x52x52_S2x2x48x48_0_0_1_2) : (⟨S2x2x52x52, .f32⟩ : BufTy).Contents (Elt F) → (⟨S2x2x48x48, .f32⟩ : BufTy).Contents (Elt F)),
    unary main_v64 main_v73 ((extractStridedSlice S2x2x48x48 ![0, 0, 1, 3] · slices_S2x2x52x52_S2x2x48x48_0_0_1_3) : (⟨S2x2x52x52, .f32⟩ : BufTy).Contents (Elt F) → (⟨S2x2x48x48, .f32⟩ : BufTy).Contents (Elt F)),
    unary main_v64 main_v74 ((extractStridedSlice S2x2x48x48 ![0, 0, 1, 4] · slices_S2x2x52x52_S2x2x48x48_0_0_1_4) : (⟨S2x2x52x52, .f32⟩ : BufTy).Contents (Elt F) → (⟨S2x2x48x48, .f32⟩ : BufTy).Contents (Elt F)),
    unary main_v64 main_v75 ((extractStridedSlice S2x2x48x48 ![0, 0, 2, 0] · slices_S2x2x52x52_S2x2x48x48_0_0_2_0) : (⟨S2x2x52x52, .f32⟩ : BufTy).Contents (Elt F) → (⟨S2x2x48x48, .f32⟩ : BufTy).Contents (Elt F)),
    unary main_v64 main_v76 ((extractStridedSlice S2x2x48x48 ![0, 0, 2, 1] · slices_S2x2x52x52_S2x2x48x48_0_0_2_1) : (⟨S2x2x52x52, .f32⟩ : BufTy).Contents (Elt F) → (⟨S2x2x48x48, .f32⟩ : BufTy).Contents (Elt F)),
    unary main_v64 main_v77 ((extractStridedSlice S2x2x48x48 ![0, 0, 2, 2] · slices_S2x2x52x52_S2x2x48x48_0_0_2_2) : (⟨S2x2x52x52, .f32⟩ : BufTy).Contents (Elt F) → (⟨S2x2x48x48, .f32⟩ : BufTy).Contents (Elt F)),
    unary main_v64 main_v78 ((extractStridedSlice S2x2x48x48 ![0, 0, 2, 3] · slices_S2x2x52x52_S2x2x48x48_0_0_2_3) : (⟨S2x2x52x52, .f32⟩ : BufTy).Contents (Elt F) → (⟨S2x2x48x48, .f32⟩ : BufTy).Contents (Elt F)),
    unary main_v64 main_v79 ((extractStridedSlice S2x2x48x48 ![0, 0, 2, 4] · slices_S2x2x52x52_S2x2x48x48_0_0_2_4) : (⟨S2x2x52x52, .f32⟩ : BufTy).Contents (Elt F) → (⟨S2x2x48x48, .f32⟩ : BufTy).Contents (Elt F)),
    unary main_v64 main_v80 ((extractStridedSlice S2x2x48x48 ![0, 0, 3, 0] · slices_S2x2x52x52_S2x2x48x48_0_0_3_0) : (⟨S2x2x52x52, .f32⟩ : BufTy).Contents (Elt F) → (⟨S2x2x48x48, .f32⟩ : BufTy).Contents (Elt F)),
    unary main_v64 main_v81 ((extractStridedSlice S2x2x48x48 ![0, 0, 3, 1] · slices_S2x2x52x52_S2x2x48x48_0_0_3_1) : (⟨S2x2x52x52, .f32⟩ : BufTy).Contents (Elt F) → (⟨S2x2x48x48, .f32⟩ : BufTy).Contents (Elt F)),
    unary main_v64 main_v82 ((extractStridedSlice S2x2x48x48 ![0, 0, 3, 2] · slices_S2x2x52x52_S2x2x48x48_0_0_3_2) : (⟨S2x2x52x52, .f32⟩ : BufTy).Contents (Elt F) → (⟨S2x2x48x48, .f32⟩ : BufTy).Contents (Elt F)),
    unary main_v64 main_v83 ((extractStridedSlice S2x2x48x48 ![0, 0, 3, 3] · slices_S2x2x52x52_S2x2x48x48_0_0_3_3) : (⟨S2x2x52x52, .f32⟩ : BufTy).Contents (Elt F) → (⟨S2x2x48x48, .f32⟩ : BufTy).Contents (Elt F)),
    unary main_v64 main_v84 ((extractStridedSlice S2x2x48x48 ![0, 0, 3, 4] · slices_S2x2x52x52_S2x2x48x48_0_0_3_4) : (⟨S2x2x52x52, .f32⟩ : BufTy).Contents (Elt F) → (⟨S2x2x48x48, .f32⟩ : BufTy).Contents (Elt F)),
    unary main_v64 main_v85 ((extractStridedSlice S2x2x48x48 ![0, 0, 4, 0] · slices_S2x2x52x52_S2x2x48x48_0_0_4_0) : (⟨S2x2x52x52, .f32⟩ : BufTy).Contents (Elt F) → (⟨S2x2x48x48, .f32⟩ : BufTy).Contents (Elt F)),
    unary main_v64 main_v86 ((extractStridedSlice S2x2x48x48 ![0, 0, 4, 1] · slices_S2x2x52x52_S2x2x48x48_0_0_4_1) : (⟨S2x2x52x52, .f32⟩ : BufTy).Contents (Elt F) → (⟨S2x2x48x48, .f32⟩ : BufTy).Contents (Elt F)),
    unary main_v64 main_v87 ((extractStridedSlice S2x2x48x48 ![0, 0, 4, 2] · slices_S2x2x52x52_S2x2x48x48_0_0_4_2) : (⟨S2x2x52x52, .f32⟩ : BufTy).Contents (Elt F) → (⟨S2x2x48x48, .f32⟩ : BufTy).Contents (Elt F)),
    unary main_v64 main_v88 ((extractStridedSlice S2x2x48x48 ![0, 0, 4, 3] · slices_S2x2x52x52_S2x2x48x48_0_0_4_3) : (⟨S2x2x52x52, .f32⟩ : BufTy).Contents (Elt F) → (⟨S2x2x48x48, .f32⟩ : BufTy).Contents (Elt F)),
    unary main_v64 main_v89 ((extractStridedSlice S2x2x48x48 ![0, 0, 4, 4] · slices_S2x2x52x52_S2x2x48x48_0_0_4_4) : (⟨S2x2x52x52, .f32⟩ : BufTy).Contents (Elt F) → (⟨S2x2x48x48, .f32⟩ : BufTy).Contents (Elt F)),
    unary main_v65 main_v90 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v66 main_v91 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v67 main_v92 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v68 main_v93 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v69 main_v94 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v70 main_v95 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v71 main_v96 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v72 main_v97 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v73 main_v98 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v74 main_v99 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v75 main_v100 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v76 main_v101 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v77 main_v102 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v78 main_v103 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v79 main_v104 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v80 main_v105 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v81 main_v106 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v82 main_v107 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v83 main_v108 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v84 main_v109 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v85 main_v110 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v86 main_v111 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v87 main_v112 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v88 main_v113 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)),
    unary main_v89 main_v114 (broadcastInDim S2x2x1x48x48 ![0, 1, 3, 4] bcast_S2x2x48x48_S2x2x1x48x48_0_1_3_4 : (⟨S2x2x48x48, .f32⟩ : BufTy).Contents (Elt F) → (⟨S2x2x1x48x48, .f32⟩ : BufTy).Contents (Elt F)) ]

set_option maxHeartbeats 200000000 in
/-- Operations 122 and 123: the two stacks. -/
abbrev ops2b : List (HloOp τ sig (Elt F)) :=
  [ nary ![main_v90, main_v91, main_v92, main_v93, main_v94, main_v95, main_v96, main_v97, main_v98, main_v99, main_v100, main_v101, main_v102, main_v103, main_v104, main_v105] main_v115 (fun u => concatenate S2x2x16x48x48 2 [⟨S2x2x1x48x48, u 0⟩, ⟨S2x2x1x48x48, u 1⟩, ⟨S2x2x1x48x48, u 2⟩, ⟨S2x2x1x48x48, u 3⟩, ⟨S2x2x1x48x48, u 4⟩, ⟨S2x2x1x48x48, u 5⟩, ⟨S2x2x1x48x48, u 6⟩, ⟨S2x2x1x48x48, u 7⟩, ⟨S2x2x1x48x48, u 8⟩, ⟨S2x2x1x48x48, u 9⟩, ⟨S2x2x1x48x48, u 10⟩, ⟨S2x2x1x48x48, u 11⟩, ⟨S2x2x1x48x48, u 12⟩, ⟨S2x2x1x48x48, u 13⟩, ⟨S2x2x1x48x48, u 14⟩, ⟨S2x2x1x48x48, u 15⟩] concatenates_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x16x48x48_d2),
    nary ![main_v106, main_v107, main_v108, main_v109, main_v110, main_v111, main_v112, main_v113, main_v114] main_v116 (fun u => concatenate S2x2x9x48x48 2 [⟨S2x2x1x48x48, u 0⟩, ⟨S2x2x1x48x48, u 1⟩, ⟨S2x2x1x48x48, u 2⟩, ⟨S2x2x1x48x48, u 3⟩, ⟨S2x2x1x48x48, u 4⟩, ⟨S2x2x1x48x48, u 5⟩, ⟨S2x2x1x48x48, u 6⟩, ⟨S2x2x1x48x48, u 7⟩, ⟨S2x2x1x48x48, u 8⟩] concatenates_S2x2x1x48x48_S2x2x1x48x48_S2x2x1x48x48_S2x2x1x48x48_S2x2x1x48x48_S2x2x1x48x48_S2x2x1x48x48_S2x2x1x48x48_S2x2x1x48x48_S2x2x9x48x48_d2) ]

set_option maxRecDepth 8192 in
set_option maxHeartbeats 4000000 in
theorem ops2_split : (ops2 : List (HloOp τ sig (Elt F))) = ops2a ++ ops2b := rfl

/-! ### The copies -/

set_option maxHeartbeats 40000000 in
theorem w2_0 (X : Valuation τ sig (Elt F)) :
    after ops2a (after ops1 X) (Proc.devRef .tc main_v90) = val_main_v90 (F := F) (X (Proc.devRef .tc main_arg1)) := by
  after_results_nary
  rfl
set_option maxHeartbeats 40000000 in
theorem w2_1 (X : Valuation τ sig (Elt F)) :
    after ops2a (after ops1 X) (Proc.devRef .tc main_v91) = val_main_v91 (F := F) (X (Proc.devRef .tc main_arg1)) := by
  after_results_nary
  rfl
set_option maxHeartbeats 40000000 in
theorem w2_2 (X : Valuation τ sig (Elt F)) :
    after ops2a (after ops1 X) (Proc.devRef .tc main_v92) = val_main_v92 (F := F) (X (Proc.devRef .tc main_arg1)) := by
  after_results_nary
  rfl
set_option maxHeartbeats 40000000 in
theorem w2_3 (X : Valuation τ sig (Elt F)) :
    after ops2a (after ops1 X) (Proc.devRef .tc main_v93) = val_main_v93 (F := F) (X (Proc.devRef .tc main_arg1)) := by
  after_results_nary
  rfl
set_option maxHeartbeats 40000000 in
theorem w2_4 (X : Valuation τ sig (Elt F)) :
    after ops2a (after ops1 X) (Proc.devRef .tc main_v94) = val_main_v94 (F := F) (X (Proc.devRef .tc main_arg1)) := by
  after_results_nary
  rfl
set_option maxHeartbeats 40000000 in
theorem w2_5 (X : Valuation τ sig (Elt F)) :
    after ops2a (after ops1 X) (Proc.devRef .tc main_v95) = val_main_v95 (F := F) (X (Proc.devRef .tc main_arg1)) := by
  after_results_nary
  rfl
set_option maxHeartbeats 40000000 in
theorem w2_6 (X : Valuation τ sig (Elt F)) :
    after ops2a (after ops1 X) (Proc.devRef .tc main_v96) = val_main_v96 (F := F) (X (Proc.devRef .tc main_arg1)) := by
  after_results_nary
  rfl
set_option maxHeartbeats 40000000 in
theorem w2_7 (X : Valuation τ sig (Elt F)) :
    after ops2a (after ops1 X) (Proc.devRef .tc main_v97) = val_main_v97 (F := F) (X (Proc.devRef .tc main_arg1)) := by
  after_results_nary
  rfl
set_option maxHeartbeats 40000000 in
theorem w2_8 (X : Valuation τ sig (Elt F)) :
    after ops2a (after ops1 X) (Proc.devRef .tc main_v98) = val_main_v98 (F := F) (X (Proc.devRef .tc main_arg1)) := by
  after_results_nary
  rfl
set_option maxHeartbeats 40000000 in
theorem w2_9 (X : Valuation τ sig (Elt F)) :
    after ops2a (after ops1 X) (Proc.devRef .tc main_v99) = val_main_v99 (F := F) (X (Proc.devRef .tc main_arg1)) := by
  after_results_nary
  rfl
set_option maxHeartbeats 40000000 in
theorem w2_10 (X : Valuation τ sig (Elt F)) :
    after ops2a (after ops1 X) (Proc.devRef .tc main_v100) = val_main_v100 (F := F) (X (Proc.devRef .tc main_arg1)) := by
  after_results_nary
  rfl
set_option maxHeartbeats 40000000 in
theorem w2_11 (X : Valuation τ sig (Elt F)) :
    after ops2a (after ops1 X) (Proc.devRef .tc main_v101) = val_main_v101 (F := F) (X (Proc.devRef .tc main_arg1)) := by
  after_results_nary
  rfl
set_option maxHeartbeats 40000000 in
theorem w2_12 (X : Valuation τ sig (Elt F)) :
    after ops2a (after ops1 X) (Proc.devRef .tc main_v102) = val_main_v102 (F := F) (X (Proc.devRef .tc main_arg1)) := by
  after_results_nary
  rfl
set_option maxHeartbeats 40000000 in
theorem w2_13 (X : Valuation τ sig (Elt F)) :
    after ops2a (after ops1 X) (Proc.devRef .tc main_v103) = val_main_v103 (F := F) (X (Proc.devRef .tc main_arg1)) := by
  after_results_nary
  rfl
set_option maxHeartbeats 40000000 in
theorem w2_14 (X : Valuation τ sig (Elt F)) :
    after ops2a (after ops1 X) (Proc.devRef .tc main_v104) = val_main_v104 (F := F) (X (Proc.devRef .tc main_arg1)) := by
  after_results_nary
  rfl
set_option maxHeartbeats 40000000 in
theorem w2_15 (X : Valuation τ sig (Elt F)) :
    after ops2a (after ops1 X) (Proc.devRef .tc main_v105) = val_main_v105 (F := F) (X (Proc.devRef .tc main_arg1)) := by
  after_results_nary
  rfl
set_option maxHeartbeats 40000000 in
theorem w2_16 (X : Valuation τ sig (Elt F)) :
    after ops2a (after ops1 X) (Proc.devRef .tc main_v106) = val_main_v106 (F := F) (X (Proc.devRef .tc main_arg1)) := by
  after_results_nary
  rfl
set_option maxHeartbeats 40000000 in
theorem w2_17 (X : Valuation τ sig (Elt F)) :
    after ops2a (after ops1 X) (Proc.devRef .tc main_v107) = val_main_v107 (F := F) (X (Proc.devRef .tc main_arg1)) := by
  after_results_nary
  rfl
set_option maxHeartbeats 40000000 in
theorem w2_18 (X : Valuation τ sig (Elt F)) :
    after ops2a (after ops1 X) (Proc.devRef .tc main_v108) = val_main_v108 (F := F) (X (Proc.devRef .tc main_arg1)) := by
  after_results_nary
  rfl
set_option maxHeartbeats 40000000 in
theorem w2_19 (X : Valuation τ sig (Elt F)) :
    after ops2a (after ops1 X) (Proc.devRef .tc main_v109) = val_main_v109 (F := F) (X (Proc.devRef .tc main_arg1)) := by
  after_results_nary
  rfl
set_option maxHeartbeats 40000000 in
theorem w2_20 (X : Valuation τ sig (Elt F)) :
    after ops2a (after ops1 X) (Proc.devRef .tc main_v110) = val_main_v110 (F := F) (X (Proc.devRef .tc main_arg1)) := by
  after_results_nary
  rfl
set_option maxHeartbeats 40000000 in
theorem w2_21 (X : Valuation τ sig (Elt F)) :
    after ops2a (after ops1 X) (Proc.devRef .tc main_v111) = val_main_v111 (F := F) (X (Proc.devRef .tc main_arg1)) := by
  after_results_nary
  rfl
set_option maxHeartbeats 40000000 in
theorem w2_22 (X : Valuation τ sig (Elt F)) :
    after ops2a (after ops1 X) (Proc.devRef .tc main_v112) = val_main_v112 (F := F) (X (Proc.devRef .tc main_arg1)) := by
  after_results_nary
  rfl
set_option maxHeartbeats 40000000 in
theorem w2_23 (X : Valuation τ sig (Elt F)) :
    after ops2a (after ops1 X) (Proc.devRef .tc main_v113) = val_main_v113 (F := F) (X (Proc.devRef .tc main_arg1)) := by
  after_results_nary
  rfl
set_option maxHeartbeats 40000000 in
theorem w2_24 (X : Valuation τ sig (Elt F)) :
    after ops2a (after ops1 X) (Proc.devRef .tc main_v114) = val_main_v114 (F := F) (X (Proc.devRef .tc main_arg1)) := by
  after_results_nary
  rfl

/-! ### The stacks -/

/-- 16 arrays, each one tap's copy with a unit axis, joined along that axis. -/
def cat16 (a0 : (⟨S2x2x1x48x48, .f32⟩ : BufTy).Contents (Elt F)) (a1 : (⟨S2x2x1x48x48, .f32⟩ : BufTy).Contents (Elt F)) (a2 : (⟨S2x2x1x48x48, .f32⟩ : BufTy).Contents (Elt F)) (a3 : (⟨S2x2x1x48x48, .f32⟩ : BufTy).Contents (Elt F)) (a4 : (⟨S2x2x1x48x48, .f32⟩ : BufTy).Contents (Elt F)) (a5 : (⟨S2x2x1x48x48, .f32⟩ : BufTy).Contents (Elt F)) (a6 : (⟨S2x2x1x48x48, .f32⟩ : BufTy).Contents (Elt F)) (a7 : (⟨S2x2x1x48x48, .f32⟩ : BufTy).Contents (Elt F)) (a8 : (⟨S2x2x1x48x48, .f32⟩ : BufTy).Contents (Elt F)) (a9 : (⟨S2x2x1x48x48, .f32⟩ : BufTy).Contents (Elt F)) (a10 : (⟨S2x2x1x48x48, .f32⟩ : BufTy).Contents (Elt F)) (a11 : (⟨S2x2x1x48x48, .f32⟩ : BufTy).Contents (Elt F)) (a12 : (⟨S2x2x1x48x48, .f32⟩ : BufTy).Contents (Elt F)) (a13 : (⟨S2x2x1x48x48, .f32⟩ : BufTy).Contents (Elt F)) (a14 : (⟨S2x2x1x48x48, .f32⟩ : BufTy).Contents (Elt F)) (a15 : (⟨S2x2x1x48x48, .f32⟩ : BufTy).Contents (Elt F)) : (⟨S2x2x16x48x48, .f32⟩ : BufTy).Contents (Elt F) :=
  concatenate S2x2x16x48x48 2 [⟨S2x2x1x48x48, a0⟩, ⟨S2x2x1x48x48, a1⟩, ⟨S2x2x1x48x48, a2⟩, ⟨S2x2x1x48x48, a3⟩, ⟨S2x2x1x48x48, a4⟩, ⟨S2x2x1x48x48, a5⟩, ⟨S2x2x1x48x48, a6⟩, ⟨S2x2x1x48x48, a7⟩, ⟨S2x2x1x48x48, a8⟩, ⟨S2x2x1x48x48, a9⟩, ⟨S2x2x1x48x48, a10⟩, ⟨S2x2x1x48x48, a11⟩, ⟨S2x2x1x48x48, a12⟩, ⟨S2x2x1x48x48, a13⟩, ⟨S2x2x1x48x48, a14⟩, ⟨S2x2x1x48x48, a15⟩] concatenates_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x1x48x48_S2x2x16x48x48_d2

/-- 9 arrays, each one tap's copy with a unit axis, joined along that axis. -/
def cat9 (a0 : (⟨S2x2x1x48x48, .f32⟩ : BufTy).Contents (Elt F)) (a1 : (⟨S2x2x1x48x48, .f32⟩ : BufTy).Contents (Elt F)) (a2 : (⟨S2x2x1x48x48, .f32⟩ : BufTy).Contents (Elt F)) (a3 : (⟨S2x2x1x48x48, .f32⟩ : BufTy).Contents (Elt F)) (a4 : (⟨S2x2x1x48x48, .f32⟩ : BufTy).Contents (Elt F)) (a5 : (⟨S2x2x1x48x48, .f32⟩ : BufTy).Contents (Elt F)) (a6 : (⟨S2x2x1x48x48, .f32⟩ : BufTy).Contents (Elt F)) (a7 : (⟨S2x2x1x48x48, .f32⟩ : BufTy).Contents (Elt F)) (a8 : (⟨S2x2x1x48x48, .f32⟩ : BufTy).Contents (Elt F)) : (⟨S2x2x9x48x48, .f32⟩ : BufTy).Contents (Elt F) :=
  concatenate S2x2x9x48x48 2 [⟨S2x2x1x48x48, a0⟩, ⟨S2x2x1x48x48, a1⟩, ⟨S2x2x1x48x48, a2⟩, ⟨S2x2x1x48x48, a3⟩, ⟨S2x2x1x48x48, a4⟩, ⟨S2x2x1x48x48, a5⟩, ⟨S2x2x1x48x48, a6⟩, ⟨S2x2x1x48x48, a7⟩, ⟨S2x2x1x48x48, a8⟩] concatenates_S2x2x1x48x48_S2x2x1x48x48_S2x2x1x48x48_S2x2x1x48x48_S2x2x1x48x48_S2x2x1x48x48_S2x2x1x48x48_S2x2x1x48x48_S2x2x1x48x48_S2x2x9x48x48_d2

theorem val_main_v115_eq (x1 : (⟨S2x2x48x48, .i32⟩ : BufTy).Contents (Elt F)) :
    val_main_v115 (F := F) x1 = cat16 (val_main_v90 (F := F) x1) (val_main_v91 (F := F) x1) (val_main_v92 (F := F) x1) (val_main_v93 (F := F) x1) (val_main_v94 (F := F) x1) (val_main_v95 (F := F) x1) (val_main_v96 (F := F) x1) (val_main_v97 (F := F) x1) (val_main_v98 (F := F) x1) (val_main_v99 (F := F) x1) (val_main_v100 (F := F) x1) (val_main_v101 (F := F) x1) (val_main_v102 (F := F) x1) (val_main_v103 (F := F) x1) (val_main_v104 (F := F) x1) (val_main_v105 (F := F) x1) := rfl
theorem val_main_v116_eq (x1 : (⟨S2x2x48x48, .i32⟩ : BufTy).Contents (Elt F)) :
    val_main_v116 (F := F) x1 = cat9 (val_main_v106 (F := F) x1) (val_main_v107 (F := F) x1) (val_main_v108 (F := F) x1) (val_main_v109 (F := F) x1) (val_main_v110 (F := F) x1) (val_main_v111 (F := F) x1) (val_main_v112 (F := F) x1) (val_main_v113 (F := F) x1) (val_main_v114 (F := F) x1) := rfl

set_option maxHeartbeats 40000000 in
theorem w2b_v115 (Y : Valuation τ sig (Elt F)) :
    after ops2b Y (Proc.devRef .tc main_v115) = cat16 (Y (Proc.devRef .tc main_v90)) (Y (Proc.devRef .tc main_v91)) (Y (Proc.devRef .tc main_v92)) (Y (Proc.devRef .tc main_v93)) (Y (Proc.devRef .tc main_v94)) (Y (Proc.devRef .tc main_v95)) (Y (Proc.devRef .tc main_v96)) (Y (Proc.devRef .tc main_v97)) (Y (Proc.devRef .tc main_v98)) (Y (Proc.devRef .tc main_v99)) (Y (Proc.devRef .tc main_v100)) (Y (Proc.devRef .tc main_v101)) (Y (Proc.devRef .tc main_v102)) (Y (Proc.devRef .tc main_v103)) (Y (Proc.devRef .tc main_v104)) (Y (Proc.devRef .tc main_v105)) := by
  after_results_nary
  rfl

set_option maxHeartbeats 40000000 in
theorem w2b_v116 (Y : Valuation τ sig (Elt F)) :
    after ops2b Y (Proc.devRef .tc main_v116) = cat9 (Y (Proc.devRef .tc main_v106)) (Y (Proc.devRef .tc main_v107)) (Y (Proc.devRef .tc main_v108)) (Y (Proc.devRef .tc main_v109)) (Y (Proc.devRef .tc main_v110)) (Y (Proc.devRef .tc main_v111)) (Y (Proc.devRef .tc main_v112)) (Y (Proc.devRef .tc main_v113)) (Y (Proc.devRef .tc main_v114)) := by
  after_results_nary
  rfl

/-- Windows 1 and 2: the first sixteen shifted copies of the padded offsets, stacked, -/
theorem win12_v115 (X : Valuation τ sig (Elt F)) :
    after ops2 (after ops1 X) (Proc.devRef .tc main_v115) = val_main_v115 (F := F) (X (Proc.devRef .tc main_arg1)) := by
  rw [ops2_split, after_app, w2b_v115, w2_0, w2_1, w2_2, w2_3, w2_4, w2_5, w2_6, w2_7, w2_8, w2_9, w2_10, w2_11, w2_12, w2_13, w2_14, w2_15, val_main_v115_eq]

/-- and the last nine. -/
theorem win12_v116 (X : Valuation τ sig (Elt F)) :
    after ops2 (after ops1 X) (Proc.devRef .tc main_v116) = val_main_v116 (F := F) (X (Proc.devRef .tc main_arg1)) := by
  rw [ops2_split, after_app, w2b_v116, w2_16, w2_17, w2_18, w2_19, w2_20, w2_21, w2_22, w2_23, w2_24, val_main_v116_eq]

/-! ## Window 3 -/

/-- Window 3 as one function of what it reads: the two stacks joined, flattened to a row per (group, tap), compared
    entry by entry with the centre's row. -/
def stage122 (a : (⟨S2x2x16x48x48, .f32⟩ : BufTy).Contents (Elt F)) (b : (⟨S2x2x9x48x48, .f32⟩ : BufTy).Contents (Elt F)) (r : (⟨S2x2x1x2304, .f32⟩ : BufTy).Contents (Elt F)) : (⟨S2x2x50x2304, .i1⟩ : BufTy).Contents (Elt F) :=
  cmpf .olt
    (broadcastInDim S2x2x50x2304 ![0, 1, 2, 3] bcast_S2x1x50x2304_S2x2x50x2304_0_1_2_3
      (broadcastInDim S2x1x50x2304 ![0, 2, 3] bcast_S2x50x2304_S2x1x50x2304_0_2_3
        (shapeCast _ (concatenate S2x2x25x48x48 2 [⟨S2x2x16x48x48, a⟩, ⟨S2x2x9x48x48, b⟩] concatenates_S2x2x16x48x48_S2x2x9x48x48_S2x2x25x48x48_d2)
          shapeCasts_S2x2x25x48x48_S2x50x2304)))
    (broadcastInDim S2x2x50x2304 ![0, 1, 2, 3] bcast_S2x2x1x2304_S2x2x50x2304_0_1_2_3 r)

/-- The comparison's stage function is that function of the three stages it reads. -/
theorem val_main_v122_eq (x1 : (⟨S2x2x48x48, .i32⟩ : BufTy).Contents (Elt F)) :
    val_main_v122 (F := F) x1 = stage122 (val_main_v115 (F := F) x1) (val_main_v116 (F := F) x1) (val_main_v63 (F := F) x1) := rfl

set_option maxHeartbeats 40000000 in
/-- Window 3 computes it. -/
theorem win3_v122 (X : Valuation τ sig (Elt F)) :
    after ops3 X (Proc.devRef .tc main_v122)
      = stage122 (X (Proc.devRef .tc main_v115)) (X (Proc.devRef .tc main_v116)) (X (Proc.devRef .tc main_v63)) := by
  after_results_nary
  rfl

end Cert.ReferenceIdeal.Value

end
-- ==== Proof.RefRun.lean ====
/-
  The reference's run.

  The library's run of a straight line of host operations ends with every buffer at the fold of the operations over the
  launch contents; the fold is read window by window (RefWin.lean), so the result buffer ends at the last stage
  function `val_main_v133` of the four arguments, and the arguments end unchanged.
-/
import proofs.«146505_j13426067767599_2_alg».proof.Proof.RefWin
import proofs.«146505_j13426067767599_2_alg».proof.Proof.RefWinB

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo
open Cert.LibNary

variable {F : FTy → Type} [FloatOps F]

/-- The result buffer after the whole fold. -/
theorem after_v133 (W : Valuation τ sig (Elt F)) :
    after ops W (Proc.devRef .tc main_v133)
      = val_main_v133 (F := F) (W (Proc.devRef .tc main_arg0)) (W (Proc.devRef .tc main_arg1)) (W (Proc.devRef .tc main_arg2)) (W (Proc.devRef .tc main_arg3)) := by
  rw [after_ops]
  have h55 : after ops3 (after ops2 (after ops1 (after ops0 W))) (Proc.devRef .tc main_v55) = val_main_v55 (F := F) (W (Proc.devRef .tc main_arg0)) := by
    rw [keep3_v55, keep2_v55, keep1_v55, win0_v55]
  have h122 : after ops3 (after ops2 (after ops1 (after ops0 W))) (Proc.devRef .tc main_v122) = val_main_v122 (F := F) (W (Proc.devRef .tc main_arg1)) := by
    rw [win3_v122, win12_v115, win12_v116, keep2_v63, win1_v63, keep0_arg1, val_main_v122_eq]
  rw [win4_v133 _ _ _ h55 h122, keep3_arg2, keep2_arg2, keep1_arg2, keep0_arg2, keep3_arg3, keep2_arg3, keep1_arg3, keep0_arg3]

theorem after_arg0 (W : Valuation τ sig (Elt F)) : after ops W (Proc.devRef .tc main_arg0) = W (Proc.devRef .tc main_arg0) := by
  rw [after_ops, keep4_arg0, keep3_arg0, keep2_arg0, keep1_arg0, keep0_arg0]
theorem after_arg1 (W : Valuation τ sig (Elt F)) : after ops W (Proc.devRef .tc main_arg1) = W (Proc.devRef .tc main_arg1) := by
  rw [after_ops, keep4_arg1, keep3_arg1, keep2_arg1, keep1_arg1, keep0_arg1]
theorem after_arg2 (W : Valuation τ sig (Elt F)) : after ops W (Proc.devRef .tc main_arg2) = W (Proc.devRef .tc main_arg2) := by
  rw [after_ops, keep4_arg2, keep3_arg2, keep2_arg2, keep1_arg2, keep0_arg2]
theorem after_arg3 (W : Valuation τ sig (Elt F)) : after ops W (Proc.devRef .tc main_arg3) = W (Proc.devRef .tc main_arg3) := by
  rw [after_ops, keep4_arg3, keep3_arg3, keep2_arg3, keep1_arg3, keep0_arg3]

/-- On every device, for any float values, from any memory with zero counters: every weakly fair execution of @main
    terminates with the result at `val_main_v133` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = val_main_v133 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v133).trans (after_v133 _),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ (fun _ => ops_fresh))

end Cert.ReferenceIdeal.Value

end
-- ==== Proof.RefResult.lean ====
/-
  The reference's run ends with its result at the specification of its arguments: its run ends at the last stage
  function of the arguments (RefRun.lean), and that stage function is the specification (RefValue.lean).
-/
import proofs.«146505_j13426067767599_2_alg».proof.Proof.RefValue
import proofs.«146505_j13426067767599_2_alg».proof.Proof.RefRun

noncomputable section

namespace Cert.ReferenceIdeal.RefValue

open Idealize.ShloMosaic Idealize.ShloMosaic.TcCoe
open Idealize.SL Idealize.SL.Sem
open Cert.ReferenceIdeal Cert.ReferenceIdeal.Gen Cert.ReferenceIdeal.Read

/-- The reference's run ends with its result at the specification of its arguments, and its arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v133)
        = Cert.Spec.G (Cert.Spec.padX (m ((c.tc : Thread nD τ).loc main_arg0))) (Cert.Spec.padT (m ((c.tc : Thread nD τ).loc main_arg1)))
            (Cert.Spec.offsets (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨(h c).1.trans (result_eq _ _ _ _), (h c).2⟩)
    (Cert.ReferenceIdeal.Value.run (F := Ideal) m ρ)

end Cert.ReferenceIdeal.RefValue

end
-- ==== Proof.lean ====
/-
  The certificate's claim: a dynamic-mask 5×5 convolution kernel against its reference.

  Both programs compute, for image `b`, output channel `n = g·192 + o` and pixel `(h, w)`,

      Σ over the 25 taps s and the 192 input channels c of   w[b, g, o, c·25 + s] · ( x̃[b, c, h + s/5, w + s%5] · 1[ t̃[b, c/96, h + s/5, w + s%5] < t[b, g, h, w] ] )   +  bias[b, g, o]

  (x̃ the zero-padded image, t the topology-group offsets, t̃ their zero padding): `Cert.Spec.G`.
  The kernel walks a 2 × 25 grid (image, tap), adds at each tap a 384 × 192 by 192 × 2304 masked product into an
  accumulator it keeps between taps, and stores accumulator plus bias at the last tap; the reference unfolds image
  and mask into 4800 rows and contracts them at once. Over the extended reals a change of float format is the identity
  and sums may be regrouped freely, so the two results are the same number, and the argument never needs the inputs to
  be finite.

  Parts: the frames of the two kernel programs (the grid's three kinds of point; the accumulator's contents after every
  point), the kernel's value (Proof/KI/…: stores → accumulator → output array → result), the reference's run and value
  (Proof/RefOps, RefWin, RefWinB, RefRun, RefValue, RefResult), and here the five claims.
-/
import proofs.«146505_j13426067767599_2_alg».proof.Defs
import proofs.«146505_j13426067767599_2_alg».proof.Proof.Gen.Kernel
import proofs.«146505_j13426067767599_2_alg».proof.Proof.Gen.KernelIdeal
import proofs.«146505_j13426067767599_2_alg».proof.Proof.Gen.ReferenceIdeal
import proofs.«146505_j13426067767599_2_alg».proof.Proof.Gen.Pre_finite_inputs
import proofs.«146505_j13426067767599_2_alg».proof.Proof.K.Frame
import proofs.«146505_j13426067767599_2_alg».proof.Proof.KI.Bridge
import proofs.«146505_j13426067767599_2_alg».proof.Proof.RefResult

noncomputable section

namespace Cert.Proof

open Idealize.ShloMosaic Idealize.ShloMosaic.TcCoe Idealize.SL.Sem

/-- The kernel program as printed runs to its end and leaves its arguments alone. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification of their (agreeing) arguments. -/
theorem algebraic : Cert.algebraic_KernelIdeal_ReferenceIdeal := by
  intro m ρ m' ρ' _ hagree
  refine ⟨_, Cert.KernelIdeal.Fr.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
